-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_2)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_2) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S4x2048x14x14 : S_.BroadcastsInDim S4x2048x14x14 (![] : Fin 0 → Fin S4x2048x14x14.rank)
  reducesTo_S4x2048x14x14_S_d0_1_2_3 : S4x2048x14x14.ReducesTo [0, 1, 2, 3] S_
  h_S_ : 0 < S_.numel
  bcast_S_S80x300 : S_.BroadcastsInDim S80x300 (![] : Fin 0 → Fin S80x300.rank)
  reducesTo_S80x300_S_d0_1 : S80x300.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x300 : S_.BroadcastsInDim S1024x300 (![] : Fin 0 → Fin S1024x300.rank)
  reducesTo_S1024x300_S_d0_1 : S1024x300.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1x1024 .f32) (main_arg7 : FVec F S1 .f32) (main_v13 : IVec S_ 1) (main_v16 : IVec S1024x300 1) : IVec S_ 1 :=
  let main_c_5 : IVec S_ 1 := constantI S_ 1 1#1
  let main_v17 : IVec S_ 1 := (fun x v => Host.reduce IntOp.andi x v reducesTo_S1024x300_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S4x2048x14x14 .f32) (main_arg1 : FVec F S80x300 .f32) (main_arg2 : FVec F S1024x2048 .f32) (main_arg3 : FVec F S1024x300 .f32) (main_arg4 : FVec F S1024x1024 .f32) (main_arg5 : FVec F S1024 .f32) (main_arg6 : FVec F S1x1024 .f32) (main_arg7 : FVec F S1 .f32) : IVec S_ 1 :=
  let main_v0 : FVec F S4x2048x14x14 .f32 := Host.absf main_arg0
  let main_cst : FVec F S_ .f32 := constant S_ .f32 0x7F800000#32
  let main_v1 : FVec F S4x2048x14x14 .f32 := broadcastInDim S4x2048x14x14 ![] bcast_S_S4x2048x14x14 main_cst
  let main_v2 : IVec S4x2048x14x14 1 := cmpf .olt main_v0 main_v1
  let main_c : IVec S_ 1 := constantI S_ 1 1#1
  let main_v3 : IVec S_ 1 := (fun x v => Host.reduce IntOp.andi x v reducesTo_S4x2048x14x14_S_d0_1_2_3 h_S_) main_v2 main_c
  let main_v4 : FVec F S80x300 .f32 := Host.absf main_arg1
  let main_cst_0 : FVec F S_ .f32 := constant S_ .f32 0x7F800000#32
  let main_v5 : FVec F S80x300 .f32 := broadcastInDim S80x300 ![] bcast_S_S80x300 main_cst_0
  let main_v6 : IVec S80x300 1 := cmpf .olt main_v4 main_v5
  let main_c_1 : IVec S_ 1 := constantI S_ 1 1#1
  let main_v7 : IVec S_ 1 := (fun x v => Host.reduce IntOp.andi x v reducesTo_S80x300_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x300 .f32 := Host.absf main_arg3
  let main_cst_4 : FVec F S_ .f32 := constant S_ .f32 0x7F800000#32
  let main_v15 : FVec F S1024x300 .f32 := broadcastInDim S1024x300 ![] bcast_S_S1024x300 main_cst_4
  let main_v16 : IVec S1024x300 1 := cmpf .olt main_v14 main_v15
  fn_part1 (F := F) main_arg4 main_arg5 main_arg6 main_arg7 main_v13 main_v16
-- ==== Kernel.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S4x14x2048x14 : Shape := ⟨4, ![4, 14, 2048, 14]⟩
abbrev S4x196x2048 : Shape := ⟨3, ![4, 196, 2048]⟩
abbrev S4x14x14x2048 : Shape := ⟨4, ![4, 14, 14, 2048]⟩
abbrev S300x1024 : Shape := ⟨2, ![300, 1024]⟩
abbrev S80x1024 : Shape := ⟨2, ![80, 1024]⟩
abbrev S1024x1 : Shape := ⟨2, ![1024, 1]⟩
abbrev S1x1 : Shape := ⟨2, ![1, 1]⟩
abbrev S4x14x14x80x2048 : Shape := ⟨5, ![4, 14, 14, 80, 2048]⟩
abbrev S4x14x14x80 : Shape := ⟨4, ![4, 14, 14, 80]⟩
abbrev S4x80x2048 : Shape := ⟨3, ![4, 80, 2048]⟩
abbrev S1x1x14x2048 : Shape := ⟨4, ![1, 1, 14, 2048]⟩
abbrev S1x1x14x80x2048 : Shape := ⟨5, ![1, 1, 14, 80, 2048]⟩
abbrev S1x1x14x80 : Shape := ⟨4, ![1, 1, 14, 80]⟩
abbrev S1x80x2048 : Shape := ⟨3, ![1, 80, 2048]⟩
abbrev S14x80 : Shape := ⟨2, ![14, 80]⟩
abbrev S80x2048 : Shape := ⟨2, ![80, 2048]⟩
abbrev S14x2048 : Shape := ⟨2, ![14, 2048]⟩
abbrev S2048x1024 : Shape := ⟨2, ![2048, 1024]⟩
abbrev S14x1024 : Shape := ⟨2, ![14, 1024]⟩
abbrev S40x1024 : Shape := ⟨2, ![40, 1024]⟩
abbrev S14x1x1024 : Shape := ⟨3, ![14, 1, 1024]⟩
abbrev S1x40x1024 : Shape := ⟨3, ![1, 40, 1024]⟩
abbrev S14x40x1024 : Shape := ⟨3, ![14, 40, 1024]⟩
abbrev S1x1x1024 : Shape := ⟨3, ![1, 1, 1024]⟩
abbrev S14x40 : Shape := ⟨2, ![14, 40]⟩
abbrev S14 : Shape := ⟨1, ![14]⟩
abbrev S14x1 : Shape := ⟨2, ![14, 1]⟩
abbrev S80x14 : Shape := ⟨2, ![80, 14]⟩
abbrev S14x1x2048 : Shape := ⟨3, ![14, 1, 2048]⟩
abbrev S14x40x1 : Shape := ⟨3, ![14, 40, 1]⟩
abbrev S14x40x2048 : Shape := ⟨3, ![14, 40, 2048]⟩
abbrev S1x1x14x40x2048 : Shape := ⟨5, ![1, 1, 14, 40, 2048]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x14x14, .f32⟩
  | .hbm, ⟨1, _⟩ => ⟨S80x300, .f32⟩
  | .hbm, ⟨2, _⟩ => ⟨S1024x2048, .f32⟩
  | .hbm, ⟨3, _⟩ => ⟨S1024x300, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S4x14x2048x14, .f32⟩
  | .hbm, ⟨9, _⟩ => ⟨S4x196x2048, .f32⟩
  | .hbm, ⟨10, _⟩ => ⟨S4x14x14x2048, .f32⟩
  | .hbm, ⟨11, _⟩ => ⟨S300x1024, .f32⟩
  | .hbm, ⟨12, _⟩ => ⟨S80x1024, .f32⟩
  | .hbm, ⟨13, _⟩ => ⟨S1x1024, .f32⟩
  | .hbm, ⟨14, _⟩ => ⟨S1x1024, .f32⟩
  | .hbm, ⟨15, _⟩ => ⟨S1024x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1024x2048, .bf16⟩
  | .hbm, ⟨20, _⟩ => ⟨S4x14x14x80x2048, .f32⟩
  | .hbm, ⟨21, _⟩ => ⟨S4x14x14x80, .f32⟩
  | .hbm, ⟨22, _⟩ => ⟨S4x80x2048, .f32⟩
  | .local _ .vmem, ⟨0, _⟩ => ⟨S1x1x14x2048, .f32⟩
  | .local _ .vmem, ⟨1, _⟩ => ⟨S1x1x14x2048, .f32⟩
  | .local _ .vmem, ⟨2, _⟩ => ⟨S1024x2048, .bf16⟩
  | .local _ .vmem, ⟨3, _⟩ => ⟨S80x1024, .f32⟩
  | .local _ .vmem, ⟨4, _⟩ => ⟨S1x1024, .f32⟩
  | .local _ .vmem, ⟨5, _⟩ => ⟨S1x1, .f32⟩
  | .local _ .vmem, ⟨6, _⟩ => ⟨S1x1x14x80x2048, .f32⟩
  | .local _ .vmem, ⟨7, _⟩ => ⟨S1x1x14x80x2048, .f32⟩
  | .local _ .vmem, ⟨8, _⟩ => ⟨S1x1x14x80, .f32⟩
  | .local _ .vmem, ⟨9, _⟩ => ⟨S1x1x14x80, .f32⟩
  | .local _ .vmem, ⟨10, _⟩ => ⟨S1x80x2048, .f32⟩
  | .local _ .vmem, ⟨11, _⟩ => ⟨S1x80x2048, .f32⟩
  | .local _ .vmem, ⟨12, _⟩ => ⟨S14x80, .f32⟩
  | _, _ => ⟨S4x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 14], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x14x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x14x80x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x14x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x80x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S4x2048x14x14_S4x14x2048x14_0_3_1_2 : S4x2048x14x14.Transposes [0, 3, 1, 2] S4x14x2048x14
  shapeCasts_S4x14x2048x14_S4x196x2048 : S4x14x2048x14.ShapeCasts S4x196x2048
  shapeCasts_S4x196x2048_S4x14x14x2048 : S4x196x2048.ShapeCasts S4x14x14x2048
  transposes_S1024x300_S300x1024_1_0 : S1024x300.Transposes [1, 0] S300x1024
  shapeCasts_S1024_S1x1024 : S1024.ShapeCasts S1x1024
  transposes_S1x1024_S1024x1_1_0 : S1x1024.Transposes [1, 0] S1024x1
  shapeCasts_S1_S1x1 : S1.ShapeCasts S1x1
  bitsLt_bf16_f32 : FTy.bits .bf16 < FTy.bits .f32
  inb_S1x80x2048_S1x80x2048_0_0_0 : ∀ a, (![0, 0, 0] : Fin 3 → Nat) a + S1x80x2048.size a ≤ S1x80x2048.size a
  h_S1x80x2048 : 0 < S1x80x2048.numel
  shapeCasts_S1x80x2048_S80x2048 : S1x80x2048.ShapeCasts S80x2048
  shapeCasts_S80x2048_S1x80x2048 : S80x2048.ShapeCasts S1x80x2048
  inb_S1x1x14x2048_S1x1x14x2048_0_0_0_0 : ∀ a, (![0, 0, 0, 0] : Fin 4 → Nat) a + S1x1x14x2048.size a ≤ S1x1x14x2048.size a
  h_S1x1x14x2048 : 0 < S1x1x14x2048.numel
  shapeCasts_S1x1x14x2048_S14x2048 : S1x1x14x2048.ShapeCasts S14x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S80x1024_S40x1024_0_0 : ∀ a, (![0, 0] : Fin 2 → Nat) a + S40x1024.size a ≤ S80x1024.size a
  h_S40x1024 : 0 < S40x1024.numel
  shapeCasts_S40x1024_S40x1024 : S40x1024.ShapeCasts S40x1024
  shapeCasts_S14x1024_S14x1x1024 : S14x1024.ShapeCasts S14x1x1024
  shapeCasts_S40x1024_S1x40x1024 : S40x1024.ShapeCasts S1x40x1024
  broadcasts_S14x1x1024_S14x40x1024 : S14x1x1024.Broadcasts S14x40x1024
  broadcasts_S1x40x1024_S14x40x1024 : S1x40x1024.Broadcasts S14x40x1024
  shapeCasts_S1x1024_S1x1x1024 : S1x1024.ShapeCasts S1x1x1024
  broadcasts_S1x1x1024_S14x40x1024 : S1x1x1024.Broadcasts S14x40x1024
  reduces_S14x40x1024_S14x40 : S14x40x1024.Reduces [2] S14x40
  broadcasts_S1x1_S14x40 : S1x1.Broadcasts S14x40
  inb_S14x80_S14x40_0_0 : ∀ a, (![0, 0] : Fin 2 → Nat) a + S14x40.size a ≤ S14x80.size a
  h_S14x40 : 0 < S14x40.numel
  shapeCasts_S14x40_S14x40 : S14x40.ShapeCasts S14x40
  inb_S80x1024_S40x1024_40_0 : ∀ a, (![40, 0] : Fin 2 → Nat) a + S40x1024.size a ≤ S80x1024.size a
  inb_S14x80_S14x40_0_40 : ∀ a, (![0, 40] : Fin 2 → Nat) a + S14x40.size a ≤ S14x80.size a
  inb_S14x80_S14x80_0_0 : ∀ a, (![0, 0] : Fin 2 → Nat) a + S14x80.size a ≤ S14x80.size a
  h_S14x80 : 0 < S14x80.numel
  reduces_S14x80_S14 : S14x80.Reduces [1] S14
  shapeCasts_S14_S14x1 : S14.ShapeCasts S14x1
  broadcasts_S14x1_S14x80 : S14x1.Broadcasts S14x80
  inb_S1x1x14x80_S1x1x14x80_0_0_0_0 : ∀ a, (![0, 0, 0, 0] : Fin 4 → Nat) a + S1x1x14x80.size a ≤ S1x1x14x80.size a
  h_S1x1x14x80 : 0 < S1x1x14x80.numel
  shapeCasts_S1x1x14x80_S14x80 : S1x1x14x80.ShapeCasts S14x80
  shapeCasts_S14x80_S1x1x14x80 : S14x80.ShapeCasts S1x1x14x80
  transposes_S14x80_p1_0_S80x14 : S14x80.Transposes [1, 0] S80x14
  slices_S14x80_o0_0_S14x40 : S14x80.Slices ![0, 0] S14x40
  shapeCasts_S14x2048_S14x1x2048 : S14x2048.ShapeCasts S14x1x2048
  shapeCasts_S14x40_S14x40x1 : S14x40.ShapeCasts S14x40x1
  broadcasts_S14x1x2048_S14x40x2048 : S14x1x2048.Broadcasts S14x40x2048
  broadcasts_S14x40x1_S14x40x2048 : S14x40x1.Broadcasts S14x40x2048
  inb_S1x1x14x80x2048_S1x1x14x40x2048_0_0_0_0_0 : ∀ a, (![0, 0, 0, 0, 0] : Fin 5 → Nat) a + S1x1x14x40x2048.size a ≤ S1x1x14x80x2048.size a
  h_S1x1x14x40x2048 : 0 < S1x1x14x40x2048.numel
  shapeCasts_S1x1x14x40x2048_S14x40x2048 : S1x1x14x40x2048.ShapeCasts S14x40x2048
  shapeCasts_S14x40x2048_S1x1x14x40x2048 : S14x40x2048.ShapeCasts S1x1x14x40x2048
  slices_S14x80_o0_40_S14x40 : S14x80.Slices ![0, 40] S14x40
  inb_S1x1x14x80x2048_S1x1x14x40x2048_0_0_0_40_0 : ∀ a, (![0, 0, 0, 40, 0] : Fin 5 → Nat) a + S1x1x14x40x2048.size a ≤ S1x1x14x80x2048.size a
  dot_S80x300_S300x1024_S80x1024_1_0_0_1_n_n_wf : DotDims.WF S80x300 S300x1024 S80x1024 [1] [0] [0] [1] [] []
  dot_S1x1024_S1024x1024_S1x1024_1_0_0_1_n_n_wf : DotDims.WF S1x1024 S1024x1024 S1x1024 [1] [0] [0] [1] [] []
  dot_S1x1024_S1024x1_S1x1_1_0_0_1_n_n_wf : DotDims.WF S1x1024 S1024x1 S1x1 [1] [0] [0] [1] [] []
  dot_S14x2048_S2048x1024_S14x1024_1_0_0_1_n_n_wf : DotDims.WF S14x2048 S2048x1024 S14x1024 [1] [0] [0] [1] [] []
  dot_S80x14_S14x2048_S80x2048_1_0_0_1_n_n_wf : DotDims.WF S80x14 S14x2048 S80x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x14x2048.size a ≤ S4x14x14x2048.size a
  hwx0_0 : ∀ i : grid0.Coords, EltTy.bits .f32 = 32 ∨ (Rect.block (s := S4x14x14x2048) S1x1x14x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x1024.size a ≤ S80x1024.size a
  hwx0_2 : ∀ i : grid0.Coords, EltTy.bits .f32 = 32 ∨ (Rect.block (s := S80x1024) S80x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x14x80x2048.size a ≤ S4x14x14x80x2048.size a
  hwx0_5 : ∀ i : grid0.Coords, EltTy.bits .f32 = 32 ∨ (Rect.block (s := S4x14x14x80x2048) S1x1x14x80x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x14x80.size a ≤ S4x14x14x80.size a
  hwx0_6 : ∀ i : grid0.Coords, EltTy.bits .f32 = 32 ∨ (Rect.block (s := S4x14x14x80) S1x1x14x80.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x80x2048.size a ≤ S4x80x2048.size a
  hwx0_7 : ∀ i : grid0.Coords, EltTy.bits .f32 = 32 ∨ (Rect.block (s := S4x80x2048) S1x80x2048.size (cc0_transform_7 i) (hinb0_7 i)).WholeWords (EltTy.packing .f32)

variable [Facts₀]

def dot_S80x300_S300x1024_S80x1024_1_0_0_1_n_n : DotDims S80x300 S300x1024 S80x1024 where
  lhsContracting := [1]
  rhsContracting := [0]
  lhsNonContracting := [0]
  rhsNonContracting := [1]
  lhsBatch := []
  rhsBatch := []
  wf := dot_S80x300_S300x1024_S80x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf
def dot_S14x2048_S2048x1024_S14x1024_1_0_0_1_n_n : DotDims S14x2048 S2048x1024 S14x1024 where
  lhsContracting := [1]
  rhsContracting := [0]
  lhsNonContracting := [0]
  rhsNonContracting := [1]
  lhsBatch := []
  rhsBatch := []
  wf := dot_S14x2048_S2048x1024_S14x1024_1_0_0_1_n_n_wf
def dot_S80x14_S14x2048_S80x2048_1_0_0_1_n_n : DotDims S80x14 S14x2048 S80x2048 where
  lhsContracting := [1]
  rhsContracting := [0]
  lhsNonContracting := [0]
  rhsNonContracting := [1]
  lhsBatch := []
  rhsBatch := []
  wf := dot_S80x14_S14x2048_S80x2048_1_0_0_1_n_n_wf

abbrev win0_0 : Pipeline.Window sig grid0 :=
  Pipeline.Window.ofSpec (Memref.whole main_v2) S1x1x14x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S80x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S1x1x14x80x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S1x1x14x80.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S1x80x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S4x14x2048x14 : Shape := ⟨4, ![4, 14, 2048, 14]⟩
abbrev S4x196x2048 : Shape := ⟨3, ![4, 196, 2048]⟩
abbrev S4x196x1024 : Shape := ⟨3, ![4, 196, 1024]⟩
abbrev S80x1024 : Shape := ⟨2, ![80, 1024]⟩
abbrev S4x196x1x1024 : Shape := ⟨4, ![4, 196, 1, 1024]⟩
abbrev S1x1x80x1024 : Shape := ⟨4, ![1, 1, 80, 1024]⟩
abbrev S4x196x80x1024 : Shape := ⟨4, ![4, 196, 80, 1024]⟩
abbrev S1x1x1x1024 : Shape := ⟨4, ![1, 1, 1, 1024]⟩
abbrev S4x196x80x1 : Shape := ⟨4, ![4, 196, 80, 1]⟩
abbrev S1x1x1x1 : Shape := ⟨4, ![1, 1, 1, 1]⟩
abbrev S4x14x14x80 : Shape := ⟨4, ![4, 14, 14, 80]⟩
abbrev S_ : Shape := ⟨0, ![]⟩
abbrev S4x14x14 : Shape := ⟨3, ![4, 14, 14]⟩
abbrev S4x14x14x1 : Shape := ⟨4, ![4, 14, 14, 1]⟩
abbrev S4x14x14x1x2048 : Shape := ⟨5, ![4, 14, 14, 1, 2048]⟩
abbrev S4x14x14x80x1 : Shape := ⟨5, ![4, 14, 14, 80, 1]⟩
abbrev S4x14x14x80x2048 : Shape := ⟨5, ![4, 14, 14, 80, 2048]⟩
abbrev S4x80x2048 : Shape := ⟨3, ![4, 80, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x14x14, .f32⟩
  | .hbm, ⟨1, _⟩ => ⟨S80x300, .f32⟩
  | .hbm, ⟨2, _⟩ => ⟨S1024x2048, .f32⟩
  | .hbm, ⟨3, _⟩ => ⟨S1024x300, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S4x14x2048x14, .f32⟩
  | .hbm, ⟨9, _⟩ => ⟨S4x196x2048, .f32⟩
  | .hbm, ⟨10, _⟩ => ⟨S4x196x1024, .f32⟩
  | .hbm, ⟨11, _⟩ => ⟨S80x1024, .f32⟩
  | .hbm, ⟨12, _⟩ => ⟨S4x196x1x1024, .f32⟩
  | .hbm, ⟨13, _⟩ => ⟨S1x1x80x1024, .f32⟩
  | .hbm, ⟨14, _⟩ => ⟨S4x196x80x1024, .f32⟩
  | .hbm, ⟨15, _⟩ => ⟨S4x196x80x1024, .f32⟩
  | .hbm, ⟨16, _⟩ => ⟨S4x196x80x1024, .f32⟩
  | .hbm, ⟨17, _⟩ => ⟨S4x196x80x1024, .f32⟩
  | .hbm, ⟨18, _⟩ => ⟨S4x196x80x1024, .f32⟩
  | .hbm, ⟨19, _⟩ => ⟨S1x1x1x1024, .f32⟩
  | .hbm, ⟨20, _⟩ => ⟨S4x196x80x1024, .f32⟩
  | .hbm, ⟨21, _⟩ => ⟨S4x196x80x1024, .f32⟩
  | .hbm, ⟨22, _⟩ => ⟨S4x196x80x1, .f32⟩
  | .hbm, ⟨23, _⟩ => ⟨S1x1x1x1, .f32⟩
  | .hbm, ⟨24, _⟩ => ⟨S4x196x80x1, .f32⟩
  | .hbm, ⟨25, _⟩ => ⟨S4x196x80x1, .f32⟩
  | .hbm, ⟨26, _⟩ => ⟨S4x14x14x80, .f32⟩
  | .hbm, ⟨27, _⟩ => ⟨S_, .f32⟩
  | .hbm, ⟨28, _⟩ => ⟨S4x14x14, .f32⟩
  | .hbm, ⟨29, _⟩ => ⟨S_, .f32⟩
  | .hbm, ⟨30, _⟩ => ⟨S4x14x14, .f32⟩
  | .hbm, ⟨31, _⟩ => ⟨S4x14x14, .f32⟩
  | .hbm, ⟨32, _⟩ => ⟨S4x14x14x1, .f32⟩
  | .hbm, ⟨33, _⟩ => ⟨S4x14x14x80, .f32⟩
  | .hbm, ⟨34, _⟩ => ⟨S4x14x14x80, .f32⟩
  | .hbm, ⟨35, _⟩ => ⟨S4x14x14x80, .f32⟩
  | .hbm, ⟨36, _⟩ => ⟨S_, .f32⟩
  | .hbm, ⟨37, _⟩ => ⟨S4x14x14, .f32⟩
  | .hbm, ⟨38, _⟩ => ⟨S4x14x14x1, .f32⟩
  | .hbm, ⟨39, _⟩ => ⟨S4x14x14x80, .f32⟩
  | .hbm, ⟨40, _⟩ => ⟨S4x14x14x80, .f32⟩
  | .hbm, ⟨41, _⟩ => ⟨S4x14x14x1x2048, .f32⟩
  | .hbm, ⟨42, _⟩ => ⟨S4x14x14x80x1, .f32⟩
  | .hbm, ⟨43, _⟩ => ⟨S4x14x14x80x2048, .f32⟩
  | .hbm, ⟨44, _⟩ => ⟨S4x14x14x80x2048, .f32⟩
  | .hbm, ⟨45, _⟩ => ⟨S4x14x14x80x2048, .f32⟩
  | .hbm, ⟨46, _⟩ => ⟨S_, .f32⟩
  | .hbm, ⟨47, _⟩ => ⟨S4x80x2048, .f32⟩
  | _, _ => ⟨S4x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S4x2048x14x14_S4x14x2048x14_0_3_1_2 : S4x2048x14x14.Transposes [0, 3, 1, 2] S4x14x2048x14
  shapeCasts_S4x14x2048x14_S4x196x2048 : S4x14x2048x14.ShapeCasts S4x196x2048
  bcast_S4x196x1024_S4x196x1x1024_0_1_3 : S4x196x1024.BroadcastsInDim S4x196x1x1024 (![0, 1, 3] : Fin 3 → Fin S4x196x1x1024.rank)
  bcast_S80x1024_S1x1x80x1024_2_3 : S80x1024.BroadcastsInDim S1x1x80x1024 (![2, 3] : Fin 2 → Fin S1x1x80x1024.rank)
  bcast_S4x196x1x1024_S4x196x80x1024_0_1_2_3 : S4x196x1x1024.BroadcastsInDim S4x196x80x1024 (![0, 1, 2, 3] : Fin 4 → Fin S4x196x80x1024.rank)
  bcast_S1x1x80x1024_S4x196x80x1024_0_1_2_3 : S1x1x80x1024.BroadcastsInDim S4x196x80x1024 (![0, 1, 2, 3] : Fin 4 → Fin S4x196x80x1024.rank)
  bcast_S1024_S1x1x1x1024_3 : S1024.BroadcastsInDim S1x1x1x1024 (![3] : Fin 1 → Fin S1x1x1x1024.rank)
  bcast_S1x1x1x1024_S4x196x80x1024_0_1_2_3 : S1x1x1x1024.BroadcastsInDim S4x196x80x1024 (![0, 1, 2, 3] : Fin 4 → Fin S4x196x80x1024.rank)
  bcast_S1_S1x1x1x1_3 : S1.BroadcastsInDim S1x1x1x1 (![3] : Fin 1 → Fin S1x1x1x1.rank)
  bcast_S1x1x1x1_S4x196x80x1_0_1_2_3 : S1x1x1x1.BroadcastsInDim S4x196x80x1 (![0, 1, 2, 3] : Fin 4 → Fin S4x196x80x1.rank)
  shapeCasts_S4x196x80x1_S4x14x14x80 : S4x196x80x1.ShapeCasts S4x14x14x80
  reducesTo_S4x14x14x80_S4x14x14_d3 : S4x14x14x80.ReducesTo [3] S4x14x14
  h_S_ : 0 < S_.numel
  bcast_S_S4x14x14 : S_.BroadcastsInDim S4x14x14 (![] : Fin 0 → Fin S4x14x14.rank)
  bcast_S4x14x14_S4x14x14x1_0_1_2 : S4x14x14.BroadcastsInDim S4x14x14x1 (![0, 1, 2] : Fin 3 → Fin S4x14x14x1.rank)
  bcast_S4x14x14x1_S4x14x14x80_0_1_2_3 : S4x14x14x1.BroadcastsInDim S4x14x14x80 (![0, 1, 2, 3] : Fin 4 → Fin S4x14x14x80.rank)
  shapeCasts_S4x196x2048_S4x14x14x1x2048 : S4x196x2048.ShapeCasts S4x14x14x1x2048
  bcast_S4x14x14x80_S4x14x14x80x1_0_1_2_3 : S4x14x14x80.BroadcastsInDim S4x14x14x80x1 (![0, 1, 2, 3] : Fin 4 → Fin S4x14x14x80x1.rank)
  bcast_S4x14x14x1x2048_S4x14x14x80x2048_0_1_2_3_4 : S4x14x14x1x2048.BroadcastsInDim S4x14x14x80x2048 (![0, 1, 2, 3, 4] : Fin 5 → Fin S4x14x14x80x2048.rank)
  bcast_S4x14x14x80x1_S4x14x14x80x2048_0_1_2_3_4 : S4x14x14x80x1.BroadcastsInDim S4x14x14x80x2048 (![0, 1, 2, 3, 4] : Fin 5 → Fin S4x14x14x80x2048.rank)
  reducesTo_S4x14x14x80x2048_S4x80x2048_d1_2 : S4x14x14x80x2048.ReducesTo [1, 2] S4x80x2048
  dot_S4x196x2048_S1024x2048_S4x196x1024_2_1_01_0_n_n_wf : DotDims.WF S4x196x2048 S1024x2048 S4x196x1024 [2] [1] [0, 1] [0] [] []
  dot_S80x300_S1024x300_S80x1024_1_1_0_0_n_n_wf : DotDims.WF S80x300 S1024x300 S80x1024 [1] [1] [0] [0] [] []
  dot_S4x196x80x1024_S1024x1024_S4x196x80x1024_3_1_012_0_n_n_wf : DotDims.WF S4x196x80x1024 S1024x1024 S4x196x80x1024 [3] [1] [0, 1, 2] [0] [] []
  dot_S4x196x80x1024_S1x1024_S4x196x80x1_3_1_012_0_n_n_wf : DotDims.WF S4x196x80x1024 S1x1024 S4x196x80x1 [3] [1] [0, 1, 2] [0] [] []

variable [Facts₀]

def dot_S4x196x2048_S1024x2048_S4x196x1024_2_1_01_0_n_n : DotDims S4x196x2048 S1024x2048 S4x196x1024 where
  lhsContracting := [2]
  rhsContracting := [1]
  lhsNonContracting := [0, 1]
  rhsNonContracting := [0]
  lhsBatch := []
  rhsBatch := []
  wf := dot_S4x196x2048_S1024x2048_S4x196x1024_2_1_01_0_n_n_wf
def dot_S80x300_S1024x300_S80x1024_1_1_0_0_n_n : DotDims S80x300 S1024x300 S80x1024 where
  lhsContracting := [1]
  rhsContracting := [1]
  lhsNonContracting := [0]
  rhsNonContracting := [0]
  lhsBatch := []
  rhsBatch := []
  wf := dot_S80x300_S1024x300_S80x1024_1_1_0_0_n_n_wf
def dot_S4x196x80x1024_S1024x1024_S4x196x80x1024_3_1_012_0_n_n : DotDims S4x196x80x1024 S1024x1024 S4x196x80x1024 where
  lhsContracting := [3]
  rhsContracting := [1]
  lhsNonContracting := [0, 1, 2]
  rhsNonContracting := [0]
  lhsBatch := []
  rhsBatch := []
  wf := dot_S4x196x80x1024_S1024x1024_S4x196x80x1024_3_1_012_0_n_n_wf
def dot_S4x196x80x1024_S1x1024_S4x196x80x1_3_1_012_0_n_n : DotDims S4x196x80x1024 S1x1024 S4x196x80x1 where
  lhsContracting := [3]
  rhsContracting := [1]
  lhsNonContracting := [0, 1, 2]
  rhsNonContracting := [0]
  lhsBatch := []
  rhsBatch := []
  wf := dot_S4x196x80x1024_S1x1024_S4x196x80x1_3_1_012_0_n_n_wf

class Facts : Prop extends Facts₀ where

variable [Facts]
-- ==== Proof.Spec.lean ====
/-
  The three results as functions of the inputs, entry by entry, on the extended reals.

  Inputs: the pixel features `x` (batch b, pixel p = 14·s1 + s2, channel c), the word features `a1` (class k, word
  dimension w), the two projections `a2` (semantic dimension s, channel c) and `a3` (s, w), the first layer `a4` (t, s)
  with bias `a5` (t), the second layer `a6` (one row, t) with bias `a7`.

    imgP  b p s   = Σ_c x(b,p,c) · a2(s,c)                    the projected pixel
    wordP k s     = Σ_w a1(k,w) · a3(s,w)                     the projected class word
    fusion b p k s = tanh (imgP b p s · wordP k s)
    logit b p k   = the two linear layers applied to fusion b p k ·, in one of two groupings:
        logitR:  Σ_t (Σ_s f(s) · a4(t,s) + a5(t)) · a6(0,t) + a7(0)               layer by layer
        logitK:  Σ_s f(s) · (Σ_t a6(0,t) · a4(t,s)) + (Σ_t a5(t) · a6(0,t) + a7(0))   the layers composed first
    attn b s1 s2 k = softmax over k of logit b (14·s1+s2) ·     (max-shifted: exp (L k − max L) / Σ_k exp (L k − max L))
    fmwc b s1 s2 k c = x(b, 14·s1+s2, c) · attn b s1 s2 k
    sem  b k c    = Σ_{s1} Σ_{s2} of the products of x and attn, in either order of the two factors.

  The `R` forms are how one program groups the arithmetic, the `K` forms how the other does; they agree when the layer
  weights are finite (Algebra.lean).
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 196, 2048]⟩
abbrev SA1 : Shape := ⟨2, ![80, 300]⟩
abbrev SA2 : Shape := ⟨2, ![1024, 2048]⟩
abbrev SA3 : Shape := ⟨2, ![1024, 300]⟩
abbrev SA4 : Shape := ⟨2, ![1024, 1024]⟩
abbrev SA5 : Shape := ⟨1, ![1024]⟩
abbrev SA6 : Shape := ⟨2, ![1, 1024]⟩
abbrev SA7 : Shape := ⟨1, ![1]⟩

/-- The pixel at row `s1`, column `s2` of the 14 × 14 map, in row-major order. -/
def pix (s1 s2 : Fin 14) : Fin 196 := ⟨s1.val * 14 + s2.val, by have := s1.isLt; have := s2.isLt; omega⟩

/-- The word `0xFF800000`: −∞, the start value of a running maximum. -/
abbrev negInf : EReal := Ideal.ofBits .f32 0xFF800000#32

/-- A pixel's features projected to the semantic space. -/
def imgP (x : SX.Idx → EReal) (a2 : SA2.Idx → EReal) (b : Fin 4) (p : Fin 196) (s : Fin 1024) : EReal :=
  ∑ c : Fin 2048, x (ix3 b p c) * a2 (ix2 s c)

/-- A class word projected to the semantic space. -/
def wordP (a1 : SA1.Idx → EReal) (a3 : SA3.Idx → EReal) (k : Fin 80) (s : Fin 1024) : EReal :=
  ∑ w : Fin 300, a1 (ix2 k w) * a3 (ix2 s w)

/-- The fused feature of a pixel and a class. -/
def fusion (x : SX.Idx → EReal) (a1 : SA1.Idx → EReal) (a2 : SA2.Idx → EReal) (a3 : SA3.Idx → EReal)
    (b : Fin 4) (p : Fin 196) (k : Fin 80) (s : Fin 1024) : EReal :=
  Ideal.tanh (imgP x a2 b p s * wordP a1 a3 k s)

/-- The two linear layers applied one after the other to a feature vector `f`. -/
def logitR (f : Fin 1024 → EReal) (a4 : SA4.Idx → EReal) (a5 : SA5.Idx → EReal) (a6 : SA6.Idx → EReal)
    (a7 : SA7.Idx → EReal) : EReal :=
  (∑ t : Fin 1024, (∑ s : Fin 1024, f s * a4 (ix2 t s) + a5 (ix1 t)) * a6 (ix2 (0 : Fin 1) t)) + a7 (ix1 (0 : Fin 1))

/-- The two linear layers composed into one row and one scalar first, then applied to `f`. -/
def logitK (f : Fin 1024 → EReal) (a4 : SA4.Idx → EReal) (a5 : SA5.Idx → EReal) (a6 : SA6.Idx → EReal)
    (a7 : SA7.Idx → EReal) : EReal :=
  (∑ s : Fin 1024, f s * (∑ t : Fin 1024, a6 (ix2 (0 : Fin 1) t) * a4 (ix2 t s)))
    + ((∑ t : Fin 1024, a5 (ix1 t) * a6 (ix2 (0 : Fin 1) t)) + a7 (ix1 (0 : Fin 1)))

/-- The largest of 80 scores (against −∞ twice: the running maximum starts there, and the result is clamped from below
    by it once more). -/
def rowMax (L : Fin 80 → EReal) : EReal := max negInf ((Finset.univ : Finset (Fin 80)).fold max negInf L)

/-- A score's exponential after the shift by the largest score. -/
def shiftExp (L : Fin 80 → EReal) (k : Fin 80) : EReal := Ideal.exp (L k - rowMax L)

/-- The softmax of 80 scores. -/
def softmax (L : Fin 80 → EReal) (k : Fin 80) : EReal := Ideal.div (shiftExp L k) (∑ k' : Fin 80, shiftExp L k')

section
variable (x : SX.Idx → EReal) (a1 : SA1.Idx → EReal) (a2 : SA2.Idx → EReal) (a3 : SA3.Idx → EReal)
  (a4 : SA4.Idx → EReal) (a5 : SA5.Idx → EReal) (a6 : SA6.Idx → EReal) (a7 : SA7.Idx → EReal)

/-- The attention weights, layers applied one after the other. -/
def attnR (b : Fin 4) (s1 s2 : Fin 14) (k : Fin 80) : EReal :=
  softmax (fun k' => logitR (fusion x a1 a2 a3 b (pix s1 s2) k') a4 a5 a6 a7) k

/-- The attention weights, layers composed first. -/
def attnK (b : Fin 4) (s1 s2 : Fin 14) (k : Fin 80) : EReal :=
  softmax (fun k' => logitK (fusion x a1 a2 a3 b (pix s1 s2) k') a4 a5 a6 a7) k

/-- The class-weighted pixel features. -/
def fmwcR (b : Fin 4) (s1 s2 : Fin 14) (k : Fin 80) (c : Fin 2048) : EReal :=
  x (ix3 b (pix s1 s2) c) * attnR x a1 a2 a3 a4 a5 a6 a7 b s1 s2 k

def fmwcK (b : Fin 4) (s1 s2 : Fin 14) (k : Fin 80) (c : Fin 2048) : EReal :=
  x (ix3 b (pix s1 s2) c) * attnK x a1 a2 a3 a4 a5 a6 a7 b s1 s2 k

/-- The class-weighted features summed over the map: the weighted features added up over rows and columns. -/
def semR (b : Fin 4) (k : Fin 80) (c : Fin 2048) : EReal :=
  ∑ s1 : Fin 14, ∑ s2 : Fin 14, fmwcR x a1 a2 a3 a4 a5 a6 a7 b s1 s2 k c

/-- The same sum with each row's contribution formed as weights against features. -/
def semK (b : Fin 4) (k : Fin 80) (c : Fin 2048) : EReal :=
  ∑ s1 : Fin 14, ∑ s2 : Fin 14, attnK x a1 a2 a3 a4 a5 a6 a7 b s1 s2 k * x (ix3 b (pix s1 s2) c)

end

end Cert.Spec

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Algebra.lean ====
/-
  The two groupings of the linear layers agree when the layer weights are finite.

  One program applies the first layer, adds its bias, applies the second layer and adds its bias; the other composes
  the two layers into one row and one scalar first. The law that identifies them,

      Σ_t (Σ_s f_s · A(t,s) + b_t) · w_t + d  =  Σ_s f_s · (Σ_t w_t · A(t,s)) + (Σ_t b_t · w_t + d),

  is distributivity and an exchange of the two sums. On the extended reals distributivity fails at the infinities, so
  the law is proved over the reals and carried back along the inclusion; this needs every entry to be a real number.
  The feature vector is a hyperbolic tangent, which is always real; the weights are real by hypothesis.

  A function `a` into the extended reals is called finite when every value is a real number:
  `∀ i, ∃ r : ℝ, a i = r`.

  The softmax, the weighted features and their sum over the map are functions of the logits, so they agree as soon
  as the logits do (the last one after commuting each product). All three are stated as equalities of functions.
-/
import proofs.«147217_j83820581749246_2_alg».proof.Proof.Spec
import proofs.«147217_j83820581749246_2_alg».proof.Proof.LibFinite

noncomputable section

namespace Cert.Algebra

open Idealize.ShloMosaic Idealize.ShloMosaic.ValueIdx Cert.Spec

/-- The hyperbolic tangent of any extended real is a real number (−1 and 1 at the infinities). -/
theorem tanh_real (y : EReal) : ∃ r : ℝ, Ideal.tanh y = (r : EReal) := by
  induction y using EReal.rec with
  | bot => exact ⟨-1, by simp⟩
  | top => exact ⟨1, by simp⟩
  | coe r => exact ⟨Real.tanh r, rfl⟩

/-- The law over the reals: distribute the second layer over the first layer's sum and bias, then exchange the
    two sums. -/
theorem real_law {n m : ℕ} (f : Fin n → ℝ) (A : Fin m → Fin n → ℝ) (b w : Fin m → ℝ) (d : ℝ) :
    (∑ s, f s * (∑ t, w t * A t s)) + ((∑ t, b t * w t) + d)
      = (∑ t, ((∑ s, f s * A t s) + b t) * w t) + d := by
  have h1 : ∀ t, ((∑ s, f s * A t s) + b t) * w t = (∑ s, f s * (w t * A t s)) + b t * w t := by
    intro t
    rw [add_mul, Finset.sum_mul]
    congr 1
    exact Finset.sum_congr rfl fun s _ => by ring
  simp only [h1, Finset.sum_add_distrib, Finset.mul_sum]
  rw [Finset.sum_comm, add_assoc]

/-- The same law between extended reals all of whose entries are real numbers. -/
theorem ereal_law {n m : ℕ} (f : Fin n → ℝ) (A : Fin m → Fin n → ℝ) (b w : Fin m → ℝ) (d : ℝ) :
    (∑ s, (f s : EReal) * (∑ t, (w t : EReal) * (A t s : EReal))) + ((∑ t, (b t : EReal) * (w t : EReal)) + (d : EReal))
      = (∑ t, ((∑ s, (f s : EReal) * (A t s : EReal)) + (b t : EReal)) * (w t : EReal)) + (d : EReal) := by
  simp only [← EReal.coe_mul, ← Cert.LibFinite.coe_sum, ← EReal.coe_add]
  exact congrArg _ (real_law f A b w d)

/-- The composed layers and the layers applied one after the other give the same logit, when the feature vector
    and the four weight arrays are finite. -/
theorem logitK_eq_logitR (f : Fin 1024 → EReal) (hf : ∀ s, ∃ r : ℝ, f s = (r : EReal))
    (a4 : SA4.Idx → EReal) (a5 : SA5.Idx → EReal) (a6 : SA6.Idx → EReal) (a7 : SA7.Idx → EReal)
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) :
    logitK f a4 a5 a6 a7 = logitR f a4 a5 a6 a7 := by
  choose fr hfr using hf
  choose A4 hA4 using h4
  choose A5 hA5 using h5
  choose A6 hA6 using h6
  choose A7 hA7 using h7
  unfold logitK logitR
  simp only [hfr, hA4, hA5, hA6, hA7]
  exact ereal_law fr (fun t s => A4 (ix2 t s)) (fun t => A5 (ix1 t)) (fun t => A6 (ix2 (0 : Fin 1) t))
    (A7 (ix1 (0 : Fin 1)))

section
variable (x : SX.Idx → EReal) (a1 : SA1.Idx → EReal) (a2 : SA2.Idx → EReal) (a3 : SA3.Idx → EReal)
  (a4 : SA4.Idx → EReal) (a5 : SA5.Idx → EReal) (a6 : SA6.Idx → EReal) (a7 : SA7.Idx → EReal)

/-- Every fused feature is a real number: it is a hyperbolic tangent. -/
theorem fusion_real (b : Fin 4) (p : Fin 196) (k : Fin 80) :
    ∀ s, ∃ r : ℝ, fusion x a1 a2 a3 b p k s = (r : EReal) := fun _ => tanh_real _

/-- The attention weights of the two groupings agree (as functions of batch, row, column and class). -/
theorem attnK_eq_attnR
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) :
    attnK x a1 a2 a3 a4 a5 a6 a7 = attnR x a1 a2 a3 a4 a5 a6 a7 := by
  funext b s1 s2 k
  have hL : (fun k' => logitK (fusion x a1 a2 a3 b (pix s1 s2) k') a4 a5 a6 a7)
      = (fun k' => logitR (fusion x a1 a2 a3 b (pix s1 s2) k') a4 a5 a6 a7) :=
    funext fun k' => logitK_eq_logitR _ (fusion_real x a1 a2 a3 b (pix s1 s2) k') a4 a5 a6 a7 h4 h5 h6 h7
  unfold attnK attnR
  rw [hL]

/-- The class-weighted pixel features of the two groupings agree (as functions). -/
theorem fmwcK_eq_fmwcR
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) :
    fmwcK x a1 a2 a3 a4 a5 a6 a7 = fmwcR x a1 a2 a3 a4 a5 a6 a7 := by
  funext b s1 s2 k c
  unfold fmwcK fmwcR
  rw [attnK_eq_attnR x a1 a2 a3 a4 a5 a6 a7 h4 h5 h6 h7]

/-- The sums over the map agree (as functions): the weights agree, and each product commutes. -/
theorem semK_eq_semR
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) :
    semK x a1 a2 a3 a4 a5 a6 a7 = semR x a1 a2 a3 a4 a5 a6 a7 := by
  funext b k c
  unfold semK semR fmwcR
  rw [attnK_eq_attnR x a1 a2 a3 a4 a5 a6 a7 h4 h5 h6 h7]
  exact Finset.sum_congr rfl fun s1 _ => Finset.sum_congr rfl fun s2 _ => mul_comm _ _

end

end Cert.Algebra

end
-- ==== Proof.Finite.lean ====
/-
  The precondition, read back: the four layer arrays are finite.

  The printed predicate tests, for each of the eight inputs, that every entry's absolute value compares below +∞, and
  joins the eight tests by "and" into one bit. If that bit is 1 then each test is 1; a test that is 1 — a reduction
  by "and" over all axes — had a 1 at every entry; and an entry whose absolute value is below +∞ is neither
  infinity, so it is a real number. Only the first layer, its bias, the second layer and its bias (inputs 4 to 7)
  are read back here: they are the ones the algebra needs.
-/
import proofs.«147217_j83820581749246_2_alg».proof.Pre_finite_inputs
import proofs.«147217_j83820581749246_2_alg».proof.Proof.LibFinite
import Idealize.ShloMosaic.Lib.ReduceAll
import Idealize.ShloMosaic.Lib.ValueIdx

namespace Cert.Finite

open Idealize.ShloMosaic Cert.Pre_finite_inputs

/-- The shape with no axes has exactly one index. -/
instance subsingleton_scalar_idx : Subsingleton S_.Idx := ⟨fun a b => funext fun d => d.elim0⟩

/-- One input's test: if "every entry's absolute value is below +∞" came out 1, every entry is a real number. -/
theorem all_real {s : Shape} {axes : List (Fin s.rank)} (hr : s.ReducesTo axes S_)
    (hb : S_.BroadcastsInDim s (![] : Fin 0 → Fin s.rank)) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu _ e i
  obtain ⟨h1, h2⟩ := Cert.LibFinite.finite_of_abs_lt (x i) hi
  exact ⟨(x i).toReal, (EReal.coe_toReal h1 h2).symm⟩

/-- The precondition holds only when the first layer, its bias, the second layer and its bias are finite. -/
theorem layers_finite [Facts]
    (x0 : S4x2048x14x14.Idx → EReal) (x1 : S80x300.Idx → EReal) (x2 : S1024x2048.Idx → EReal)
    (x3 : S1024x300.Idx → EReal) (x4 : S1024x1024.Idx → EReal) (x5 : S1024.Idx → EReal)
    (x6 : S1x1024.Idx → EReal) (x7 : S1.Idx → EReal)
    (h : fn (F := Ideal) x0 x1 x2 x3 x4 x5 x6 x7 = fun _ => 1#1) :
    (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have h0 := congrFun h ValueIdx.ix0
  dsimp only [fn, fn_part1, fn_part2] at h0
  simp only [andi, IntOp.andi_eq_one] at h0
  obtain ⟨⟨⟨⟨_, e4⟩, e5⟩, e6⟩, e7⟩ := h0
  exact ⟨all_real _ _ _ x4 e4, all_real _ _ _ x5 e5, all_real _ _ _ x6 e6, all_real _ _ _ x7 e7⟩

end Cert.Finite
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KHost.lean ====
/-
  The kernel's input blocks as the region finds them.

  Before the region the host lays the pixel features out as batch × row × column × channel, projects the class words,
  composes the two linear layers into one row (the second layer's row times the first layer's matrix) and one scalar
  (the first bias against the second layer's row, plus the second bias), and changes the format of the pixel
  projection's weights, which at the exact values changes nothing. The region then reads, at grid point t = 14·b + r,
  the 14 pixels of row r of batch b, and the whole of each of the other four arrays. Each block is read here at an
  index given by coordinates:
    block 0 at (0, 0, p, ch)  is the pixel features at batch b, pixel 14·r + p, channel ch;
    block 1 at (s, ch)        is the projection weight at (s, ch);
    block 2 at (k, s)         is the projected class word: the sum over w of word(k, w) · weight(s, w);
    block 3 at (0, s)         is the composed row: the sum over t' of second(0, t') · first(t', s);
    block 4 at (0, 0)         is the composed scalar: the sum over t' of bias1(t') · second(0, t'), plus bias2(0).
  The pixel features are kept as one named array (batch, pixel, channel); the reshape that splits the pixel axis in two
  reads position 14·r + p of it.
-/
import proofs.«147217_j83820581749246_2_alg».proof.Proof.Gen.KernelIdeal.Frame
import proofs.«147217_j83820581749246_2_alg».proof.Proof.Spec
import proofs.«147217_j83820581749246_2_alg».proof.Proof.LibContractPlain
import Idealize.ShloMosaic.Lib.ValueLayout
import Idealize.ShloMosaic.Lib.StableHlo.Run
import Idealize.ShloMosaic.Lib.Pipeline.Value
import Idealize.ShloMosaic.Lib.Tactic

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The eight arguments as launched, as arrays of extended reals. -/
abbrev arg0 (c : Dev nD) : S4x2048x14x14.Idx → EReal := m ((c : Thread nD τ).loc main_arg0)
abbrev arg1 (c : Dev nD) : S80x300.Idx → EReal := m ((c : Thread nD τ).loc main_arg1)
abbrev arg2 (c : Dev nD) : S1024x2048.Idx → EReal := m ((c : Thread nD τ).loc main_arg2)
abbrev arg3 (c : Dev nD) : S1024x300.Idx → EReal := m ((c : Thread nD τ).loc main_arg3)
abbrev arg4 (c : Dev nD) : S1024x1024.Idx → EReal := m ((c : Thread nD τ).loc main_arg4)
abbrev arg5 (c : Dev nD) : S1024.Idx → EReal := m ((c : Thread nD τ).loc main_arg5)
abbrev arg6 (c : Dev nD) : S1x1024.Idx → EReal := m ((c : Thread nD τ).loc main_arg6)
abbrev arg7 (c : Dev nD) : S1.Idx → EReal := m ((c : Thread nD τ).loc main_arg7)

/-- The pixel features, batch by pixel by channel: the image moved to channel-last order, its two spatial axes
    merged into one pixel axis. -/
def pixels (c : Dev nD) : S4x196x2048.Idx → EReal :=
  shapeCast S4x196x2048 (transpose S4x14x2048x14 [0, 3, 1, 2] (arg0 m c) transposes_S4x2048x14x14_S4x14x2048x14_0_3_1_2)
    shapeCasts_S4x14x2048x14_S4x196x2048

/-- The grid has 56 points: 4 batches by 14 pixel rows. -/
theorem N_eq : cfg0.N = 56 := N_0

/-- The batch of a grid point. -/
def batchOf (t : Fin cfg0.N) : Fin 4 := ⟨t.val / 14, by have := t.isLt; have h := N_eq; omega⟩
/-- The pixel row of a grid point. -/
def rowOf (t : Fin cfg0.N) : Fin 14 := ⟨t.val % 14, Nat.mod_lt _ (by decide)⟩

/-! ## The arrays the region finds: the host operations, read off -/

theorem V11 (c : Dev nD) : V m c main_v11
    = truncf (F := Ideal) .bf16 (arg2 m c : FVec Ideal S1024x2048 .f32) bitsLt_bf16_f32 := by
  dsimp only [Gen.V, Gen.hostOps0]; after_results <;> rfl

theorem V4 (c : Dev nD) : V m c main_v4
    = Host.dotGeneral (F := Ideal) (φ₁ := .f32) (φ₂ := .f32) dot_S80x300_S300x1024_S80x1024_1_0_0_1_n_n none (arg1 m c : FVec Ideal S80x300 .f32)
        (transpose S300x1024 [1, 0] (arg3 m c) transposes_S1024x300_S300x1024_1_0 : FVec Ideal S300x1024 .f32) := by
  dsimp only [Gen.V, Gen.hostOps0]; after_results <;> rfl

theorem V5 (c : Dev nD) : V m c main_v5
    = Host.dotGeneral (F := Ideal) (φ₁ := .f32) (φ₂ := .f32) dot_S1x1024_S1024x1024_S1x1024_1_0_0_1_n_n none (arg6 m c : FVec Ideal S1x1024 .f32)
        (arg4 m c : FVec Ideal S1024x1024 .f32) := by
  dsimp only [Gen.V, Gen.hostOps0]; after_results <;> rfl

theorem V10 (c : Dev nD) : V m c main_v10
    = addf (F := Ideal) (φ := .f32) (Host.dotGeneral (F := Ideal) (φ₁ := .f32) (φ₂ := .f32) dot_S1x1024_S1024x1_S1x1_1_0_0_1_n_n none
          (shapeCast S1x1024 (arg5 m c) shapeCasts_S1024_S1x1024 : FVec Ideal S1x1024 .f32)
          (transpose S1024x1 [1, 0] (arg6 m c) transposes_S1x1024_S1024x1_1_0 : FVec Ideal S1024x1 .f32))
        (shapeCast S1x1 (arg7 m c) shapeCasts_S1_S1x1 : FVec Ideal S1x1 .f32) := by
  dsimp only [Gen.V, Gen.hostOps0]; after_results <;> rfl

theorem V2 (c : Dev nD) : V m c main_v2 = shapeCast S4x14x14x2048 (pixels m c) shapeCasts_S4x196x2048_S4x14x14x2048 := by
  dsimp only [Gen.V, Gen.hostOps0]; after_results <;> rfl

/-! ## The blocks -/

/-- The index maps, decided over the 56 grid points: the pixel block follows the batch and the pixel row; the other
    four inputs stay at block 0. -/
theorem idx_facts : ∀ t : Fin cfg0.N,
    win0_0.index t (0 : Fin 4) = t.val / 14 ∧ win0_0.index t (1 : Fin 4) = t.val % 14
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Block 1 is the projection weight, whole: the change of format is the identity at the exact values. -/
theorem blk1 (c : Dev nD) (t : Fin cfg0.N) (s : Fin 1024) (ch : Fin 2048) :
    iblk m c 1 t (ix2 s ch) = arg2 m c (ix2 s ch) := by
  obtain ⟨-, -, -, -, e0, e1, -⟩ := idx_facts t
  unfold iblk
  rw [View.read_apply]
  show V m c main_v11 _ = _
  rw [V11, truncf_apply]
  congr 1
  funext a
  apply Fin.ext
  match a with
  | ⟨0, _⟩ => show win0_1.index t 0 * 1024 + 1 * s.val = s.val; rw [e0]; omega
  | ⟨1, _⟩ => show win0_1.index t 1 * 2048 + 1 * ch.val = ch.val; rw [e1]; omega

/-- Block 2 is the projected class words, whole. -/
theorem blk2 (c : Dev nD) (t : Fin cfg0.N) (k : Fin 80) (s : Fin 1024) :
    iblk m c 2 t (ix2 k s) = Cert.Spec.wordP (arg1 m c) (arg3 m c) k s := by
  obtain ⟨-, -, -, -, -, -, e0, e1, -⟩ := idx_facts t
  have he : ((cfg0.win 2).blk t).view.emb (ix2 k s) = (ix2 k s : S80x1024.Idx) := by
    funext a
    apply Fin.ext
    match a with
    | ⟨0, _⟩ => show win0_2.index t 0 * 80 + 1 * k.val = k.val; rw [e0]; omega
    | ⟨1, _⟩ => show win0_2.index t 1 * 1024 + 1 * s.val = s.val; rw [e1]; omega
  unfold iblk
  rw [View.read_apply]
  show V m c main_v4 (((cfg0.win 2).blk t).view.emb (ix2 k s)) = _
  rw [he, V4]
  refine (Cert.Lib.ContractPlain.hostDot_apply dot_S80x300_S300x1024_S80x1024_1_0_0_1_n_n rfl none _ _ k s).trans ?_
  unfold Cert.Spec.wordP
  refine Finset.sum_congr rfl fun w _ => ?_
  rw [transpose_ix2_apply]

/-- Block 3 is the two layers composed into one row: the second layer's row times the first layer's matrix. -/
theorem blk3 (c : Dev nD) (t : Fin cfg0.N) (s : Fin 1024) :
    iblk m c 3 t (ix2 (0 : Fin 1) s) = ∑ t' : Fin 1024, arg6 m c (ix2 (0 : Fin 1) t') * arg4 m c (ix2 t' s) := by
  obtain ⟨-, -, -, -, -, -, -, -, e0, e1, -⟩ := idx_facts t
  have he : ((cfg0.win 3).blk t).view.emb (ix2 (0 : Fin 1) s) = (ix2 (0 : Fin 1) s : S1x1024.Idx) := by
    funext a
    apply Fin.ext
    match a with
    | ⟨0, _⟩ => show win0_3.index t 0 * 1 + 1 * (0 : Fin 1).val = (0 : Fin 1).val; rw [e0]; rfl
    | ⟨1, _⟩ => show win0_3.index t 1 * 1024 + 1 * s.val = s.val; rw [e1]; omega
  unfold iblk
  rw [View.read_apply]
  show V m c main_v5 (((cfg0.win 3).blk t).view.emb (ix2 (0 : Fin 1) s)) = _
  rw [he, V5]
  exact Cert.Lib.ContractPlain.hostDot_apply dot_S1x1024_S1024x1024_S1x1024_1_0_0_1_n_n rfl none _ _ (0 : Fin 1) s

/-- Block 4 is the two biases composed into one scalar: the first bias against the second layer's row, plus the
    second bias. -/
theorem blk4 (c : Dev nD) (t : Fin cfg0.N) :
    iblk m c 4 t (ix2 (0 : Fin 1) (0 : Fin 1))
      = (∑ t' : Fin 1024, arg5 m c (ix1 t') * arg6 m c (ix2 (0 : Fin 1) t')) + arg7 m c (ix1 (0 : Fin 1)) := by
  obtain ⟨-, -, -, -, -, -, -, -, -, -, e0, e1⟩ := idx_facts t
  have he : ((cfg0.win 4).blk t).view.emb (ix2 (0 : Fin 1) (0 : Fin 1)) = (ix2 (0 : Fin 1) (0 : Fin 1) : S1x1.Idx) := by
    funext a
    apply Fin.ext
    match a with
    | ⟨0, _⟩ => show win0_4.index t 0 * 1 + 1 * (0 : Fin 1).val = (0 : Fin 1).val; rw [e0]; rfl
    | ⟨1, _⟩ => show win0_4.index t 1 * 1 + 1 * (0 : Fin 1).val = (0 : Fin 1).val; rw [e1]; rfl
  unfold iblk
  rw [View.read_apply]
  show V m c main_v10 (((cfg0.win 4).blk t).view.emb (ix2 (0 : Fin 1) (0 : Fin 1))) = _
  rw [he, V10, addf_apply]
  congr 1
  · refine (Cert.Lib.ContractPlain.hostDot_apply dot_S1x1024_S1024x1_S1x1_1_0_0_1_n_n rfl none _ _ (0 : Fin 1) (0 : Fin 1)).trans ?_
    refine Finset.sum_congr rfl fun t' _ => ?_
    rw [shapeCast_a_1a_apply, transpose_ix2_apply]
  · exact shapeCast_a_1a_apply _ _ _ _

/-- Block 0 at grid point 14·b + r is row r of batch b of the pixel features: its pixel p is pixel 14·r + p. -/
theorem blk0 (c : Dev nD) (t : Fin cfg0.N) (p : Fin 14) (ch : Fin 2048) :
    iblk m c 0 t (ix4 (0 : Fin 1) (0 : Fin 1) p ch)
      = pixels m c (ix3 (batchOf t) (Cert.Spec.pix (rowOf t) p) ch) := by
  obtain ⟨e0, e1, e2, e3, -⟩ := idx_facts t
  have he : ((cfg0.win 0).blk t).view.emb (ix4 (0 : Fin 1) (0 : Fin 1) p ch)
      = (ix4 (batchOf t) (rowOf t) p ch : S4x14x14x2048.Idx) := by
    funext a
    apply Fin.ext
    match a with
    | ⟨0, _⟩ => show win0_0.index t 0 * 1 + 1 * (0 : Fin 1).val = t.val / 14; rw [e0]; simp
    | ⟨1, _⟩ => show win0_0.index t 1 * 1 + 1 * (0 : Fin 1).val = t.val % 14; rw [e1]; simp
    | ⟨2, _⟩ => show win0_0.index t 2 * 14 + 1 * p.val = p.val; rw [e2]; omega
    | ⟨3, _⟩ => show win0_0.index t 3 * 2048 + 1 * ch.val = ch.val; rw [e3]; omega
  unfold iblk
  rw [View.read_apply]
  show V m c main_v2 (((cfg0.win 0).blk t).view.emb (ix4 (0 : Fin 1) (0 : Fin 1) p ch)) = _
  rw [he, V2]
  refine shapeCast_apply _ _ _ _ ?_
  rw [Shape.rowMajor_val_three, Shape.rowMajor_val_four]
  show ((t.val / 14) * 196 + ((t.val % 14) * 14 + p.val)) * 2048 + ch.val
    = (((t.val / 14) * 14 + t.val % 14) * 14 + p.val) * 2048 + ch.val
  omega

end Cert.KernelIdeal.HostSide

end
-- ==== Proof.KCases.lean ====
/-
  What one run of the kernel body leaves in its three output blocks, as values of the blocks it was given.

  The body first fills a scratch matrix with the 14 × 80 scores of the row of pixels it was given — the lower 40
  classes and the upper 40 classes separately — and reads the whole matrix back (`scores`). From the scores it forms
  the attention weights, which it stores as the second output block; the first output block is the pixel features
  times the weights, again stored in two halves of the class axis; the third output block is the block's previous
  contents (the zero block at the first pixel row of a batch element) plus the weights contracted against the pixel
  features over the 14 pixels of the row.
-/
import proofs.«147217_j83820581749246_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The word projections of the lower 40 classes, as the body loads them. -/
abbrev wordLo (x2 : Vec F S80x1024 .f32) : Vec F S40x1024 .f32 :=
  View.ld x2 (Rect.unit ![0, 0] S40x1024.size inb_S80x1024_S40x1024_0_0)

/-- The word projections of the upper 40 classes. -/
abbrev wordHi (x2 : Vec F S80x1024 .f32) : Vec F S40x1024 .f32 :=
  View.ld x2 (Rect.unit ![40, 0] S40x1024.size inb_S80x1024_S40x1024_40_0)

/-- The scratch matrix after both halves of the scores are stored: the upper half's store last. -/
def scores (x0 : Vec F S1x1x14x2048 .f32) (x1 : Vec F S1024x2048 .bf16) (x2 : Vec F S80x1024 .f32) (x3 : Vec F S1x1024 .f32) (x4 : Vec F S1x1 .f32) : S14x80.Idx → Elt F .f32 :=
  View.canon
    [⟨Rect.unit ![0, 40] S14x40.size inb_S14x80_S14x40_0_40,
        k0_pay12 (k0_pay7 x3) (k0_pay8 x4) (k0_pay10 (wordHi x2)) (k0_pay11 x0 x1)⟩,
      ⟨Rect.unit ![0, 0] S14x40.size inb_S14x80_S14x40_0_0, k0_pay9 x0 x1 x3 x4 (wordLo x2)⟩]

/-- Reading the whole scratch matrix back after the two stores gives `scores`. -/
theorem readBack (x0 : Vec F S1x1x14x2048 .f32) (x1 : Vec F S1024x2048 .bf16) (x2 : Vec F S80x1024 .f32) (x3 : Vec F S1x1024 .f32) (x4 : Vec F S1x1 .f32) (arg10 : Memref sig .tc .vmem S14x80 .f32) :
    arg10.view.readCov
      [⟨Rect.unit ![0, 40] S14x40.size inb_S14x80_S14x40_0_40,
          k0_pay12 (k0_pay7 x3) (k0_pay8 x4) (k0_pay10 (wordHi x2)) (k0_pay11 x0 x1)⟩,
        ⟨Rect.unit ![0, 0] S14x40.size inb_S14x80_S14x40_0_0, k0_pay9 x0 x1 x3 x4 (wordLo x2)⟩]
      (Rect.unit ![0, 0] S14x80.size inb_S14x80_S14x80_0_0).toLoadRect = scores x0 x1 x2 x3 x4 := by
  rw [View.readCov_eq_canon']
  exact View.ld_unit_zero (S := S14x80) hz2 inb_S14x80_S14x80_0_0 _

/-- The first output block: the upper classes' store last, the lower classes' first. -/
def weighted (x0 : Vec F S1x1x14x2048 .f32) (x1 : Vec F S1024x2048 .bf16) (x2 : Vec F S80x1024 .f32) (x3 : Vec F S1x1024 .f32) (x4 : Vec F S1x1 .f32) : S1x1x14x80x2048.Idx → Elt F .f32 :=
  View.canon
    [⟨Rect.unit ![0, 0, 0, 40, 0] S1x1x14x40x2048.size inb_S1x1x14x80x2048_S1x1x14x40x2048_0_0_0_40_0,
        k0_pay2 (k0_pay4 x0) (k0_pay13 (scores x0 x1 x2 x3 x4))⟩,
      ⟨Rect.unit ![0, 0, 0, 0, 0] S1x1x14x40x2048.size inb_S1x1x14x80x2048_S1x1x14x40x2048_0_0_0_0_0,
        k0_pay1 (k0_pay16 (scores x0 x1 x2 x3 x4)) (k0_pay17 (k0_pay4 x0))⟩]

/-! ## The case where the third output block is reset first -/

theorem attn_A (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : cond0_0 i) (x0 : Vec F S1x1x14x2048 .f32) (x1 : Vec F S1024x2048 .bf16) (x2 : Vec F S80x1024 .f32) (x3 : Vec F S1x1024 .f32) (x4 : Vec F S1x1 .f32) :
    out0_A_6 c i arg2 harg2 arg3 harg3 arg4 harg4 arg5 harg5 arg6 harg6 arg7 harg7 arg8 harg8 arg9 harg9 arg10 harg10 hc0 x0 x1 x2 x3 x4 = k0_pay14 (scores x0 x1 x2 x3 x4) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero (S := S1x1x14x80) hz4]
  simp only [View.readAt_eq_ld, harg2.read_unread, harg3.read_unread, harg4.read_unread, harg5.read_unread, harg6.read_unread,
    View.ld_unit_zero (S := S1x1x14x2048) hz4, View.ld_unit_zero (S := S1024x2048) hz2, View.ld_unit_zero (S := S1x1024) hz2,
    View.ld_unit_zero (S := S1x1) hz2]
  rw [readBack]

theorem sem_A (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : cond0_0 i) (x0 : Vec F S1x1x14x2048 .f32) (x1 : Vec F S1024x2048 .bf16) (x2 : Vec F S80x1024 .f32) (x3 : Vec F S1x1024 .f32) (x4 : Vec F S1x1 .f32) :
    out0_A_7 c i arg2 harg2 arg3 harg3 arg4 harg4 arg5 harg5 arg6 harg6 arg7 harg7 arg8 harg8 arg9 harg9 arg10 harg10 hc0 x0 x1 x2 x3 x4 = k0_pay15 (k0_pay5 x0) (scores x0 x1 x2 x3 x4) k0_pay3 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_cons_unit_zero (S := S1x80x2048) hz3, View.readCov_unit_zero (S := S1x80x2048) _ hz3]
  simp only [View.readAt_eq_ld, harg2.read_unread, harg3.read_unread, harg4.read_unread, harg5.read_unread, harg6.read_unread,
    View.ld_unit_zero (S := S1x1x14x2048) hz4, View.ld_unit_zero (S := S1024x2048) hz2, View.ld_unit_zero (S := S1x1024) hz2,
    View.ld_unit_zero (S := S1x1) hz2]
  rw [readBack]

theorem weighted_A (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : cond0_0 i) (x0 : Vec F S1x1x14x2048 .f32) (x1 : Vec F S1024x2048 .bf16) (x2 : Vec F S80x1024 .f32) (x3 : Vec F S1x1024 .f32) (x4 : Vec F S1x1 .f32) :
    out0_A_5 c i arg2 harg2 arg3 harg3 arg4 harg4 arg5 harg5 arg6 harg6 arg7 harg7 arg8 harg8 arg9 harg9 arg10 harg10 hc0 x0 x1 x2 x3 x4 = weighted x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  simp only [View.readAt_eq_ld, harg2.read_unread, harg3.read_unread, harg4.read_unread, harg5.read_unread, harg6.read_unread,
    View.ld_unit_zero (S := S1x1x14x2048) hz4, View.ld_unit_zero (S := S1024x2048) hz2, View.ld_unit_zero (S := S1x1024) hz2,
    View.ld_unit_zero (S := S1x1) hz2]
  rw [readBack]
  rfl

/-! ## The case where the third output block carries over -/

theorem attn_B (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : ¬cond0_0 i) (x0 : Vec F S1x1x14x2048 .f32) (x1 : Vec F S1024x2048 .bf16) (x2 : Vec F S80x1024 .f32) (x3 : Vec F S1x1024 .f32) (x4 : Vec F S1x1 .f32) (xo7 : Vec F S1x80x2048 .f32) :
    out0_B_6 c i arg2 harg2 arg3 harg3 arg4 harg4 arg5 harg5 arg6 harg6 arg7 harg7 arg8 harg8 arg9 harg9 arg10 harg10 hc0 x0 x1 x2 x3 x4 xo7 = k0_pay14 (scores x0 x1 x2 x3 x4) := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 xo7)]
  unfold kernelRun0_B
  dsimp only
  sl_unfold_words
  rw [View.canon_unit_zero (S := S1x1x14x80) hz4]
  simp only [View.readAt_eq_ld, harg2.read_unread, harg3.read_unread, harg4.read_unread, harg5.read_unread, harg6.read_unread,
    View.ld_unit_zero (S := S1x1x14x2048) hz4, View.ld_unit_zero (S := S1024x2048) hz2, View.ld_unit_zero (S := S1x1024) hz2,
    View.ld_unit_zero (S := S1x1) hz2]
  rw [readBack]

theorem sem_B (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : ¬cond0_0 i) (x0 : Vec F S1x1x14x2048 .f32) (x1 : Vec F S1024x2048 .bf16) (x2 : Vec F S80x1024 .f32) (x3 : Vec F S1x1024 .f32) (x4 : Vec F S1x1 .f32) (xo7 : Vec F S1x80x2048 .f32) :
    out0_B_7 c i arg2 harg2 arg3 harg3 arg4 harg4 arg5 harg5 arg6 harg6 arg7 harg7 arg8 harg8 arg9 harg9 arg10 harg10 hc0 x0 x1 x2 x3 x4 xo7 = k0_pay15 (k0_pay5 x0) (scores x0 x1 x2 x3 x4) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 xo7)]
  unfold kernelRun0_B
  dsimp only
  sl_unfold_words
  rw [View.canon_unit_zero (S := S1x80x2048) hz3]
  simp only [View.readAt_eq_ld, harg2.read_unread, harg3.read_unread, harg4.read_unread, harg5.read_unread, harg6.read_unread, harg9.read_unread,
    View.ld_unit_zero (S := S1x1x14x2048) hz4, View.ld_unit_zero (S := S1024x2048) hz2, View.ld_unit_zero (S := S1x1024) hz2,
    View.ld_unit_zero (S := S1x1) hz2, View.ld_unit_zero (S := S1x80x2048) hz3]
  rw [readBack]

theorem weighted_B (c : Dev nD) (i : grid0.Coords) (arg2 : Memref sig .tc .vmem S1x1x14x2048 .f32) (harg2 : arg2.IsWhole) (arg3 : Memref sig .tc .vmem S1024x2048 .bf16) (harg3 : arg3.IsWhole) (arg4 : Memref sig .tc .vmem S80x1024 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1x14x80x2048 .f32) (harg7 : arg7.IsWhole) (arg8 : Memref sig .tc .vmem S1x1x14x80 .f32) (harg8 : arg8.IsWhole) (arg9 : Memref sig .tc .vmem S1x80x2048 .f32) (harg9 : arg9.IsWhole) (arg10 : Memref sig .tc .vmem S14x80 .f32) (harg10 : arg10.IsWhole) (hc0 : ¬cond0_0 i) (x0 : Vec F S1x1x14x2048 .f32) (x1 : Vec F S1024x2048 .bf16) (x2 : Vec F S80x1024 .f32) (x3 : Vec F S1x1024 .f32) (x4 : Vec F S1x1 .f32) (xo7 : Vec F S1x80x2048 .f32) :
    out0_B_5 c i arg2 harg2 arg3 harg3 arg4 harg4 arg5 harg5 arg6 harg6 arg7 harg7 arg8 harg8 arg9 harg9 arg10 harg10 hc0 x0 x1 x2 x3 x4 xo7 = weighted x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xo7)]
  unfold kernelRun0_B
  dsimp only
  sl_unfold_words
  simp only [View.readAt_eq_ld, harg2.read_unread, harg3.read_unread, harg4.read_unread, harg5.read_unread, harg6.read_unread,
    View.ld_unit_zero (S := S1x1x14x2048) hz4, View.ld_unit_zero (S := S1024x2048) hz2, View.ld_unit_zero (S := S1x1024) hz2,
    View.ld_unit_zero (S := S1x1) hz2]
  rw [readBack]
  rfl

end Cert.KernelIdeal.Cases

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.LibBroadcastRow.lean ====
/-
  A layout operation of rank three read at an index given by coordinates:
    [1, 1, c] broadcast to [a, b, c]   reads (p, q, k) at (0, 0, k)   (one row repeated along both leading axes).
-/
import Idealize.ShloMosaic.Lib.Pipeline.Value
import Idealize.ShloMosaic.Lib.ValueIdx

namespace Cert.BroadcastRow

open Idealize.ShloMosaic Idealize.ShloMosaic.ValueIdx

/-- A `[1, 1, c]` row broadcast to `[a, b, c]` reads, at `(p, q, k)`, the row at `(0, 0, k)`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.BroadcastRow
-- ==== Proof.LibSqueeze.lean ====
/-
  Two leading unit axes dropped by a shape cast, read at an index given by coordinates: a block `[1, 1, a, b]` re-laid as
  the matrix `[a, b]` reads, at `(i, j)`, the block at `(0, 0, i, j)` — the row-major position of both is `i · b + j`.
-/
import Idealize.ShloMosaic.Lib.ValueLayout

namespace Cert.Squeeze

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]
    show ((0 * 1 + 0) * a + i.val) * b + j.val = i.val * b + j.val
    simp)

end Cert.Squeeze
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.KPayload.lean ====
/-
  The kernel body's arithmetic read entry by entry on the extended reals.

  For the row of 14 pixels a grid point is given (block `x0`, pixel p, channel c), the projection `x1` (semantic
  dimension s, channel c), the projected class words `x2` (class k, s), the composed layer row `x3` (s) and the composed
  bias `x4`:
    the projected pixel   img p s   = Σ_c x0(p,c) · x1(s,c);
    the score             score p k = Σ_s tanh (img p s · x2(k,s)) · x3(s) + x4;
    the attention weights           = the softmax of the scores over the 80 classes;
    the weighted features at (p,k,c) = x0(p,c) · weight p k;
    the contribution to the class sums at (k,c) = Σ_p weight p k · x0(p,c), added to what the block held.
-/
import proofs.«147217_j83820581749246_2_alg».proof.Proof.KCases
import proofs.«147217_j83820581749246_2_alg».proof.Proof.Spec
import proofs.«147217_j83820581749246_2_alg».proof.Proof.LibKeepdims
import proofs.«147217_j83820581749246_2_alg».proof.Proof.LibBroadcast3
import proofs.«147217_j83820581749246_2_alg».proof.Proof.LibBroadcastRow
import proofs.«147217_j83820581749246_2_alg».proof.Proof.LibSqueeze
import proofs.«147217_j83820581749246_2_alg».proof.Proof.LibBlockLayout
import proofs.«147217_j83820581749246_2_alg».proof.Proof.LibContractPlain
import Idealize.ShloMosaic.Lib.ValueLayout
import Idealize.ShloMosaic.Lib.ValueIdx
import Idealize.ShloMosaic.PureOps.Ideal.Laws

set_option maxRecDepth 16384

noncomputable section

namespace Cert.KernelIdeal.Payload

open Cert.KernelIdeal Cert.KernelIdeal.Gen Cert.KernelIdeal.Cases
open Idealize.ShloMosaic Idealize.ShloMosaic.ValueIdx

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

section
variable (x0 : Vec Ideal S1x1x14x2048 .f32) (x1 : Vec Ideal S1024x2048 .bf16) (x2 : Vec Ideal S80x1024 .f32)
  (x3 : Vec Ideal S1x1024 .f32) (x4 : Vec Ideal S1x1 .f32)

/-- The pixel features of the row, as a 14 × 2048 matrix. -/
theorem pay4_apply (p : Fin 14) (c : Fin 2048) : k0_pay4 x0 (ix2 p c) = x0 (ix4 (0 : Fin 1) (0 : Fin 1) p c) := by
  unfold k0_pay4
  exact Cert.Squeeze.shapeCast_11ab_ab_apply x0 _ p c

theorem pay5_apply (p : Fin 14) (c : Fin 2048) : k0_pay5 x0 (ix2 p c) = x0 (ix4 (0 : Fin 1) (0 : Fin 1) p c) := by
  unfold k0_pay5
  exact pay4_apply x0 p c

/-- The projected pixel. -/
def img (p : Fin 14) (s : Fin 1024) : EReal := ∑ c : Fin 2048, x0 (ix4 (0 : Fin 1) (0 : Fin 1) p c) * x1 (ix2 s c)

theorem pay6_apply (p : Fin 14) (s : Fin 1024) : k0_pay6 x0 x1 (ix2 p s) = img x0 x1 p s := by
  unfold k0_pay6
  refine (Cert.Lib.ContractPlain.matmulZero_apply _ rfl none _ _ p s).trans ?_
  refine Finset.sum_congr rfl fun c _ => ?_
  rw [pay5_apply, transpose_ix2_apply, shapeCast_self]

/-- One score from the projected pixel, one class word's projection `w` (read at row `q`), the composed row and bias. -/
def scoreOf (w : Fin 1024 → EReal) (p : Fin 14) : EReal :=
  (∑ s : Fin 1024, Ideal.tanh (img x0 x1 p s * w s) * x3 (ix2 (0 : Fin 1) s)) + x4 (ix2 (0 : Fin 1) (0 : Fin 1))

theorem pay9_apply (wl : Vec Ideal S40x1024 .f32) (p : Fin 14) (q : Fin 40) :
    k0_pay9 x0 x1 x3 x4 wl (ix2 p q) = scoreOf x0 x1 x3 x4 (fun s => wl (ix2 q s)) p := by
  have hsum : ∀ (src : FVec Ideal S14x40x1024 .f32) (h1 : FKind.Formats .f32)
      (h2 : (0x00000000#32 : BitVec 32) = 0x00000000#32),
      multiReduction FKind.add [2] S14x40 src 0x00000000#32 reduces_S14x40x1024_S14x40 h1 h2 (ix2 p q)
        = ∑ s : Fin 1024, src (ix3 p q s) :=
    fun src h1 h2 => Cert.Broadcast3.multiReduction_add_trailing src _ _ h1 h2 p q
  unfold k0_pay9 k0_pay7 k0_pay8 scoreOf
  simp only [shapeCast_self, addf_apply, broadcastTo_11_ab_apply]
  rw [hsum]
  simp only [shapeCast_self, addf_apply, mulf_apply, tanh_apply,
    Cert.Broadcast3.broadcastTo_a1b_acb_apply, Cert.Broadcast3.shapeCast_ab_a1b_apply,
    Cert.Broadcast3.broadcastTo_1cb_acb_apply, shapeCast_ab_1ab_apply, Cert.BroadcastRow.broadcastTo_11c_abc_apply,
    broadcastTo_11_ab_apply, pay6_apply]

theorem pay12_apply (wh : Vec Ideal S40x1024 .f32) (p : Fin 14) (q : Fin 40) :
    k0_pay12 (k0_pay7 x3) (k0_pay8 x4) (k0_pay10 wh) (k0_pay11 x0 x1) (ix2 p q)
      = scoreOf x0 x1 x3 x4 (fun s => wh (ix2 q s)) p := by
  have hsum : ∀ (src : FVec Ideal S14x40x1024 .f32) (h1 : FKind.Formats .f32)
      (h2 : (0x00000000#32 : BitVec 32) = 0x00000000#32),
      multiReduction FKind.add [2] S14x40 src 0x00000000#32 reduces_S14x40x1024_S14x40 h1 h2 (ix2 p q)
        = ∑ s : Fin 1024, src (ix3 p q s) :=
    fun src h1 h2 => Cert.Broadcast3.multiReduction_add_trailing src _ _ h1 h2 p q
  unfold k0_pay12 k0_pay7 k0_pay8 k0_pay10 k0_pay11 scoreOf
  simp only [shapeCast_self, addf_apply, broadcastTo_11_ab_apply]
  rw [hsum]
  simp only [shapeCast_self, addf_apply, mulf_apply, tanh_apply,
    Cert.Broadcast3.broadcastTo_a1b_acb_apply, Cert.Broadcast3.shapeCast_ab_a1b_apply,
    Cert.Broadcast3.broadcastTo_1cb_acb_apply, shapeCast_ab_1ab_apply, Cert.BroadcastRow.broadcastTo_11c_abc_apply,
    broadcastTo_11_ab_apply, pay6_apply]

end

/-! ## The softmax of a 14 × 80 matrix of scores, row by row -/

theorem pay13_apply (L : Vec Ideal S14x80 .f32) (p : Fin 14) (k : Fin 80) :
    k0_pay13 L (ix2 p k) = Cert.Spec.softmax (fun k' => L (ix2 p k')) k := by
  have hmax : ∀ (h1 : FKind.Formats .f32) (h2 : (0xFF800000#32 : BitVec 32) = 0xFF800000#32),
      multiReduction (F := Ideal) FKind.maximumf [1] S14 (L : FVec Ideal S14x80 .f32) 0xFF800000#32 reduces_S14x80_S14 h1 h2 (ix1 p)
        = (Finset.univ : Finset (Fin 80)).fold max Cert.Spec.negInf (fun k' => L (ix2 p k')) :=
    fun h1 h2 => Cert.BlockLayout.multiReduction_max_trailing2 (L : FVec Ideal S14x80 .f32) _ _ h1 h2 p
  have hsum : ∀ (src : FVec Ideal S14x80 .f32) (h1 : FKind.Formats .f32)
      (h2 : (0x00000000#32 : BitVec 32) = 0x00000000#32),
      multiReduction FKind.add [1] S14 src 0x00000000#32 reduces_S14x80_S14 h1 h2 (ix1 p)
        = ∑ k' : Fin 80, src (ix2 p k') :=
    fun src h1 h2 => Cert.BlockLayout.multiReduction_add_trailing2 src _ _ h1 h2 p
  unfold k0_pay13 Cert.Spec.softmax Cert.Spec.shiftExp Cert.Spec.rowMax
  simp only [divf_apply, exp_apply, subf_apply, Cert.Keepdims.broadcastTo_a1_ab_apply, Cert.Keepdims.shapeCast_a_a1_apply,
    maximumf_apply, broadcast_apply]
  rw [hsum, hmax]
  simp only [exp_apply, subf_apply, Cert.Keepdims.broadcastTo_a1_ab_apply, Cert.Keepdims.shapeCast_a_a1_apply,
    maximumf_apply, broadcast_apply, hmax]
  rfl

theorem pay14_apply (L : Vec Ideal S14x80 .f32) (p : Fin 14) (k : Fin 80) :
    k0_pay14 L (ix4 (0 : Fin 1) (0 : Fin 1) p k) = Cert.Spec.softmax (fun k' => L (ix2 p k')) k := by
  unfold k0_pay14
  exact (Cert.BlockLayout.shapeCast_ab_11ab_apply _ _ 0 0 p k).trans (pay13_apply L p k)

theorem pay16_apply (L : Vec Ideal S14x80 .f32) (p : Fin 14) (q : Fin 40) :
    k0_pay16 L (ix2 p q) = Cert.Spec.softmax (fun k' => L (ix2 p k')) ⟨q.val, by have := q.isLt; omega⟩ := by
  unfold k0_pay16
  exact (slice2_axis1_apply 0 _ _ p q ⟨q.val, by have := q.isLt; omega⟩ (by simp)).trans (pay13_apply L p _)

/-- The third output block: what it held plus the weights contracted against the pixel features over the row. -/
theorem pay15_apply (x0 : Vec Ideal S1x1x14x2048 .f32) (L : Vec Ideal S14x80 .f32) (prev : Vec Ideal S1x80x2048 .f32)
    (k : Fin 80) (c : Fin 2048) :
    k0_pay15 (k0_pay5 x0) L prev (ix3 (0 : Fin 1) k c)
      = prev (ix3 (0 : Fin 1) k c)
        + ∑ p : Fin 14, Cert.Spec.softmax (fun k' => L (ix2 p k')) k * x0 (ix4 (0 : Fin 1) (0 : Fin 1) p c) := by
  unfold k0_pay15
  refine (shapeCast_ab_1ab_apply _ _ 0 k c).trans ?_
  rw [addf_apply, shapeCast_1ab_ab_apply]
  congr 1
  refine (Cert.Lib.ContractPlain.matmulZero_apply _ rfl none _ _ k c).trans ?_
  refine Finset.sum_congr rfl fun p _ => ?_
  rw [transpose_ix2_apply, truncf_apply, pay13_apply, pay5_apply]

/-- The zero block. -/
theorem pay3_apply (k : Fin 80) (c : Fin 2048) : k0_pay3 (F := Ideal) (ix3 (0 : Fin 1) k c) = 0 := by
  unfold k0_pay3
  refine (shapeCast_ab_1ab_apply _ _ 0 k c).trans ?_
  exact Ideal.ofBits_zero_f32

/-- The weighted features of the lower classes. -/
theorem pay1_apply (x0 : Vec Ideal S1x1x14x2048 .f32) (w : FVec Ideal S14x40 .f32) (p : Fin 14) (q : Fin 40) (c : Fin 2048) :
    k0_pay1 w (k0_pay17 (k0_pay4 x0)) (ix5 (0 : Fin 1) (0 : Fin 1) p q c) = x0 (ix4 (0 : Fin 1) (0 : Fin 1) p c) * w (ix2 p q) := by
  unfold k0_pay1 k0_pay17
  refine (Cert.BlockLayout.shapeCast_abc_11abc_apply _ _ 0 0 p q c).trans ?_
  rw [mulf_apply, Cert.Broadcast3.broadcastTo_a1b_acb_apply, Cert.Broadcast3.shapeCast_ab_a1b_apply, pay4_apply,
    Cert.Broadcast3.broadcastTo_ab1_abc_apply, Cert.Broadcast3.shapeCast_ab_ab1_apply]

/-- The weighted features of the upper classes: the weights read 40 columns along. -/
theorem pay2_apply (x0 : Vec Ideal S1x1x14x2048 .f32) (w : FVec Ideal S14x80 .f32) (p : Fin 14) (q : Fin 40) (c : Fin 2048) :
    k0_pay2 (k0_pay4 x0) w (ix5 (0 : Fin 1) (0 : Fin 1) p q c)
      = x0 (ix4 (0 : Fin 1) (0 : Fin 1) p c) * w (ix2 p ⟨40 + q.val, by have := q.isLt; omega⟩) := by
  unfold k0_pay2
  refine (Cert.BlockLayout.shapeCast_abc_11abc_apply _ _ 0 0 p q c).trans ?_
  rw [mulf_apply, Cert.Broadcast3.broadcastTo_a1b_acb_apply, Cert.Broadcast3.shapeCast_ab_a1b_apply, pay4_apply,
    Cert.Broadcast3.broadcastTo_ab1_abc_apply, Cert.Broadcast3.shapeCast_ab_ab1_apply,
    slice2_axis1_apply 40 _ _ p q ⟨40 + q.val, by have := q.isLt; omega⟩ rfl]

end Cert.KernelIdeal.Payload

end
-- ==== Proof.KPoint.lean ====
/-
  One grid point's three output blocks, entry by entry, from the blocks the point is given.

  The scores are stored in two halves of the class axis and read back whole: class k < 40 comes from the first
  store at column k, class k ≥ 40 from the second at column k − 40, and either way the entry is the score of pixel p
  and class k computed from row k of the projected class words. The weighted features are stored in two halves the
  same way. So every entry of every output block is one formula of the pixel and the class, whichever half it is in.
-/
import proofs.«147217_j83820581749246_2_alg».proof.Proof.KPayload

set_option maxRecDepth 16384

noncomputable section

namespace Cert.KernelIdeal.Point

open Cert.KernelIdeal Cert.KernelIdeal.Gen Cert.KernelIdeal.Cases Cert.KernelIdeal.Payload
open Idealize.ShloMosaic Idealize.ShloMosaic.ValueIdx

variable (x0 : Vec Ideal S1x1x14x2048 .f32) (x1 : Vec Ideal S1024x2048 .bf16) (x2 : Vec Ideal S80x1024 .f32)
  (x3 : Vec Ideal S1x1024 .f32) (x4 : Vec Ideal S1x1 .f32)

/-- Row q of the lower half of the projected class words is row q of the whole. -/
theorem wordLo_apply (q : Fin 40) (s : Fin 1024) :
    wordLo x2 (ix2 q s) = x2 (ix2 (⟨q.val, by have := q.isLt; omega⟩ : Fin 80) s) := by
  show x2 _ = x2 _
  refine congrArg x2 (funext fun a => Fin.ext ?_)
  match a with
  | ⟨0, _⟩ => show 0 + 1 * q.val = q.val; omega
  | ⟨1, _⟩ => show 0 + 1 * s.val = s.val; omega

/-- Row q of the upper half is row 40 + q of the whole. -/
theorem wordHi_apply (q : Fin 40) (s : Fin 1024) :
    wordHi x2 (ix2 q s) = x2 (ix2 (⟨40 + q.val, by have := q.isLt; omega⟩ : Fin 80) s) := by
  show x2 _ = x2 _
  refine congrArg x2 (funext fun a => Fin.ext ?_)
  match a with
  | ⟨0, _⟩ => show 40 + 1 * q.val = 40 + q.val; omega
  | ⟨1, _⟩ => show 0 + 1 * s.val = s.val; omega

/-- A 14 × 80 matrix stored as its upper 40 columns (last) and its lower 40 columns (first) reads, at column k, the
    lower store at k when k < 40 and the upper store at k − 40 otherwise. -/
theorem canonCols (wHi wLo : S14x40.Idx → Elt Ideal .f32) (p : Fin 14) (k : Fin 80) :
    View.canon (Val := Elt Ideal)
        [⟨Rect.unit (s := S14x80) ![0, 40] S14x40.size inb_S14x80_S14x40_0_40, wHi⟩,
          ⟨Rect.unit (s := S14x80) ![0, 0] S14x40.size inb_S14x80_S14x40_0_0, wLo⟩] (ix2 p k)
      = if h : k.val < 40 then wLo (ix2 p (⟨k.val, h⟩ : Fin 40))
        else wHi (ix2 p (⟨k.val - 40, by have := k.isLt; omega⟩ : Fin 40)) := by
  by_cases hk : k.val < 40
  · rw [dif_pos hk]
    have hnot : (ix2 p k : S14x80.Idx) ∉ (Rect.unit (s := S14x80) ![0, 40] S14x40.size inb_S14x80_S14x40_0_40).set := by
      rw [Rect.mem_set_unit]
      intro h
      have h1 : 40 ≤ k.val := (h 1).1
      omega
    have e : (ix2 p k : S14x80.Idx)
        = (Rect.unit (s := S14x80) ![0, 0] S14x40.size inb_S14x80_S14x40_0_0).emb (ix2 p (⟨k.val, hk⟩ : Fin 40)) :=
      funext fun a => Fin.ext (by
        match a with
        | ⟨0, _⟩ => show p.val = 0 + 1 * p.val; omega
        | ⟨1, _⟩ => show k.val = 0 + 1 * k.val; omega)
    have key := View.canon_cons_of_not_mem (Val := Elt Ideal)
      (⟨Rect.unit (s := S14x80) ![0, 40] S14x40.size inb_S14x80_S14x40_0_40, wHi⟩ : View.Piece (Elt Ideal) S14x80 .f32)
      [⟨Rect.unit (s := S14x80) ![0, 0] S14x40.size inb_S14x80_S14x40_0_0, wLo⟩] hnot
    refine key.trans ?_
    rw [e]
    exact View.canon_cons_emb (Val := Elt Ideal) (Rect.unit (s := S14x80) ![0, 0] S14x40.size inb_S14x80_S14x40_0_0) wLo [] (ix2 p (⟨k.val, hk⟩ : Fin 40))
  · rw [dif_neg hk]
    have hk' : 40 ≤ k.val := Nat.le_of_not_lt hk
    have hlt : k.val - 40 < 40 := by have := k.isLt; omega
    have e : (ix2 p k : S14x80.Idx)
        = (Rect.unit (s := S14x80) ![0, 40] S14x40.size inb_S14x80_S14x40_0_40).emb (ix2 p (⟨k.val - 40, hlt⟩ : Fin 40)) :=
      funext fun a => Fin.ext (by
        match a with
        | ⟨0, _⟩ => show p.val = 0 + 1 * p.val; omega
        | ⟨1, _⟩ => show k.val = 40 + 1 * (k.val - 40); omega)
    rw [e]
    exact View.canon_cons_emb (Val := Elt Ideal) (Rect.unit (s := S14x80) ![0, 40] S14x40.size inb_S14x80_S14x40_0_40) wHi
      [(⟨Rect.unit (s := S14x80) ![0, 0] S14x40.size inb_S14x80_S14x40_0_0, wLo⟩ : View.Piece (Elt Ideal) S14x80 .f32)] (ix2 p (⟨k.val - 40, hlt⟩ : Fin 40))

/-- The same for a [1, 1, 14, 80, 2048] block stored as two halves of its class axis. -/
theorem canonClasses (wHi wLo : S1x1x14x40x2048.Idx → Elt Ideal .f32) (p : Fin 14) (k : Fin 80) (c : Fin 2048) :
    View.canon (Val := Elt Ideal)
        [⟨Rect.unit (s := S1x1x14x80x2048) ![0, 0, 0, 40, 0] S1x1x14x40x2048.size inb_S1x1x14x80x2048_S1x1x14x40x2048_0_0_0_40_0, wHi⟩,
          ⟨Rect.unit (s := S1x1x14x80x2048) ![0, 0, 0, 0, 0] S1x1x14x40x2048.size inb_S1x1x14x80x2048_S1x1x14x40x2048_0_0_0_0_0, wLo⟩]
        (ix5 (0 : Fin 1) (0 : Fin 1) p k c)
      = if h : k.val < 40 then wLo (ix5 (0 : Fin 1) (0 : Fin 1) p (⟨k.val, h⟩ : Fin 40) c)
        else wHi (ix5 (0 : Fin 1) (0 : Fin 1) p (⟨k.val - 40, by have := k.isLt; omega⟩ : Fin 40) c) := by
  by_cases hk : k.val < 40
  · rw [dif_pos hk]
    have hnot : (ix5 (0 : Fin 1) (0 : Fin 1) p k c : S1x1x14x80x2048.Idx)
        ∉ (Rect.unit (s := S1x1x14x80x2048) ![0, 0, 0, 40, 0] S1x1x14x40x2048.size inb_S1x1x14x80x2048_S1x1x14x40x2048_0_0_0_40_0).set := by
      rw [Rect.mem_set_unit]
      intro h
      have h1 : 40 ≤ k.val := (h 3).1
      omega
    have e : (ix5 (0 : Fin 1) (0 : Fin 1) p k c : S1x1x14x80x2048.Idx)
        = (Rect.unit (s := S1x1x14x80x2048) ![0, 0, 0, 0, 0] S1x1x14x40x2048.size inb_S1x1x14x80x2048_S1x1x14x40x2048_0_0_0_0_0).emb
            (ix5 (0 : Fin 1) (0 : Fin 1) p (⟨k.val, hk⟩ : Fin 40) c) :=
      funext fun a => Fin.ext (by
        match a with
        | ⟨0, _⟩ => rfl
        | ⟨1, _⟩ => rfl
        | ⟨2, _⟩ => show p.val = 0 + 1 * p.val; omega
        | ⟨3, _⟩ => show k.val = 0 + 1 * k.val; omega
        | ⟨4, _⟩ => show c.val = 0 + 1 * c.val; omega)
    have key := View.canon_cons_of_not_mem (Val := Elt Ideal)
      (⟨Rect.unit (s := S1x1x14x80x2048) ![0, 0, 0, 40, 0] S1x1x14x40x2048.size inb_S1x1x14x80x2048_S1x1x14x40x2048_0_0_0_40_0, wHi⟩ : View.Piece (Elt Ideal) S1x1x14x80x2048 .f32)
      [⟨Rect.unit (s := S1x1x14x80x2048) ![0, 0, 0, 0, 0] S1x1x14x40x2048.size inb_S1x1x14x80x2048_S1x1x14x40x2048_0_0_0_0_0, wLo⟩] hnot
    refine key.trans ?_
    rw [e]
    exact View.canon_cons_emb (Val := Elt Ideal) (Rect.unit (s := S1x1x14x80x2048) ![0, 0, 0, 0, 0] S1x1x14x40x2048.size inb_S1x1x14x80x2048_S1x1x14x40x2048_0_0_0_0_0) wLo [] (ix5 (0 : Fin 1) (0 : Fin 1) p (⟨k.val, hk⟩ : Fin 40) c)
  · rw [dif_neg hk]
    have hk' : 40 ≤ k.val := Nat.le_of_not_lt hk
    have hlt : k.val - 40 < 40 := by have := k.isLt; omega
    have e : (ix5 (0 : Fin 1) (0 : Fin 1) p k c : S1x1x14x80x2048.Idx)
        = (Rect.unit (s := S1x1x14x80x2048) ![0, 0, 0, 40, 0] S1x1x14x40x2048.size inb_S1x1x14x80x2048_S1x1x14x40x2048_0_0_0_40_0).emb
            (ix5 (0 : Fin 1) (0 : Fin 1) p (⟨k.val - 40, hlt⟩ : Fin 40) c) :=
      funext fun a => Fin.ext (by
        match a with
        | ⟨0, _⟩ => rfl
        | ⟨1, _⟩ => rfl
        | ⟨2, _⟩ => show p.val = 0 + 1 * p.val; omega
        | ⟨3, _⟩ => show k.val = 40 + 1 * (k.val - 40); omega
        | ⟨4, _⟩ => show c.val = 0 + 1 * c.val; omega)
    rw [e]
    exact View.canon_cons_emb (Val := Elt Ideal) (Rect.unit (s := S1x1x14x80x2048) ![0, 0, 0, 40, 0] S1x1x14x40x2048.size inb_S1x1x14x80x2048_S1x1x14x40x2048_0_0_0_40_0) wHi
      [(⟨Rect.unit (s := S1x1x14x80x2048) ![0, 0, 0, 0, 0] S1x1x14x40x2048.size inb_S1x1x14x80x2048_S1x1x14x40x2048_0_0_0_0_0, wLo⟩ : View.Piece (Elt Ideal) S1x1x14x80x2048 .f32)] (ix5 (0 : Fin 1) (0 : Fin 1) p (⟨k.val - 40, hlt⟩ : Fin 40) c)

/-- The score of pixel p and class k. -/
def score (p : Fin 14) (k : Fin 80) : EReal := scoreOf x0 x1 x3 x4 (fun s => x2 (ix2 k s)) p

theorem scores_apply (p : Fin 14) (k : Fin 80) : scores x0 x1 x2 x3 x4 (ix2 p k) = score x0 x1 x2 x3 x4 p k := by
  unfold scores score
  refine (canonCols _ _ p k).trans ?_
  by_cases hk : k.val < 40
  · rw [dif_pos hk, pay9_apply]
    refine congrArg (fun w => scoreOf x0 x1 x3 x4 w p) (funext fun s => ?_)
    exact wordLo_apply x2 _ s
  · rw [dif_neg hk, pay12_apply]
    have hk' : 40 ≤ k.val := Nat.le_of_not_lt hk
    have ek : (⟨40 + (k.val - 40), by have := k.isLt; omega⟩ : Fin 80) = k := Fin.ext (by show 40 + (k.val - 40) = k.val; omega)
    refine congrArg (fun w => scoreOf x0 x1 x3 x4 w p) (funext fun s => ?_)
    exact (wordHi_apply x2 _ s).trans (congrArg (fun k' => x2 (ix2 k' s)) ek)

/-- The attention weight of pixel p and class k. -/
def weight (p : Fin 14) (k : Fin 80) : EReal := Cert.Spec.softmax (fun k' => score x0 x1 x2 x3 x4 p k') k

theorem softmax_scores (p : Fin 14) (k : Fin 80) :
    Cert.Spec.softmax (fun k' => scores x0 x1 x2 x3 x4 (ix2 p k')) k = weight x0 x1 x2 x3 x4 p k := by
  unfold weight
  simp only [scores_apply]

/-- The second output block. -/
theorem attnBlock_apply (p : Fin 14) (k : Fin 80) :
    k0_pay14 (scores x0 x1 x2 x3 x4) (ix4 (0 : Fin 1) (0 : Fin 1) p k) = weight x0 x1 x2 x3 x4 p k := by
  rw [pay14_apply, softmax_scores]

/-- The third output block over what it held. -/
theorem semBlock_apply (prev : Vec Ideal S1x80x2048 .f32) (k : Fin 80) (c : Fin 2048) :
    k0_pay15 (k0_pay5 x0) (scores x0 x1 x2 x3 x4) prev (ix3 (0 : Fin 1) k c)
      = prev (ix3 (0 : Fin 1) k c) + ∑ p : Fin 14, weight x0 x1 x2 x3 x4 p k * x0 (ix4 (0 : Fin 1) (0 : Fin 1) p c) := by
  rw [pay15_apply]
  simp only [softmax_scores]

/-- The first output block. -/
theorem weighted_apply (p : Fin 14) (k : Fin 80) (c : Fin 2048) :
    weighted x0 x1 x2 x3 x4 (ix5 (0 : Fin 1) (0 : Fin 1) p k c)
      = x0 (ix4 (0 : Fin 1) (0 : Fin 1) p c) * weight x0 x1 x2 x3 x4 p k := by
  unfold weighted
  refine (canonClasses _ _ p k c).trans ?_
  by_cases hk : k.val < 40
  · rw [dif_pos hk, pay1_apply, pay16_apply, softmax_scores]
  · rw [dif_neg hk, pay2_apply, pay13_apply, softmax_scores]
    have hk' : 40 ≤ k.val := Nat.le_of_not_lt hk
    have ek : (⟨40 + (k.val - 40), by have := k.isLt; omega⟩ : Fin 80) = k := Fin.ext (by show 40 + (k.val - 40) = k.val; omega)
    rw [ek]

end Cert.KernelIdeal.Point

end
-- ==== Proof.KAfterPoint.lean ====
/-
  What the three output blocks hold after the body has run at a grid point, from the blocks the point is given.

  The first two output blocks depend on the point's own blocks only. The third is carried from one pixel row to the
  next within a batch element: at the first pixel row it is the zero block plus the row's contribution, at a later one
  what the previous point left plus the row's contribution.
-/
import proofs.«147217_j83820581749246_2_alg».proof.Proof.KPoint

set_option maxRecDepth 16384

noncomputable section

namespace Cert.KernelIdeal.AfterPoint

open Cert.KernelIdeal Cert.KernelIdeal.Gen Cert.KernelIdeal.Cases Cert.KernelIdeal.Payload Cert.KernelIdeal.Point
open Idealize.ShloMosaic Idealize.ShloMosaic.TcCoe Idealize.SL.Sem Idealize.ShloMosaic.ValueIdx

/-- The components of a triple that is known as a whole. -/
theorem fst_of_eq {α β γ : Type} {a : α × β × γ} {x : α} {y : β} {z : γ} (h : a = (x, y, z)) : a.1 = x := by
  subst h; rfl

theorem snd_of_eq {α β γ : Type} {a : α × β × γ} {x : α} {y : β} {z : γ} (h : a = (x, y, z)) : a.2.1 = y := by
  subst h; rfl

theorem thd_of_eq {α β γ : Type} {a : α × β × γ} {x : α} {y : β} {z : γ} (h : a = (x, y, z)) : a.2.2 = z := by
  subst h; rfl

variable (m : (ℓ : Loc nD τ sig) → Buf (Elt Ideal) ℓ)

/-- The first output block after point `t`. -/
theorem weightedAt (c : Dev nD) (t : Fin cfg0.N) :
    (outsAt0 m c t.val t.isLt).1 = weighted (F := Ideal) (iblk m c 0 t) (iblk m c 1 t) (iblk m c 2 t) (iblk m c 3 t) (iblk m c 4 t) := by
  by_cases h0 : t.val % 14 = 0
  · exact (fst_of_eq (outsAt0_A m c t h0)).trans
      (weighted_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t))
  · exact (fst_of_eq (outsAt0_B m c t h0)).trans
      (weighted_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2)

/-- The second output block after point `t`. -/
theorem attnAt (c : Dev nD) (t : Fin cfg0.N) :
    (outsAt0 m c t.val t.isLt).2.1 = k0_pay14 (F := Ideal) (scores (F := Ideal) (iblk m c 0 t) (iblk m c 1 t) (iblk m c 2 t) (iblk m c 3 t) (iblk m c 4 t)) := by
  by_cases h0 : t.val % 14 = 0
  · exact (snd_of_eq (outsAt0_A m c t h0)).trans
      (attn_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t))
  · exact (snd_of_eq (outsAt0_B m c t h0)).trans
      (attn_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2)

/-- The third output block after the first pixel row of a batch element. -/
theorem semAt_first (c : Dev nD) (t : Fin cfg0.N) (h0 : t.val % 14 = 0) :
    (outsAt0 m c t.val t.isLt).2.2
      = k0_pay15 (F := Ideal) (k0_pay5 (F := Ideal) (iblk m c 0 t)) (scores (F := Ideal) (iblk m c 0 t) (iblk m c 1 t) (iblk m c 2 t) (iblk m c 3 t) (iblk m c 4 t)) (k0_pay3 (F := Ideal)) :=
  (thd_of_eq (outsAt0_A m c t h0)).trans
    (sem_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t))

/-- The third output block after a later pixel row: over what the point before left. -/
theorem semAt_next (c : Dev nD) (t : Fin cfg0.N) (h0 : ¬t.val % 14 = 0) :
    (outsAt0 m c t.val t.isLt).2.2
      = k0_pay15 (F := Ideal) (k0_pay5 (F := Ideal) (iblk m c 0 t)) (scores (F := Ideal) (iblk m c 0 t) (iblk m c 1 t) (iblk m c 2 t) (iblk m c 3 t) (iblk m c 4 t)) (outsAt0 m c (t.val - 1) (Nat.lt_of_le_of_lt (Nat.sub_le _ _) t.isLt)).2.2 :=
  (thd_of_eq (outsAt0_B m c t h0)).trans
    (sem_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2)

end Cert.KernelIdeal.AfterPoint

end
-- ==== Proof.KFinal.lean ====
/-
  The kernel's three result arrays after the whole grid has run, as functions of the argument arrays.

  Grid point t is batch element t / 14 and pixel row t mod 14. Its block of the attention array and of the weighted
  features is written back at once and no other point writes there, so those two arrays hold, at (b, s1, s2, k[, c]),
  what point 14·b + s1 computed at pixel s2: the composed-layer attention weights and the pixel features times them.
  The block of the class sums of batch element b stays in place over the 14 pixel rows of b and is written back after
  the last: by induction on the point it holds, after row s1, the sum over the rows up to s1 of the weights contracted
  against the pixel features, so after row 13 the sum over all 196 pixels.
-/
import proofs.«147217_j83820581749246_2_alg».proof.Proof.KAfterPoint
import proofs.«147217_j83820581749246_2_alg».proof.Proof.KHost
import proofs.«147217_j83820581749246_2_alg».proof.Proof.Gen.KernelIdeal.Value
import Idealize.ShloMosaic.Lib.Pipeline.Value

set_option maxRecDepth 16384

noncomputable section

namespace Cert.KernelIdeal.Final

open Cert.KernelIdeal Cert.KernelIdeal.Gen Cert.KernelIdeal.Cases Cert.KernelIdeal.Payload Cert.KernelIdeal.Point
open Cert.KernelIdeal.AfterPoint Cert.KernelIdeal.HostSide
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three arrays -/

/-- The attention weights, composed-layer form, as an array [4, 14, 14, 80]. -/
def attnArr (c : Dev nD) : S4x14x14x80.Idx → EReal := fun i =>
  Cert.Spec.attnK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3)

/-- The weighted features as an array [4, 14, 14, 80, 2048]. -/
def fmwcArr (c : Dev nD) : S4x14x14x80x2048.Idx → EReal := fun i =>
  Cert.Spec.fmwcK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3) (i 4)

/-- The class sums as an array [4, 80, 2048]. -/
def semArr (c : Dev nD) : S4x80x2048.Idx → EReal := fun i =>
  Cert.Spec.semK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)

/-! ## A point's weights are the specification's -/

theorem weight_at (c : Dev nD) (t : Fin cfg0.N) (p : Fin 14) (k : Fin 80) :
    weight (iblk m c 0 t) (iblk m c 1 t) (iblk m c 2 t) (iblk m c 3 t) (iblk m c 4 t) p k
      = Cert.Spec.attnK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (rowOf t) p k := by
  unfold weight Cert.Spec.attnK score scoreOf img Cert.Spec.logitK Cert.Spec.fusion Cert.Spec.imgP
  simp only [blk0, blk1, blk2, blk3, blk4]

/-- The second output block at a point is the composed-layer attention weights of its pixel row. -/
theorem attn_point (c : Dev nD) (t : Fin cfg0.N) (p : Fin 14) (k : Fin 80) :
    k0_pay14 (F := Ideal) (scores (F := Ideal) (iblk m c 0 t) (iblk m c 1 t) (iblk m c 2 t) (iblk m c 3 t) (iblk m c 4 t)) (ix4 (0 : Fin 1) (0 : Fin 1) p k)
      = Cert.Spec.attnK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (rowOf t) p k :=
  (attnBlock_apply (iblk m c 0 t) (iblk m c 1 t) (iblk m c 2 t) (iblk m c 3 t) (iblk m c 4 t) p k).trans (weight_at m c t p k)

/-- The first output block at a point is the pixel features times those weights. -/
theorem weighted_point (c : Dev nD) (t : Fin cfg0.N) (p : Fin 14) (k : Fin 80) (ch : Fin 2048) :
    weighted (F := Ideal) (iblk m c 0 t) (iblk m c 1 t) (iblk m c 2 t) (iblk m c 3 t) (iblk m c 4 t) (ix5 (0 : Fin 1) (0 : Fin 1) p k ch)
      = Cert.Spec.fmwcK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (rowOf t) p k ch := by
  refine (weighted_apply (iblk m c 0 t) (iblk m c 1 t) (iblk m c 2 t) (iblk m c 3 t) (iblk m c 4 t) p k ch).trans ?_
  rw [weight_at m c t p k, blk0 m c t p ch]
  rfl

/-! ## The printed index maps over the grid -/

theorem idx5 : ∀ t : Fin cfg0.N, win0_5.index t (0 : Fin 5) = t.val / 14 ∧ win0_5.index t (1 : Fin 5) = t.val % 14
    ∧ win0_5.index t (2 : Fin 5) = 0 ∧ win0_5.index t (3 : Fin 5) = 0 ∧ win0_5.index t (4 : Fin 5) = 0 :=
  (by decide +kernel : ∀ t : Fin grid0.N, _)

theorem idx6 : ∀ t : Fin cfg0.N, win0_6.index t (0 : Fin 4) = t.val / 14 ∧ win0_6.index t (1 : Fin 4) = t.val % 14
    ∧ win0_6.index t (2 : Fin 4) = 0 ∧ win0_6.index t (3 : Fin 4) = 0 :=
  (by decide +kernel : ∀ t : Fin grid0.N, _)

theorem idx7 : ∀ t : Fin cfg0.N, win0_7.index t (0 : Fin 3) = t.val / 14 ∧ win0_7.index t (1 : Fin 3) = 0
    ∧ win0_7.index t (2 : Fin 3) = 0 :=
  (by decide +kernel : ∀ t : Fin grid0.N, _)

theorem hN : cfg0.N = 56 := N_0

/-! ## The attention array -/

theorem flushed6_eq (c : Dev nD) (t : Fin cfg0.N) :
    (dats m 0 c).flushed 6 t = ((cfg0.win 6).blk t).view.read (Elt Ideal) (attnArr m c) := by
  rw [Cert.KernelIdeal.Value.flushed6]
  obtain ⟨e0, e1, e2, e3⟩ := idx6 t
  funext j
  show (outsAt0 m c t.val t.isLt).2.1 j = attnArr m c (((cfg0.win 6).blk t).view.emb j)
  rw [attnAt m c t]
  have j0 : (j 0).val < 1 := (j 0).isLt
  have j1 : (j 1).val < 1 := (j 1).isLt
  have j2 : (j 2).val < 14 := (j 2).isLt
  have j3 : (j 3).val < 80 := (j 3).isLt
  have hj : j = ix4 (0 : Fin 1) (0 : Fin 1) (⟨(j 2).val, j2⟩ : Fin 14) (⟨(j 3).val, j3⟩ : Fin 80) :=
    funext fun a => Fin.ext (by
      match a with
      | ⟨0, _⟩ => show (j 0).val = 0; omega
      | ⟨1, _⟩ => show (j 1).val = 0; omega
      | ⟨2, _⟩ => rfl
      | ⟨3, _⟩ => rfl)
  refine (congrArg (k0_pay14 (F := Ideal) (scores (F := Ideal) (iblk m c 0 t) (iblk m c 1 t) (iblk m c 2 t) (iblk m c 3 t) (iblk m c 4 t))) hj).trans ?_
  refine (attn_point m c t ⟨(j 2).val, j2⟩ ⟨(j 3).val, j3⟩).trans ?_
  show _ = Cert.Spec.attnK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ((((cfg0.win 6).blk t).view.emb j) 0) ((((cfg0.win 6).blk t).view.emb j) 1)
    ((((cfg0.win 6).blk t).view.emb j) 2) ((((cfg0.win 6).blk t).view.emb j) 3)
  have c0 : (batchOf t : Fin 4) = (((cfg0.win 6).blk t).view.emb j) 0 :=
    Fin.ext (by show t.val / 14 = win0_6.index t (0 : Fin 4) * 1 + 1 * (j 0).val; omega)
  have c1 : (rowOf t : Fin 14) = (((cfg0.win 6).blk t).view.emb j) 1 :=
    Fin.ext (by show t.val % 14 = win0_6.index t (1 : Fin 4) * 1 + 1 * (j 1).val; omega)
  have c2 : (⟨(j 2).val, j2⟩ : Fin 14) = (((cfg0.win 6).blk t).view.emb j) 2 :=
    Fin.ext (by show (j 2).val = win0_6.index t (2 : Fin 4) * 14 + 1 * (j 2).val; omega)
  have c3 : (⟨(j 3).val, j3⟩ : Fin 80) = (((cfg0.win 6).blk t).view.emb j) 3 :=
    Fin.ext (by show (j 3).val = win0_6.index t (3 : Fin 4) * 80 + 1 * (j 3).val; omega)
  rw [c0, c1, c2, c3]

theorem mem_blk6 (t : Fin cfg0.N) (i : S4x14x14x80.Idx) :
    i ∈ ((cfg0.win 6).blk t).view.set ↔ ∀ a : Fin 4, win0_6.index t a * S1x1x14x80.size a ≤ (i a).val
      ∧ (i a).val < win0_6.index t a * S1x1x14x80.size a + S1x1x14x80.size a := by
  show i ∈ ((View.whole main_v12_1).slice (win0_6.rect t)).set ↔ _
  rw [View.set_slice_whole, Rect.mem_set_unit]
  exact Iff.rfl

theorem cover6 (i : S4x14x14x80.Idx) :
    ∃ t : Fin cfg0.N, (cfg0.win 6).flush t = true ∧ i ∈ ((cfg0.win 6).blk t).view.set := by
  have h0 : (i 0).val < 4 := (i 0).isLt
  have h1 : (i 1).val < 14 := (i 1).isLt
  have h2 : (i 2).val < 14 := (i 2).isLt
  have h3 : (i 3).val < 80 := (i 3).isLt
  let t : Fin cfg0.N := ⟨(i 0).val * 14 + (i 1).val, by rw [hN]; omega⟩
  obtain ⟨e0, e1, e2, e3⟩ := idx6 t
  have tv : t.val = (i 0).val * 14 + (i 1).val := rfl
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 14 ≤ (i 2).val ∧ (i 2).val < win0_6.index t (2 : Fin 4) * 14 + 14; omega
  | ⟨3, _⟩ => show win0_6.index t (3 : Fin 4) * 80 ≤ (i 3).val ∧ (i 3).val < win0_6.index t (3 : Fin 4) * 80 + 80; omega

theorem final6 (c : Dev nD) : (dats m 0 c).arrAt 6 cfg0.N = attnArr m c :=
  (dats m 0 c).arrAt_eq_of_cover 6 (attnArr m c) (fun t _ => flushed6_eq m c t) (cover6)

/-! ## The weighted features -/

theorem flushed5_eq (c : Dev nD) (t : Fin cfg0.N) :
    (dats m 0 c).flushed 5 t = ((cfg0.win 5).blk t).view.read (Elt Ideal) (fmwcArr m c) := by
  rw [Cert.KernelIdeal.Value.flushed5]
  obtain ⟨e0, e1, e2, e3, e4⟩ := idx5 t
  funext j
  show (outsAt0 m c t.val t.isLt).1 j = fmwcArr m c (((cfg0.win 5).blk t).view.emb j)
  rw [weightedAt m c t]
  have j0 : (j 0).val < 1 := (j 0).isLt
  have j1 : (j 1).val < 1 := (j 1).isLt
  have j2 : (j 2).val < 14 := (j 2).isLt
  have j3 : (j 3).val < 80 := (j 3).isLt
  have j4 : (j 4).val < 2048 := (j 4).isLt
  have hj : j = ix5 (0 : Fin 1) (0 : Fin 1) (⟨(j 2).val, j2⟩ : Fin 14) (⟨(j 3).val, j3⟩ : Fin 80) (⟨(j 4).val, j4⟩ : Fin 2048) :=
    funext fun a => Fin.ext (by
      match a with
      | ⟨0, _⟩ => show (j 0).val = 0; omega
      | ⟨1, _⟩ => show (j 1).val = 0; omega
      | ⟨2, _⟩ => rfl
      | ⟨3, _⟩ => rfl
      | ⟨4, _⟩ => rfl)
  refine (congrArg (weighted (F := Ideal) (iblk m c 0 t) (iblk m c 1 t) (iblk m c 2 t) (iblk m c 3 t) (iblk m c 4 t)) hj).trans ?_
  refine (weighted_point m c t ⟨(j 2).val, j2⟩ ⟨(j 3).val, j3⟩ ⟨(j 4).val, j4⟩).trans ?_
  show _ = Cert.Spec.fmwcK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ((((cfg0.win 5).blk t).view.emb j) 0) ((((cfg0.win 5).blk t).view.emb j) 1)
    ((((cfg0.win 5).blk t).view.emb j) 2) ((((cfg0.win 5).blk t).view.emb j) 3) ((((cfg0.win 5).blk t).view.emb j) 4)
  have c0 : (batchOf t : Fin 4) = (((cfg0.win 5).blk t).view.emb j) 0 :=
    Fin.ext (by show t.val / 14 = win0_5.index t (0 : Fin 5) * 1 + 1 * (j 0).val; omega)
  have c1 : (rowOf t : Fin 14) = (((cfg0.win 5).blk t).view.emb j) 1 :=
    Fin.ext (by show t.val % 14 = win0_5.index t (1 : Fin 5) * 1 + 1 * (j 1).val; omega)
  have c2 : (⟨(j 2).val, j2⟩ : Fin 14) = (((cfg0.win 5).blk t).view.emb j) 2 :=
    Fin.ext (by show (j 2).val = win0_5.index t (2 : Fin 5) * 14 + 1 * (j 2).val; omega)
  have c3 : (⟨(j 3).val, j3⟩ : Fin 80) = (((cfg0.win 5).blk t).view.emb j) 3 :=
    Fin.ext (by show (j 3).val = win0_5.index t (3 : Fin 5) * 80 + 1 * (j 3).val; omega)
  have c4 : (⟨(j 4).val, j4⟩ : Fin 2048) = (((cfg0.win 5).blk t).view.emb j) 4 :=
    Fin.ext (by show (j 4).val = win0_5.index t (4 : Fin 5) * 2048 + 1 * (j 4).val; omega)
  rw [c0, c1, c2, c3, c4]

theorem mem_blk5 (t : Fin cfg0.N) (i : S4x14x14x80x2048.Idx) :
    i ∈ ((cfg0.win 5).blk t).view.set ↔ ∀ a : Fin 5, win0_5.index t a * S1x1x14x80x2048.size a ≤ (i a).val
      ∧ (i a).val < win0_5.index t a * S1x1x14x80x2048.size a + S1x1x14x80x2048.size a := by
  show i ∈ ((View.whole main_v12_0).slice (win0_5.rect t)).set ↔ _
  rw [View.set_slice_whole, Rect.mem_set_unit]
  exact Iff.rfl

theorem cover5 (i : S4x14x14x80x2048.Idx) :
    ∃ t : Fin cfg0.N, (cfg0.win 5).flush t = true ∧ i ∈ ((cfg0.win 5).blk t).view.set := by
  have h0 : (i 0).val < 4 := (i 0).isLt
  have h1 : (i 1).val < 14 := (i 1).isLt
  have h2 : (i 2).val < 14 := (i 2).isLt
  have h3 : (i 3).val < 80 := (i 3).isLt
  have h4 : (i 4).val < 2048 := (i 4).isLt
  let t : Fin cfg0.N := ⟨(i 0).val * 14 + (i 1).val, by rw [hN]; omega⟩
  obtain ⟨e0, e1, e2, e3, e4⟩ := idx5 t
  have tv : t.val = (i 0).val * 14 + (i 1).val := rfl
  refine ⟨t, flush0_5 t, ?_⟩
  rw [mem_blk5]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 1 ≤ (i 1).val ∧ (i 1).val < win0_5.index t (1 : Fin 5) * 1 + 1; omega
  | ⟨2, _⟩ => show win0_5.index t (2 : Fin 5) * 14 ≤ (i 2).val ∧ (i 2).val < win0_5.index t (2 : Fin 5) * 14 + 14; omega
  | ⟨3, _⟩ => show win0_5.index t (3 : Fin 5) * 80 ≤ (i 3).val ∧ (i 3).val < win0_5.index t (3 : Fin 5) * 80 + 80; omega
  | ⟨4, _⟩ => show win0_5.index t (4 : Fin 5) * 2048 ≤ (i 4).val ∧ (i 4).val < win0_5.index t (4 : Fin 5) * 2048 + 2048; omega

theorem final5 (c : Dev nD) : (dats m 0 c).arrAt 5 cfg0.N = fmwcArr m c :=
  (dats m 0 c).arrAt_eq_of_cover 5 (fmwcArr m c) (fun t _ => flushed5_eq m c t) (cover5)

/-! ## The class sums: a running sum over the pixel rows of a batch element -/

/-- Pixel row `n`'s contribution to the class sums of batch element `b` (nothing beyond the 14 rows). -/
def rowTerm (c : Dev nD) (b : Fin 4) (k : Fin 80) (ch : Fin 2048) (n : ℕ) : EReal :=
  if h : n < 14 then
    ∑ p : Fin 14, Cert.Spec.attnK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b ⟨n, h⟩ p k
      * pixels m c (ix3 b (Cert.Spec.pix ⟨n, h⟩ p) ch)
  else 0

/-- What point `t` adds to the block. -/
theorem contribution (c : Dev nD) (t : Fin cfg0.N) (k : Fin 80) (ch : Fin 2048) :
    (∑ p : Fin 14, weight (iblk m c 0 t) (iblk m c 1 t) (iblk m c 2 t) (iblk m c 3 t) (iblk m c 4 t) p k
        * iblk m c 0 t (ix4 (0 : Fin 1) (0 : Fin 1) p ch))
      = rowTerm m c (batchOf t) k ch (t.val % 14) := by
  unfold rowTerm
  rw [dif_pos (Nat.mod_lt _ (by decide))]
  refine Finset.sum_congr rfl fun p _ => ?_
  rw [weight_at m c t p k, blk0 m c t p ch]
  rfl

/-- After point `n` the block holds the contributions of the pixel rows up to `n mod 14` of batch element `n / 14`. -/
theorem sem_first_apply (c : Dev nD) (t : Fin cfg0.N) (h0 : t.val % 14 = 0) (k : Fin 80) (ch : Fin 2048) :
    (outsAt0 m c t.val t.isLt).2.2 (ix3 (0 : Fin 1) k ch) = rowTerm m c (batchOf t) k ch (t.val % 14) := by
  rw [semAt_first m c t h0]
  refine (semBlock_apply (iblk m c 0 t) (iblk m c 1 t) (iblk m c 2 t) (iblk m c 3 t) (iblk m c 4 t) (k0_pay3 (F := Ideal)) k ch).trans ?_
  rw [pay3_apply, zero_add]
  exact contribution m c t k ch

theorem sem_next_apply (c : Dev nD) (t : Fin cfg0.N) (h0 : ¬t.val % 14 = 0) (k : Fin 80) (ch : Fin 2048) :
    (outsAt0 m c t.val t.isLt).2.2 (ix3 (0 : Fin 1) k ch)
      = (outsAt0 m c (t.val - 1) (Nat.lt_of_le_of_lt (Nat.sub_le _ _) t.isLt)).2.2 (ix3 (0 : Fin 1) k ch)
        + rowTerm m c (batchOf t) k ch (t.val % 14) := by
  rw [semAt_next m c t h0]
  refine (semBlock_apply (iblk m c 0 t) (iblk m c 1 t) (iblk m c 2 t) (iblk m c 3 t) (iblk m c 4 t) _ k ch).trans ?_
  rw [contribution m c t k ch]

/-- After point `n` the block holds the contributions of the pixel rows up to `n mod 14` of batch element `n / 14`. -/
theorem running (c : Dev nD) (k : Fin 80) (ch : Fin 2048) : ∀ (n : ℕ) (hn : n < cfg0.N),
    (outsAt0 m c n hn).2.2 (ix3 (0 : Fin 1) k ch)
      = ∑ j ∈ Finset.range (n % 14 + 1), rowTerm m c (batchOf ⟨n, hn⟩) k ch j
  | 0, hn => by
    refine (sem_first_apply m c ⟨0, hn⟩ rfl k ch).trans ?_
    show rowTerm m c (batchOf ⟨0, hn⟩) k ch (0 % 14) = _
    simp
  | n + 1, hn => by
    by_cases h0 : (n + 1) % 14 = 0
    · refine (sem_first_apply m c ⟨n + 1, hn⟩ h0 k ch).trans ?_
      show rowTerm m c (batchOf ⟨n + 1, hn⟩) k ch ((n + 1) % 14) = _
      rw [h0]
      simp
    · refine (sem_next_apply m c ⟨n + 1, hn⟩ h0 k ch).trans ?_
      show (outsAt0 m c n _).2.2 (ix3 (0 : Fin 1) k ch) + rowTerm m c (batchOf ⟨n + 1, hn⟩) k ch ((n + 1) % 14) = _
      rw [running c k ch n (Nat.lt_of_succ_lt hn)]
      have hb : batchOf (⟨n, Nat.lt_of_succ_lt hn⟩ : Fin cfg0.N) = batchOf (⟨n + 1, hn⟩ : Fin cfg0.N) :=
        Fin.ext (by show n / 14 = (n + 1) / 14; omega)
      have hm : (n + 1) % 14 = n % 14 + 1 := by omega
      rw [hb, hm, Finset.sum_range_succ _ (n % 14 + 1)]

theorem flushed7_eq (c : Dev nD) (t : Fin cfg0.N) (hf : (cfg0.win 7).flush t = true) :
    (dats m 0 c).flushed 7 t = ((cfg0.win 7).blk t).view.read (Elt Ideal) (semArr m c) := by
  have h13 : t.val % 14 = 13 := (flush0_7 t).mp hf
  rw [Cert.KernelIdeal.Value.flushed7]
  obtain ⟨e0, e1, e2⟩ := idx7 t
  funext j
  show (outsAt0 m c t.val t.isLt).2.2 j = semArr m c (((cfg0.win 7).blk t).view.emb j)
  have j0 : (j 0).val < 1 := (j 0).isLt
  have j1 : (j 1).val < 80 := (j 1).isLt
  have j2 : (j 2).val < 2048 := (j 2).isLt
  have hj : j = ix3 (0 : Fin 1) (⟨(j 1).val, j1⟩ : Fin 80) (⟨(j 2).val, j2⟩ : Fin 2048) :=
    funext fun a => Fin.ext (by
      match a with
      | ⟨0, _⟩ => show (j 0).val = 0; omega
      | ⟨1, _⟩ => rfl
      | ⟨2, _⟩ => rfl)
  refine (congrArg ((outsAt0 m c t.val t.isLt).2.2) hj).trans ?_
  refine (running m c ⟨(j 1).val, j1⟩ ⟨(j 2).val, j2⟩ t.val t.isLt).trans ?_
  rw [h13]
  show _ = Cert.Spec.semK (pixels m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ((((cfg0.win 7).blk t).view.emb j) 0) ((((cfg0.win 7).blk t).view.emb j) 1) ((((cfg0.win 7).blk t).view.emb j) 2)
  have c0 : (batchOf t : Fin 4) = (((cfg0.win 7).blk t).view.emb j) 0 :=
    Fin.ext (by show t.val / 14 = win0_7.index t (0 : Fin 3) * 1 + 1 * (j 0).val; omega)
  have c1 : (⟨(j 1).val, j1⟩ : Fin 80) = (((cfg0.win 7).blk t).view.emb j) 1 :=
    Fin.ext (by show (j 1).val = win0_7.index t (1 : Fin 3) * 80 + 1 * (j 1).val; omega)
  have c2 : (⟨(j 2).val, j2⟩ : Fin 2048) = (((cfg0.win 7).blk t).view.emb j) 2 :=
    Fin.ext (by show (j 2).val = win0_7.index t (2 : Fin 3) * 2048 + 1 * (j 2).val; omega)
  rw [← c0, ← c1, ← c2]
  unfold Cert.Spec.semK
  show (∑ n ∈ Finset.range 14, rowTerm m c (batchOf t) (⟨(j 1).val, j1⟩ : Fin 80) (⟨(j 2).val, j2⟩ : Fin 2048) n) = _
  rw [Finset.sum_range]
  refine Finset.sum_congr rfl fun s1 _ => ?_
  unfold rowTerm
  rw [dif_pos s1.isLt]

theorem mem_blk7 (t : Fin cfg0.N) (i : S4x80x2048.Idx) :
    i ∈ ((cfg0.win 7).blk t).view.set ↔ ∀ a : Fin 3, win0_7.index t a * S1x80x2048.size a ≤ (i a).val
      ∧ (i a).val < win0_7.index t a * S1x80x2048.size a + S1x80x2048.size a := by
  show i ∈ ((View.whole main_v12_2).slice (win0_7.rect t)).set ↔ _
  rw [View.set_slice_whole, Rect.mem_set_unit]
  exact Iff.rfl

theorem cover7 (i : S4x80x2048.Idx) :
    ∃ t : Fin cfg0.N, (cfg0.win 7).flush t = true ∧ i ∈ ((cfg0.win 7).blk t).view.set := by
  have h0 : (i 0).val < 4 := (i 0).isLt
  have h1 : (i 1).val < 80 := (i 1).isLt
  have h2 : (i 2).val < 2048 := (i 2).isLt
  let t : Fin cfg0.N := ⟨(i 0).val * 14 + 13, by rw [hN]; omega⟩
  obtain ⟨e0, e1, e2⟩ := idx7 t
  have tv : t.val = (i 0).val * 14 + 13 := rfl
  refine ⟨t, (flush0_7 t).mpr (by omega), ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 80 ≤ (i 1).val ∧ (i 1).val < win0_7.index t (1 : Fin 3) * 80 + 80; omega
  | ⟨2, _⟩ => show win0_7.index t (2 : Fin 3) * 2048 ≤ (i 2).val ∧ (i 2).val < win0_7.index t (2 : Fin 3) * 2048 + 2048; omega

theorem final7 (c : Dev nD) : (dats m 0 c).arrAt 7 cfg0.N = semArr m c :=
  (dats m 0 c).arrAt_eq_of_cover 7 (semArr m c) (flushed7_eq m c) (cover7)

/-! ## The run, read -/

/-- Every weakly fair execution of the kernel program ends with the three result arrays at these functions of the
    arguments, and the arguments unchanged. -/
theorem run : θ_run defs (onTc (τ := τ) (main (F := Ideal))) ⟨m, fun _ => 0, ρ⟩ fun r => ∀ c : Dev nD,
      r.2.mem ((c : Thread nD τ).loc main_v12_2) = semArr m c
      ∧ r.2.mem ((c : Thread nD τ).loc main_v12_0) = fmwcArr m c
      ∧ r.2.mem ((c : Thread nD τ).loc main_v12_1) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2.2.1.trans (final7 m c), (h c).1.trans (final5 m c),
      (h c).2.1.trans (final6 m c), (h c).2.2.2⟩)
    (Cert.KernelIdeal.Value.run_blocks m ρ)

end Cert.KernelIdeal.Final

end
-- ==== Proof.RefSpec.lean ====
/-
  The reference program, stage by stage, over the pixel features.

  The program first re-lays the image map [4, 2048, 14, 14] as the pixel features X [4, 196, 2048] (batch, pixel,
  channel); everything after that is a function of X and of the seven weight arrays. This module names those later
  stages as functions of X and reads each of them at an index given by coordinates:

    imgP  (b, p, s)      = Σ_c X(b,p,c) · a2(s,c)
    wordP (k, s)         = Σ_w a1(k,w) · a3(s,w)
    fus   (b, p, k, s)   = tanh (imgP(b,p,s) · wordP(k,s))
    hid   (b, p, k, t)   = Σ_s fus(b,p,k,s) · a4(t,s) + a5(t)
    lgt   (b, p, k, 0)   = Σ_t hid(b,p,k,t) · a6(0,t) + a7(0)
    lgt4  (b, s1, s2, k) = lgt(b, 14·s1 + s2, k, 0)
    mx    (b, s1, s2)    = max (−∞) (the maximum over k of lgt4, started at −∞)
    ex    (b, s1, s2, k) = exp (lgt4(b,s1,s2,k) − mx(b,s1,s2))
    den   (b, s1, s2)    = 0 + Σ_k ex(b,s1,s2,k)
    attn  (b, s1, s2, k) = ex(b,s1,s2,k) / den(b,s1,s2)
    fmwc  (b, s1, s2, k, c) = X(b, 14·s1 + s2, c) · attn(b,s1,s2,k)
    sem   (b, k, c)      = 0 + Σ_{s1} Σ_{s2} fmwc(b,s1,s2,k,c)

  X itself is never read through the re-laying: it stays an opaque array.
-/
import proofs.«147217_j83820581749246_2_alg».proof.Proof.Gen.ReferenceIdeal.Run
import proofs.«147217_j83820581749246_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx

/-- An f32 array of shape `S` at the exact values. -/
abbrev Arr (S : Shape) : Type := FVec Ideal S .f32

/-- The pixel features: the image map with its axes permuted to (batch, column, channel, row) and re-laid as
    (batch, pixel, channel). -/
def refX (a0 : Arr S4x2048x14x14) : Arr S4x196x2048 :=
  shapeCast _ (transpose S4x14x2048x14 [0, 3, 1, 2] a0 transposes_S4x2048x14x14_S4x14x2048x14_0_3_1_2) shapeCasts_S4x14x2048x14_S4x196x2048

section Stages

variable (X : Arr S4x196x2048) (a1 : Arr S80x300) (a2 : Arr S1024x2048) (a3 : Arr S1024x300) (a4 : Arr S1024x1024)
  (a5 : Arr S1024) (a6 : Arr S1x1024) (a7 : Arr S1)

/-- The projected pixels. -/
def imgP : Arr S4x196x1024 := Host.dotGeneral dot_S4x196x2048_S1024x2048_S4x196x1024_2_1_01_0_n_n none X a2

/-- The projected class words. -/
def wordP : Arr S80x1024 := Host.dotGeneral dot_S80x300_S1024x300_S80x1024_1_1_0_0_n_n none a1 a3

/-- The fused features: tanh of the product of a projected pixel and a projected class word. -/
def fus : Arr S4x196x80x1024 :=
  Host.tanh (mulf
    (broadcastInDim S4x196x80x1024 ![0, 1, 2, 3] bcast_S4x196x1x1024_S4x196x80x1024_0_1_2_3
      (broadcastInDim S4x196x1x1024 ![0, 1, 3] bcast_S4x196x1024_S4x196x1x1024_0_1_3 (imgP X a2)))
    (broadcastInDim S4x196x80x1024 ![0, 1, 2, 3] bcast_S1x1x80x1024_S4x196x80x1024_0_1_2_3
      (broadcastInDim S1x1x80x1024 ![2, 3] bcast_S80x1024_S1x1x80x1024_2_3 (wordP a1 a3))))

/-- The first linear layer. -/
def hid : Arr S4x196x80x1024 :=
  addf (Host.dotGeneral dot_S4x196x80x1024_S1024x1024_S4x196x80x1024_3_1_012_0_n_n none (fus X a1 a2 a3) a4)
    (broadcastInDim S4x196x80x1024 ![0, 1, 2, 3] bcast_S1x1x1x1024_S4x196x80x1024_0_1_2_3
      (broadcastInDim S1x1x1x1024 ![3] bcast_S1024_S1x1x1x1024_3 a5))

/-- The second linear layer: one score per pixel and class. -/
def lgt : Arr S4x196x80x1 :=
  addf (Host.dotGeneral dot_S4x196x80x1024_S1x1024_S4x196x80x1_3_1_012_0_n_n none (hid X a1 a2 a3 a4 a5) a6)
    (broadcastInDim S4x196x80x1 ![0, 1, 2, 3] bcast_S1x1x1x1_S4x196x80x1_0_1_2_3
      (broadcastInDim S1x1x1x1 ![3] bcast_S1_S1x1x1x1_3 a7))

/-- The scores laid out over the 14 × 14 map. -/
def lgt4 : Arr S4x14x14x80 := shapeCast _ (lgt X a1 a2 a3 a4 a5 a6 a7) shapeCasts_S4x196x80x1_S4x14x14x80

/-- The largest score of each pixel. -/
def mx : Arr S4x14x14 :=
  maximumf (broadcastInDim S4x14x14 ![] bcast_S_S4x14x14 (constant S_ .f32 0xFF800000#32))
    (Host.reduce FloatOps.maximumf (lgt4 X a1 a2 a3 a4 a5 a6 a7) (constant S_ .f32 0xFF800000#32)
      reducesTo_S4x14x14x80_S4x14x14_d3 h_S_)

/-- The exponentials of the shifted scores. -/
def ex : Arr S4x14x14x80 :=
  Host.exp (subf (lgt4 X a1 a2 a3 a4 a5 a6 a7)
    (broadcastInDim S4x14x14x80 ![0, 1, 2, 3] bcast_S4x14x14x1_S4x14x14x80_0_1_2_3
      (broadcastInDim S4x14x14x1 ![0, 1, 2] bcast_S4x14x14_S4x14x14x1_0_1_2 (mx X a1 a2 a3 a4 a5 a6 a7))))

/-- Their sum over the classes. -/
def den : Arr S4x14x14 :=
  Host.reduceAdd (ex X a1 a2 a3 a4 a5 a6 a7) (constant S_ .f32 0x00000000#32) reducesTo_S4x14x14x80_S4x14x14_d3 h_S_

/-- The attention weights. -/
def attn : Arr S4x14x14x80 :=
  Host.divf (ex X a1 a2 a3 a4 a5 a6 a7)
    (broadcastInDim S4x14x14x80 ![0, 1, 2, 3] bcast_S4x14x14x1_S4x14x14x80_0_1_2_3
      (broadcastInDim S4x14x14x1 ![0, 1, 2] bcast_S4x14x14_S4x14x14x1_0_1_2 (den X a1 a2 a3 a4 a5 a6 a7)))

/-- The class-weighted pixel features. -/
def fmwc : Arr S4x14x14x80x2048 :=
  mulf (broadcastInDim S4x14x14x80x2048 ![0, 1, 2, 3, 4] bcast_S4x14x14x1x2048_S4x14x14x80x2048_0_1_2_3_4
      (shapeCast _ X shapeCasts_S4x196x2048_S4x14x14x1x2048))
    (broadcastInDim S4x14x14x80x2048 ![0, 1, 2, 3, 4] bcast_S4x14x14x80x1_S4x14x14x80x2048_0_1_2_3_4
      (broadcastInDim S4x14x14x80x1 ![0, 1, 2, 3] bcast_S4x14x14x80_S4x14x14x80x1_0_1_2_3 (attn X a1 a2 a3 a4 a5 a6 a7)))

/-- The weighted features summed over the map. -/
def sem : Arr S4x80x2048 :=
  Host.reduceAdd (fmwc X a1 a2 a3 a4 a5 a6 a7) (constant S_ .f32 0x00000000#32)
    reducesTo_S4x14x14x80x2048_S4x80x2048_d1_2 h_S_

end Stages

/-! ## The program's three results are these stages of the pixel features -/

section Results

variable (m : (ℓ : Loc nD τ sig) → Buf (Elt Ideal) ℓ) (c : Dev nD)

set_option maxRecDepth 8192 in
theorem res_out2_eq_attn :
    Cert.ReferenceIdeal.Value.res_out2 m c = attn (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := by
  show Cert.ReferenceIdeal.Value.res_main_v29 m c = _
  unfold Cert.ReferenceIdeal.Value.res_main_v29; rfl

set_option maxRecDepth 8192 in
theorem res_out1_eq_fmwc :
    Cert.ReferenceIdeal.Value.res_out1 m c = fmwc (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := by
  show Cert.ReferenceIdeal.Value.res_main_v34 m c = _
  unfold Cert.ReferenceIdeal.Value.res_main_v34; rfl

set_option maxRecDepth 8192 in
theorem res_out0_eq_sem :
    Cert.ReferenceIdeal.Value.res_out0 m c = sem (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := by
  show Cert.ReferenceIdeal.Value.res_main_v35 m c = _
  unfold Cert.ReferenceIdeal.Value.res_main_v35; rfl

end Results

/-! ## The four contractions read at an index

Each contracts the last axis of both operands. The left operand's index keeps the result's leading coordinates and runs
along its last axis with the contraction; the right operand's index takes its row from the result's last coordinate. -/

section Contractions

theorem dA_lhs0 (i : S4x196x1024.Idx) (q : dot_S4x196x2048_S1024x2048_S4x196x1024_2_1_01_0_n_n.contr.Idx) :
    (dot_S4x196x2048_S1024x2048_S4x196x1024_2_1_01_0_n_n.lhsIdx i q 0).val = (i 0).val := by
  unfold DotDims.lhsIdx
  rw [dif_neg (show ¬(0 : Fin S4x196x2048.rank) ∈ dot_S4x196x2048_S1024x2048_S4x196x1024_2_1_01_0_n_n.lhsBatch by decide),
    dif_pos (show (0 : Fin S4x196x2048.rank) ∈ dot_S4x196x2048_S1024x2048_S4x196x1024_2_1_01_0_n_n.lhsNonContracting by decide)]
  rfl
theorem dA_lhs1 (i : S4x196x1024.Idx) (q : dot_S4x196x2048_S1024x2048_S4x196x1024_2_1_01_0_n_n.contr.Idx) :
    (dot_S4x196x2048_S1024x2048_S4x196x1024_2_1_01_0_n_n.lhsIdx i q 1).val = (i 1).val := by
  unfold DotDims.lhsIdx
  rw [dif_neg (show ¬(1 : Fin S4x196x2048.rank) ∈ dot_S4x196x2048_S1024x2048_S4x196x1024_2_1_01_0_n_n.lhsBatch by decide),
    dif_pos (show (1 : Fin S4x196x2048.rank) ∈ dot_S4x196x2048_S1024x2048_S4x196x1024_2_1_01_0_n_n.lhsNonContracting by decide)]
  rfl
theorem dA_lhs2 (i : S4x196x1024.Idx) (q : dot_S4x196x2048_S1024x2048_S4x196x1024_2_1_01_0_n_n.contr.Idx) :
    (dot_S4x196x2048_S1024x2048_S4x196x1024_2_1_01_0_n_n.lhsIdx i q 2).val = (q ⟨0, by decide⟩).val :=
  dot_S4x196x2048_S1024x2048_S4x196x1024_2_1_01_0_n_n.lhsIdx_val_of_single rfl i q
theorem dA_rhs0 (i : S4x196x1024.Idx) (q : dot_S4x196x2048_S1024x2048_S4x196x1024_2_1_01_0_n_n.contr.Idx) :
    (dot_S4x196x2048_S1024x2048_S4x196x1024_2_1_01_0_n_n.rhsIdx i q 0).val = (i 2).val := by
  unfold DotDims.rhsIdx
  rw [dif_neg (show ¬(0 : Fin S1024x2048.rank) ∈ dot_S4x196x2048_S1024x2048_S4x196x1024_2_1_01_0_n_n.rhsBatch by decide),
    dif_pos (show (0 : Fin S1024x2048.rank) ∈ dot_S4x196x2048_S1024x2048_S4x196x1024_2_1_01_0_n_n.rhsNonContracting by decide)]
  rfl
theorem dA_rhs1 (i : S4x196x1024.Idx) (q : dot_S4x196x2048_S1024x2048_S4x196x1024_2_1_01_0_n_n.contr.Idx) :
    (dot_S4x196x2048_S1024x2048_S4x196x1024_2_1_01_0_n_n.rhsIdx i q 1).val = (q ⟨0, by decide⟩).val :=
  dot_S4x196x2048_S1024x2048_S4x196x1024_2_1_01_0_n_n.rhsIdx_val_of_single rfl i q
theorem dB_lhs0 (i : S80x1024.Idx) (q : dot_S80x300_S1024x300_S80x1024_1_1_0_0_n_n.contr.Idx) :
    (dot_S80x300_S1024x300_S80x1024_1_1_0_0_n_n.lhsIdx i q 0).val = (i 0).val := by
  unfold DotDims.lhsIdx
  rw [dif_neg (show ¬(0 : Fin S80x300.rank) ∈ dot_S80x300_S1024x300_S80x1024_1_1_0_0_n_n.lhsBatch by decide),
    dif_pos (show (0 : Fin S80x300.rank) ∈ dot_S80x300_S1024x300_S80x1024_1_1_0_0_n_n.lhsNonContracting by decide)]
  rfl
theorem dB_lhs1 (i : S80x1024.Idx) (q : dot_S80x300_S1024x300_S80x1024_1_1_0_0_n_n.contr.Idx) :
    (dot_S80x300_S1024x300_S80x1024_1_1_0_0_n_n.lhsIdx i q 1).val = (q ⟨0, by decide⟩).val :=
  dot_S80x300_S1024x300_S80x1024_1_1_0_0_n_n.lhsIdx_val_of_single rfl i q
theorem dB_rhs0 (i : S80x1024.Idx) (q : dot_S80x300_S1024x300_S80x1024_1_1_0_0_n_n.contr.Idx) :
    (dot_S80x300_S1024x300_S80x1024_1_1_0_0_n_n.rhsIdx i q 0).val = (i 1).val := by
  unfold DotDims.rhsIdx
  rw [dif_neg (show ¬(0 : Fin S1024x300.rank) ∈ dot_S80x300_S1024x300_S80x1024_1_1_0_0_n_n.rhsBatch by decide),
    dif_pos (show (0 : Fin S1024x300.rank) ∈ dot_S80x300_S1024x300_S80x1024_1_1_0_0_n_n.rhsNonContracting by decide)]
  rfl
theorem dB_rhs1 (i : S80x1024.Idx) (q : dot_S80x300_S1024x300_S80x1024_1_1_0_0_n_n.contr.Idx) :
    (dot_S80x300_S1024x300_S80x1024_1_1_0_0_n_n.rhsIdx i q 1).val = (q ⟨0, by decide⟩).val :=
  dot_S80x300_S1024x300_S80x1024_1_1_0_0_n_n.rhsIdx_val_of_single rfl i q
theorem dC_lhs0 (i : S4x196x80x1024.Idx) (q : dot_S4x196x80x1024_S1024x1024_S4x196x80x1024_3_1_012_0_n_n.contr.Idx) :
    (dot_S4x196x80x1024_S1024x1024_S4x196x80x1024_3_1_012_0_n_n.lhsIdx i q 0).val = (i 0).val := by
  unfold DotDims.lhsIdx
  rw [dif_neg (show ¬(0 : Fin S4x196x80x1024.rank) ∈ dot_S4x196x80x1024_S1024x1024_S4x196x80x1024_3_1_012_0_n_n.lhsBatch by decide),
    dif_pos (show (0 : Fin S4x196x80x1024.rank) ∈ dot_S4x196x80x1024_S1024x1024_S4x196x80x1024_3_1_012_0_n_n.lhsNonContracting by decide)]
  rfl
theorem dC_lhs1 (i : S4x196x80x1024.Idx) (q : dot_S4x196x80x1024_S1024x1024_S4x196x80x1024_3_1_012_0_n_n.contr.Idx) :
    (dot_S4x196x80x1024_S1024x1024_S4x196x80x1024_3_1_012_0_n_n.lhsIdx i q 1).val = (i 1).val := by
  unfold DotDims.lhsIdx
  rw [dif_neg (show ¬(1 : Fin S4x196x80x1024.rank) ∈ dot_S4x196x80x1024_S1024x1024_S4x196x80x1024_3_1_012_0_n_n.lhsBatch by decide),
    dif_pos (show (1 : Fin S4x196x80x1024.rank) ∈ dot_S4x196x80x1024_S1024x1024_S4x196x80x1024_3_1_012_0_n_n.lhsNonContracting by decide)]
  rfl
theorem dC_lhs2 (i : S4x196x80x1024.Idx) (q : dot_S4x196x80x1024_S1024x1024_S4x196x80x1024_3_1_012_0_n_n.contr.Idx) :
    (dot_S4x196x80x1024_S1024x1024_S4x196x80x1024_3_1_012_0_n_n.lhsIdx i q 2).val = (i 2).val := by
  unfold DotDims.lhsIdx
  rw [dif_neg (show ¬(2 : Fin S4x196x80x1024.rank) ∈ dot_S4x196x80x1024_S1024x1024_S4x196x80x1024_3_1_012_0_n_n.lhsBatch by decide),
    dif_pos (show (2 : Fin S4x196x80x1024.rank) ∈ dot_S4x196x80x1024_S1024x1024_S4x196x80x1024_3_1_012_0_n_n.lhsNonContracting by decide)]
  rfl
theorem dC_lhs3 (i : S4x196x80x1024.Idx) (q : dot_S4x196x80x1024_S1024x1024_S4x196x80x1024_3_1_012_0_n_n.contr.Idx) :
    (dot_S4x196x80x1024_S1024x1024_S4x196x80x1024_3_1_012_0_n_n.lhsIdx i q 3).val = (q ⟨0, by decide⟩).val :=
  dot_S4x196x80x1024_S1024x1024_S4x196x80x1024_3_1_012_0_n_n.lhsIdx_val_of_single rfl i q
theorem dC_rhs0 (i : S4x196x80x1024.Idx) (q : dot_S4x196x80x1024_S1024x1024_S4x196x80x1024_3_1_012_0_n_n.contr.Idx) :
    (dot_S4x196x80x1024_S1024x1024_S4x196x80x1024_3_1_012_0_n_n.rhsIdx i q 0).val = (i 3).val := by
  unfold DotDims.rhsIdx
  rw [dif_neg (show ¬(0 : Fin S1024x1024.rank) ∈ dot_S4x196x80x1024_S1024x1024_S4x196x80x1024_3_1_012_0_n_n.rhsBatch by decide),
    dif_pos (show (0 : Fin S1024x1024.rank) ∈ dot_S4x196x80x1024_S1024x1024_S4x196x80x1024_3_1_012_0_n_n.rhsNonContracting by decide)]
  rfl
theorem dC_rhs1 (i : S4x196x80x1024.Idx) (q : dot_S4x196x80x1024_S1024x1024_S4x196x80x1024_3_1_012_0_n_n.contr.Idx) :
    (dot_S4x196x80x1024_S1024x1024_S4x196x80x1024_3_1_012_0_n_n.rhsIdx i q 1).val = (q ⟨0, by decide⟩).val :=
  dot_S4x196x80x1024_S1024x1024_S4x196x80x1024_3_1_012_0_n_n.rhsIdx_val_of_single rfl i q
theorem dD_lhs0 (i : S4x196x80x1.Idx) (q : dot_S4x196x80x1024_S1x1024_S4x196x80x1_3_1_012_0_n_n.contr.Idx) :
    (dot_S4x196x80x1024_S1x1024_S4x196x80x1_3_1_012_0_n_n.lhsIdx i q 0).val = (i 0).val := by
  unfold DotDims.lhsIdx
  rw [dif_neg (show ¬(0 : Fin S4x196x80x1024.rank) ∈ dot_S4x196x80x1024_S1x1024_S4x196x80x1_3_1_012_0_n_n.lhsBatch by decide),
    dif_pos (show (0 : Fin S4x196x80x1024.rank) ∈ dot_S4x196x80x1024_S1x1024_S4x196x80x1_3_1_012_0_n_n.lhsNonContracting by decide)]
  rfl
theorem dD_lhs1 (i : S4x196x80x1.Idx) (q : dot_S4x196x80x1024_S1x1024_S4x196x80x1_3_1_012_0_n_n.contr.Idx) :
    (dot_S4x196x80x1024_S1x1024_S4x196x80x1_3_1_012_0_n_n.lhsIdx i q 1).val = (i 1).val := by
  unfold DotDims.lhsIdx
  rw [dif_neg (show ¬(1 : Fin S4x196x80x1024.rank) ∈ dot_S4x196x80x1024_S1x1024_S4x196x80x1_3_1_012_0_n_n.lhsBatch by decide),
    dif_pos (show (1 : Fin S4x196x80x1024.rank) ∈ dot_S4x196x80x1024_S1x1024_S4x196x80x1_3_1_012_0_n_n.lhsNonContracting by decide)]
  rfl
theorem dD_lhs2 (i : S4x196x80x1.Idx) (q : dot_S4x196x80x1024_S1x1024_S4x196x80x1_3_1_012_0_n_n.contr.Idx) :
    (dot_S4x196x80x1024_S1x1024_S4x196x80x1_3_1_012_0_n_n.lhsIdx i q 2).val = (i 2).val := by
  unfold DotDims.lhsIdx
  rw [dif_neg (show ¬(2 : Fin S4x196x80x1024.rank) ∈ dot_S4x196x80x1024_S1x1024_S4x196x80x1_3_1_012_0_n_n.lhsBatch by decide),
    dif_pos (show (2 : Fin S4x196x80x1024.rank) ∈ dot_S4x196x80x1024_S1x1024_S4x196x80x1_3_1_012_0_n_n.lhsNonContracting by decide)]
  rfl
theorem dD_lhs3 (i : S4x196x80x1.Idx) (q : dot_S4x196x80x1024_S1x1024_S4x196x80x1_3_1_012_0_n_n.contr.Idx) :
    (dot_S4x196x80x1024_S1x1024_S4x196x80x1_3_1_012_0_n_n.lhsIdx i q 3).val = (q ⟨0, by decide⟩).val :=
  dot_S4x196x80x1024_S1x1024_S4x196x80x1_3_1_012_0_n_n.lhsIdx_val_of_single rfl i q
theorem dD_rhs0 (i : S4x196x80x1.Idx) (q : dot_S4x196x80x1024_S1x1024_S4x196x80x1_3_1_012_0_n_n.contr.Idx) :
    (dot_S4x196x80x1024_S1x1024_S4x196x80x1_3_1_012_0_n_n.rhsIdx i q 0).val = (i 3).val := by
  unfold DotDims.rhsIdx
  rw [dif_neg (show ¬(0 : Fin S1x1024.rank) ∈ dot_S4x196x80x1024_S1x1024_S4x196x80x1_3_1_012_0_n_n.rhsBatch by decide),
    dif_pos (show (0 : Fin S1x1024.rank) ∈ dot_S4x196x80x1024_S1x1024_S4x196x80x1_3_1_012_0_n_n.rhsNonContracting by decide)]
  rfl
theorem dD_rhs1 (i : S4x196x80x1.Idx) (q : dot_S4x196x80x1024_S1x1024_S4x196x80x1_3_1_012_0_n_n.contr.Idx) :
    (dot_S4x196x80x1024_S1x1024_S4x196x80x1_3_1_012_0_n_n.rhsIdx i q 1).val = (q ⟨0, by decide⟩).val :=
  dot_S4x196x80x1024_S1x1024_S4x196x80x1_3_1_012_0_n_n.rhsIdx_val_of_single rfl i q

variable (X : Arr S4x196x2048) (a1 : Arr S80x300) (a2 : Arr S1024x2048) (a3 : Arr S1024x300) (a4 : Arr S1024x1024)
  (a5 : Arr S1024) (a6 : Arr S1x1024) (a7 : Arr S1)

/-- A projected pixel: row (b, p) of the pixel features against row s of the projection. -/
theorem imgP_apply (b : Fin 4) (p : Fin 196) (s : Fin 1024) :
    imgP X a2 (ix3 b p s) = ∑ c : Fin 2048, X (ix3 b p c) * a2 (ix2 s c) := by
  unfold imgP
  simp only [Host.dotGeneral]
  rw [Ideal.dotGeneral_apply, ← Equiv.sum_comp (contrEquiv1 dot_S4x196x2048_S1024x2048_S4x196x1024_2_1_01_0_n_n 2048 rfl rfl).symm]
  refine Finset.sum_congr rfl fun k _ => ?_
  have hk := contrEquiv1_symm_val dot_S4x196x2048_S1024x2048_S4x196x1024_2_1_01_0_n_n 2048 rfl rfl k
  have el : dot_S4x196x2048_S1024x2048_S4x196x1024_2_1_01_0_n_n.lhsIdx (ix3 b p s) ((contrEquiv1 dot_S4x196x2048_S1024x2048_S4x196x1024_2_1_01_0_n_n 2048 rfl rfl).symm k) = ix3 b p k :=
    funext fun a => Fin.ext (by
      match a with
      | ⟨0, _⟩ => exact dA_lhs0 _ _
      | ⟨1, _⟩ => exact dA_lhs1 _ _
      | ⟨2, _⟩ => exact (dA_lhs2 _ _).trans hk)
  have er : dot_S4x196x2048_S1024x2048_S4x196x1024_2_1_01_0_n_n.rhsIdx (ix3 b p s) ((contrEquiv1 dot_S4x196x2048_S1024x2048_S4x196x1024_2_1_01_0_n_n 2048 rfl rfl).symm k) = ix2 s k :=
    funext fun a => Fin.ext (by
      match a with
      | ⟨0, _⟩ => exact dA_rhs0 _ _
      | ⟨1, _⟩ => exact (dA_rhs1 _ _).trans hk)
  rw [el, er]

/-- A projected class word: row k of the word features against row s of the projection. -/
theorem wordP_apply (k : Fin 80) (s : Fin 1024) :
    wordP a1 a3 (ix2 k s) = ∑ w : Fin 300, a1 (ix2 k w) * a3 (ix2 s w) := by
  unfold wordP
  simp only [Host.dotGeneral]
  rw [Ideal.dotGeneral_apply, ← Equiv.sum_comp (contrEquiv1 dot_S80x300_S1024x300_S80x1024_1_1_0_0_n_n 300 rfl rfl).symm]
  refine Finset.sum_congr rfl fun w _ => ?_
  have hk := contrEquiv1_symm_val dot_S80x300_S1024x300_S80x1024_1_1_0_0_n_n 300 rfl rfl w
  have el : dot_S80x300_S1024x300_S80x1024_1_1_0_0_n_n.lhsIdx (ix2 k s) ((contrEquiv1 dot_S80x300_S1024x300_S80x1024_1_1_0_0_n_n 300 rfl rfl).symm w) = ix2 k w :=
    funext fun a => Fin.ext (by
      match a with
      | ⟨0, _⟩ => exact dB_lhs0 _ _
      | ⟨1, _⟩ => exact (dB_lhs1 _ _).trans hk)
  have er : dot_S80x300_S1024x300_S80x1024_1_1_0_0_n_n.rhsIdx (ix2 k s) ((contrEquiv1 dot_S80x300_S1024x300_S80x1024_1_1_0_0_n_n 300 rfl rfl).symm w) = ix2 s w :=
    funext fun a => Fin.ext (by
      match a with
      | ⟨0, _⟩ => exact dB_rhs0 _ _
      | ⟨1, _⟩ => exact (dB_rhs1 _ _).trans hk)
  rw [el, er]

/-- The first layer's product: row (b, p, k) of an array y against row t of the layer. -/
theorem dotC_apply (y : Arr S4x196x80x1024) (b : Fin 4) (p : Fin 196) (k : Fin 80) (t : Fin 1024) :
    Host.dotGeneral dot_S4x196x80x1024_S1024x1024_S4x196x80x1024_3_1_012_0_n_n none y a4 (ix4 b p k t) = ∑ s : Fin 1024, y (ix4 b p k s) * a4 (ix2 t s) := by
  simp only [Host.dotGeneral]
  rw [Ideal.dotGeneral_apply, ← Equiv.sum_comp (contrEquiv1 dot_S4x196x80x1024_S1024x1024_S4x196x80x1024_3_1_012_0_n_n 1024 rfl rfl).symm]
  refine Finset.sum_congr rfl fun s _ => ?_
  have hk := contrEquiv1_symm_val dot_S4x196x80x1024_S1024x1024_S4x196x80x1024_3_1_012_0_n_n 1024 rfl rfl s
  have el : dot_S4x196x80x1024_S1024x1024_S4x196x80x1024_3_1_012_0_n_n.lhsIdx (ix4 b p k t) ((contrEquiv1 dot_S4x196x80x1024_S1024x1024_S4x196x80x1024_3_1_012_0_n_n 1024 rfl rfl).symm s) = ix4 b p k s :=
    funext fun a => Fin.ext (by
      match a with
      | ⟨0, _⟩ => exact dC_lhs0 _ _
      | ⟨1, _⟩ => exact dC_lhs1 _ _
      | ⟨2, _⟩ => exact dC_lhs2 _ _
      | ⟨3, _⟩ => exact (dC_lhs3 _ _).trans hk)
  have er : dot_S4x196x80x1024_S1024x1024_S4x196x80x1024_3_1_012_0_n_n.rhsIdx (ix4 b p k t) ((contrEquiv1 dot_S4x196x80x1024_S1024x1024_S4x196x80x1024_3_1_012_0_n_n 1024 rfl rfl).symm s) = ix2 t s :=
    funext fun a => Fin.ext (by
      match a with
      | ⟨0, _⟩ => exact dC_rhs0 _ _
      | ⟨1, _⟩ => exact (dC_rhs1 _ _).trans hk)
  rw [el, er]

/-- The second layer's product: row (b, p, k) of an array y against the layer's one row. -/
theorem dotD_apply (y : Arr S4x196x80x1024) (b : Fin 4) (p : Fin 196) (k : Fin 80) (u : Fin 1) :
    Host.dotGeneral dot_S4x196x80x1024_S1x1024_S4x196x80x1_3_1_012_0_n_n none y a6 (ix4 b p k u) = ∑ t : Fin 1024, y (ix4 b p k t) * a6 (ix2 u t) := by
  simp only [Host.dotGeneral]
  rw [Ideal.dotGeneral_apply, ← Equiv.sum_comp (contrEquiv1 dot_S4x196x80x1024_S1x1024_S4x196x80x1_3_1_012_0_n_n 1024 rfl rfl).symm]
  refine Finset.sum_congr rfl fun t _ => ?_
  have hk := contrEquiv1_symm_val dot_S4x196x80x1024_S1x1024_S4x196x80x1_3_1_012_0_n_n 1024 rfl rfl t
  have el : dot_S4x196x80x1024_S1x1024_S4x196x80x1_3_1_012_0_n_n.lhsIdx (ix4 b p k u) ((contrEquiv1 dot_S4x196x80x1024_S1x1024_S4x196x80x1_3_1_012_0_n_n 1024 rfl rfl).symm t) = ix4 b p k t :=
    funext fun a => Fin.ext (by
      match a with
      | ⟨0, _⟩ => exact dD_lhs0 _ _
      | ⟨1, _⟩ => exact dD_lhs1 _ _
      | ⟨2, _⟩ => exact dD_lhs2 _ _
      | ⟨3, _⟩ => exact (dD_lhs3 _ _).trans hk)
  have er : dot_S4x196x80x1024_S1x1024_S4x196x80x1_3_1_012_0_n_n.rhsIdx (ix4 b p k u) ((contrEquiv1 dot_S4x196x80x1024_S1x1024_S4x196x80x1_3_1_012_0_n_n 1024 rfl rfl).symm t) = ix2 u t :=
    funext fun a => Fin.ext (by
      match a with
      | ⟨0, _⟩ => exact dD_rhs0 _ _
      | ⟨1, _⟩ => exact (dD_rhs1 _ _).trans hk)
  rw [el, er]

end Contractions

/-! ## The stages between the contractions, read at an index -/

section Reads

variable (X : Arr S4x196x2048) (a1 : Arr S80x300) (a2 : Arr S1024x2048) (a3 : Arr S1024x300) (a4 : Arr S1024x1024)
  (a5 : Arr S1024) (a6 : Arr S1x1024) (a7 : Arr S1)

/-- A fused feature is tanh of the product of the projected pixel and the projected class word. -/
theorem fus_apply (b : Fin 4) (p : Fin 196) (k : Fin 80) (s : Fin 1024) :
    fus X a1 a2 a3 (ix4 b p k s) = Ideal.tanh (imgP X a2 (ix3 b p s) * wordP a1 a3 (ix2 k s)) := by
  have h1 : broadcastInDim S4x196x80x1024 ![0, 1, 2, 3] bcast_S4x196x1x1024_S4x196x80x1024_0_1_2_3
      (broadcastInDim S4x196x1x1024 ![0, 1, 3] bcast_S4x196x1024_S4x196x1x1024_0_1_3 (imgP X a2)) (ix4 b p k s)
        = imgP X a2 (ix3 b p s) :=
    (broadcastInDim_apply _ bcast_S4x196x1x1024_S4x196x80x1024_0_1_2_3 _ (ix4 b p k s) (ix4 b p (0 : Fin 1) s)
      (fun a => match a with | ⟨0, _⟩ => rfl | ⟨1, _⟩ => rfl | ⟨2, _⟩ => rfl | ⟨3, _⟩ => rfl)).trans
    (broadcastInDim_apply _ bcast_S4x196x1024_S4x196x1x1024_0_1_3 _ (ix4 b p (0 : Fin 1) s) (ix3 b p s)
      (fun a => match a with | ⟨0, _⟩ => rfl | ⟨1, _⟩ => rfl | ⟨2, _⟩ => rfl))
  have h2 : broadcastInDim S4x196x80x1024 ![0, 1, 2, 3] bcast_S1x1x80x1024_S4x196x80x1024_0_1_2_3
      (broadcastInDim S1x1x80x1024 ![2, 3] bcast_S80x1024_S1x1x80x1024_2_3 (wordP a1 a3)) (ix4 b p k s)
        = wordP a1 a3 (ix2 k s) :=
    (broadcastInDim_apply _ bcast_S1x1x80x1024_S4x196x80x1024_0_1_2_3 _ (ix4 b p k s) (ix4 (0 : Fin 1) (0 : Fin 1) k s)
      (fun a => match a with | ⟨0, _⟩ => rfl | ⟨1, _⟩ => rfl | ⟨2, _⟩ => rfl | ⟨3, _⟩ => rfl)).trans
    (broadcastInDim_apply _ bcast_S80x1024_S1x1x80x1024_2_3 _ (ix4 (0 : Fin 1) (0 : Fin 1) k s) (ix2 k s)
      (fun a => match a with | ⟨0, _⟩ => rfl | ⟨1, _⟩ => rfl))
  show Ideal.tanh (_ * _) = _
  rw [h1, h2]

/-- The first layer at (b, p, k, t): the fused features of (b, p, k) against row t of the layer, plus the bias at t. -/
theorem hid_apply (b : Fin 4) (p : Fin 196) (k : Fin 80) (t : Fin 1024) :
    hid X a1 a2 a3 a4 a5 (ix4 b p k t)
      = (∑ s : Fin 1024, fus X a1 a2 a3 (ix4 b p k s) * a4 (ix2 t s)) + a5 (ix1 t) := by
  have h2 : broadcastInDim S4x196x80x1024 ![0, 1, 2, 3] bcast_S1x1x1x1024_S4x196x80x1024_0_1_2_3
      (broadcastInDim S1x1x1x1024 ![3] bcast_S1024_S1x1x1x1024_3 a5) (ix4 b p k t) = a5 (ix1 t) :=
    (broadcastInDim_apply _ bcast_S1x1x1x1024_S4x196x80x1024_0_1_2_3 _ (ix4 b p k t)
      (ix4 (0 : Fin 1) (0 : Fin 1) (0 : Fin 1) t)
      (fun a => match a with | ⟨0, _⟩ => rfl | ⟨1, _⟩ => rfl | ⟨2, _⟩ => rfl | ⟨3, _⟩ => rfl)).trans
    (broadcastInDim_apply _ bcast_S1024_S1x1x1x1024_3 _ (ix4 (0 : Fin 1) (0 : Fin 1) (0 : Fin 1) t) (ix1 t)
      (fun a => match a with | ⟨0, _⟩ => rfl))
  show _ + _ = _
  rw [dotC_apply, h2]

/-- The second layer at (b, p, k): the first layer's row against the layer's one row, plus the scalar bias. -/
theorem lgt_apply (b : Fin 4) (p : Fin 196) (k : Fin 80) :
    lgt X a1 a2 a3 a4 a5 a6 a7 (ix4 b p k (0 : Fin 1))
      = (∑ t : Fin 1024, hid X a1 a2 a3 a4 a5 (ix4 b p k t) * a6 (ix2 (0 : Fin 1) t)) + a7 (ix1 (0 : Fin 1)) := by
  have h2 : broadcastInDim S4x196x80x1 ![0, 1, 2, 3] bcast_S1x1x1x1_S4x196x80x1_0_1_2_3
      (broadcastInDim S1x1x1x1 ![3] bcast_S1_S1x1x1x1_3 a7) (ix4 b p k (0 : Fin 1)) = a7 (ix1 (0 : Fin 1)) :=
    (broadcastInDim_apply _ bcast_S1x1x1x1_S4x196x80x1_0_1_2_3 _ (ix4 b p k (0 : Fin 1))
      (ix4 (0 : Fin 1) (0 : Fin 1) (0 : Fin 1) (0 : Fin 1))
      (fun a => match a with | ⟨0, _⟩ => rfl | ⟨1, _⟩ => rfl | ⟨2, _⟩ => rfl | ⟨3, _⟩ => rfl)).trans
    (broadcastInDim_apply _ bcast_S1_S1x1x1x1_3 _ (ix4 (0 : Fin 1) (0 : Fin 1) (0 : Fin 1) (0 : Fin 1)) (ix1 (0 : Fin 1))
      (fun a => match a with | ⟨0, _⟩ => rfl))
  show _ + _ = _
  rw [dotD_apply, h2]

/-- The scores over the map: position (s1, s2) is pixel 14·s1 + s2, the same row-major position in both layouts. -/
theorem lgt4_apply (b : Fin 4) (s1 s2 : Fin 14) (k : Fin 80) :
    lgt4 X a1 a2 a3 a4 a5 a6 a7 (ix4 b s1 s2 k) = lgt X a1 a2 a3 a4 a5 a6 a7 (ix4 b (Spec.pix s1 s2) k (0 : Fin 1)) := by
  unfold lgt4
  exact shapeCast_apply _ shapeCasts_S4x196x80x1_S4x14x14x80 (ix4 b s1 s2 k) (ix4 b (Spec.pix s1 s2) k (0 : Fin 1)) (by
    rw [Shape.rowMajor_val_four, Shape.rowMajor_val_four]
    show ((b.val * 196 + (s1.val * 14 + s2.val)) * 80 + k.val) * 1 + 0 = ((b.val * 14 + s1.val) * 14 + s2.val) * 80 + k.val
    omega)

/-- A value per pixel repeated along the class axis reads, at (b, s1, s2, k), the value at (b, s1, s2). -/
theorem perPixel_apply (v : Arr S4x14x14) (b : Fin 4) (s1 s2 : Fin 14) (k : Fin 80) :
    broadcastInDim S4x14x14x80 ![0, 1, 2, 3] bcast_S4x14x14x1_S4x14x14x80_0_1_2_3
      (broadcastInDim S4x14x14x1 ![0, 1, 2] bcast_S4x14x14_S4x14x14x1_0_1_2 v) (ix4 b s1 s2 k) = v (ix3 b s1 s2) :=
  (broadcastInDim_apply _ bcast_S4x14x14x1_S4x14x14x80_0_1_2_3 _ (ix4 b s1 s2 k) (ix4 b s1 s2 (0 : Fin 1))
    (fun a => match a with | ⟨0, _⟩ => rfl | ⟨1, _⟩ => rfl | ⟨2, _⟩ => rfl | ⟨3, _⟩ => rfl)).trans
  (broadcastInDim_apply _ bcast_S4x14x14_S4x14x14x1_0_1_2 _ (ix4 b s1 s2 (0 : Fin 1)) (ix3 b s1 s2)
    (fun a => match a with | ⟨0, _⟩ => rfl | ⟨1, _⟩ => rfl | ⟨2, _⟩ => rfl))

/-- The class axis of the score array can be reduced away. -/
theorem reducesClass : S4x14x14x80.Reduces [3] S4x14x14 := by decide

/-- The index over (b, s1, s2) with class k inserted is (b, s1, s2, k). -/
theorem lift_class (b : Fin 4) (s1 s2 : Fin 14) (k : Fin 80) :
    reducesClass.lift (ix3 b s1 s2) k = ix4 b s1 s2 k :=
  funext fun a => Fin.ext (by
    match a with
    | ⟨0, _⟩ => rfl
    | ⟨1, _⟩ => rfl
    | ⟨2, _⟩ => rfl
    | ⟨3, _⟩ => rfl)

/-- The largest score of a pixel: the maximum over the classes started at −∞, clamped from below by −∞ once more. -/
theorem mx_apply (b : Fin 4) (s1 s2 : Fin 14) :
    mx X a1 a2 a3 a4 a5 a6 a7 (ix3 b s1 s2)
      = max Spec.negInf ((Finset.univ : Finset (Fin 80)).fold max Spec.negInf
          (fun k => lgt4 X a1 a2 a3 a4 a5 a6 a7 (ix4 b s1 s2 k))) := by
  have h2 : Host.reduce FloatOps.maximumf (lgt4 X a1 a2 a3 a4 a5 a6 a7) (constant S_ .f32 0xFF800000#32)
        reducesTo_S4x14x14x80_S4x14x14_d3 h_S_ (ix3 b s1 s2)
      = (Finset.univ : Finset (Fin 80)).fold max Spec.negInf (fun k => lgt4 X a1 a2 a3 a4 a5 a6 a7 (ix4 b s1 s2 k)) := by
    refine (Host.reduce_eq_fold_single FloatOps.maximumf _ _ reducesTo_S4x14x14x80_S4x14x14_d3 reducesClass h_S_
      (ix3 b s1 s2)).trans ?_
    have hf : (lgt4 X a1 a2 a3 a4 a5 a6 a7 ∘ reducesClass.lift (ix3 b s1 s2)) = fun k : Fin 80 => lgt4 X a1 a2 a3 a4 a5 a6 a7 (ix4 b s1 s2 k) :=
      funext fun k => congrArg (lgt4 X a1 a2 a3 a4 a5 a6 a7) (lift_class b s1 s2 k)
    rw [hf]
    rfl
  show max _ _ = _
  rw [h2]
  rfl

/-- A shifted exponential. -/
theorem ex_apply (b : Fin 4) (s1 s2 : Fin 14) (k : Fin 80) :
    ex X a1 a2 a3 a4 a5 a6 a7 (ix4 b s1 s2 k) = Ideal.exp (lgt4 X a1 a2 a3 a4 a5 a6 a7 (ix4 b s1 s2 k) - mx X a1 a2 a3 a4 a5 a6 a7 (ix3 b s1 s2)) := by
  show Ideal.exp (_ - _) = _
  rw [perPixel_apply]

/-- The sum of a pixel's shifted exponentials over the classes (the sum starts at zero). -/
theorem den_apply (b : Fin 4) (s1 s2 : Fin 14) :
    den X a1 a2 a3 a4 a5 a6 a7 (ix3 b s1 s2) = ∑ k : Fin 80, ex X a1 a2 a3 a4 a5 a6 a7 (ix4 b s1 s2 k) := by
  unfold den
  simp only [Host.reduceAdd, Ideal.hostReduceAdd_def]
  rw [Ideal.hostReduceAdd_single reducesTo_S4x14x14x80_S4x14x14_d3 reducesClass]
  show Ideal.ofBits .f32 0x00000000#32 + _ = _
  rw [Ideal.ofBits_zero_f32, zero_add]
  exact Finset.sum_congr rfl fun k _ => congrArg _ (lift_class b s1 s2 k)

/-- An attention weight: the shifted exponential over the pixel's sum. -/
theorem attn_apply (b : Fin 4) (s1 s2 : Fin 14) (k : Fin 80) :
    attn X a1 a2 a3 a4 a5 a6 a7 (ix4 b s1 s2 k) = Ideal.div (ex X a1 a2 a3 a4 a5 a6 a7 (ix4 b s1 s2 k)) (den X a1 a2 a3 a4 a5 a6 a7 (ix3 b s1 s2)) := by
  show Ideal.div _ _ = _
  rw [perPixel_apply]

/-- A class-weighted feature: the pixel's feature times the pixel's weight of the class. -/
theorem fmwc_apply (b : Fin 4) (s1 s2 : Fin 14) (k : Fin 80) (ch : Fin 2048) :
    fmwc X a1 a2 a3 a4 a5 a6 a7 (ix5 b s1 s2 k ch) = X (ix3 b (Spec.pix s1 s2) ch) * attn X a1 a2 a3 a4 a5 a6 a7 (ix4 b s1 s2 k) := by
  have h1 : broadcastInDim S4x14x14x80x2048 ![0, 1, 2, 3, 4] bcast_S4x14x14x1x2048_S4x14x14x80x2048_0_1_2_3_4
      (shapeCast _ X shapeCasts_S4x196x2048_S4x14x14x1x2048) (ix5 b s1 s2 k ch) = X (ix3 b (Spec.pix s1 s2) ch) :=
    (broadcastInDim_apply _ bcast_S4x14x14x1x2048_S4x14x14x80x2048_0_1_2_3_4 _ (ix5 b s1 s2 k ch)
      (ix5 b s1 s2 (0 : Fin 1) ch)
      (fun a => match a with | ⟨0, _⟩ => rfl | ⟨1, _⟩ => rfl | ⟨2, _⟩ => rfl | ⟨3, _⟩ => rfl | ⟨4, _⟩ => rfl)).trans
    (shapeCast_apply X shapeCasts_S4x196x2048_S4x14x14x1x2048 (ix5 b s1 s2 (0 : Fin 1) ch) (ix3 b (Spec.pix s1 s2) ch) (by
      rw [Shape.rowMajor_val_three, Shape.rowMajor_val_five]
      show (b.val * 196 + (s1.val * 14 + s2.val)) * 2048 + ch.val
        = (((b.val * 14 + s1.val) * 14 + s2.val) * 1 + 0) * 2048 + ch.val
      omega))
  have h2 : broadcastInDim S4x14x14x80x2048 ![0, 1, 2, 3, 4] bcast_S4x14x14x80x1_S4x14x14x80x2048_0_1_2_3_4
      (broadcastInDim S4x14x14x80x1 ![0, 1, 2, 3] bcast_S4x14x14x80_S4x14x14x80x1_0_1_2_3 (attn X a1 a2 a3 a4 a5 a6 a7))
        (ix5 b s1 s2 k ch) = attn X a1 a2 a3 a4 a5 a6 a7 (ix4 b s1 s2 k) :=
    (broadcastInDim_apply _ bcast_S4x14x14x80x1_S4x14x14x80x2048_0_1_2_3_4 _ (ix5 b s1 s2 k ch)
      (ix5 b s1 s2 k (0 : Fin 1))
      (fun a => match a with | ⟨0, _⟩ => rfl | ⟨1, _⟩ => rfl | ⟨2, _⟩ => rfl | ⟨3, _⟩ => rfl | ⟨4, _⟩ => rfl)).trans
    (broadcastInDim_apply _ bcast_S4x14x14x80_S4x14x14x80x1_0_1_2_3 _ (ix5 b s1 s2 k (0 : Fin 1)) (ix4 b s1 s2 k)
      (fun a => match a with | ⟨0, _⟩ => rfl | ⟨1, _⟩ => rfl | ⟨2, _⟩ => rfl | ⟨3, _⟩ => rfl))
  show _ * _ = _
  rw [h1, h2]

end Reads

/-! ## The sum over the map

The last stage sums the weighted features over the two map axes. At a result index j = (b, k, c) it adds the source at
every index that drops to j; those are exactly the indices (b, s1, s2, k, c) over the 14 × 14 positions. -/

section MapSum

/-- Dropping the two map axes keeps coordinates 0, 3 and 4 of the source index, in that order. -/
theorem drop_val0 (i : S4x14x14x80x2048.Idx) : (reducesTo_S4x14x14x80x2048_S4x80x2048_d1_2.drop i 0).val = (i 0).val :=
  Shape.ReducesTo.drop_apply_val_of_eq reducesTo_S4x14x14x80x2048_S4x80x2048_d1_2 i 0 0
theorem drop_val1 (i : S4x14x14x80x2048.Idx) : (reducesTo_S4x14x14x80x2048_S4x80x2048_d1_2.drop i 1).val = (i 3).val :=
  Shape.ReducesTo.drop_apply_val_of_eq reducesTo_S4x14x14x80x2048_S4x80x2048_d1_2 i 1 3
theorem drop_val2 (i : S4x14x14x80x2048.Idx) : (reducesTo_S4x14x14x80x2048_S4x80x2048_d1_2.drop i 2).val = (i 4).val :=
  Shape.ReducesTo.drop_apply_val_of_eq reducesTo_S4x14x14x80x2048_S4x80x2048_d1_2 i 2 4

/-- The source indices over a result index j, one per map position. -/
def mapEmb (j : S4x80x2048.Idx) : Fin 14 × Fin 14 ↪ S4x14x14x80x2048.Idx :=
  ⟨fun q => ix5 (j 0) q.1 q.2 (j 1) (j 2), fun q q' h => Prod.ext (congrFun h 1) (congrFun h 2)⟩

/-- The indices that drop to j are those. -/
theorem filter_drop (j : S4x80x2048.Idx) :
    Finset.univ.filter (fun i : S4x14x14x80x2048.Idx => reducesTo_S4x14x14x80x2048_S4x80x2048_d1_2.drop i = j) = Finset.univ.map (mapEmb j) := by
  ext i
  rw [Finset.mem_filter, Finset.mem_map]
  constructor
  · rintro ⟨-, h⟩
    refine ⟨(i 1, i 2), Finset.mem_univ _, ?_⟩
    show ix5 (j 0) (i 1) (i 2) (j 1) (j 2) = i
    subst h
    funext a
    apply Fin.ext
    match a with
    | ⟨0, _⟩ => exact drop_val0 i
    | ⟨1, _⟩ => rfl
    | ⟨2, _⟩ => rfl
    | ⟨3, _⟩ => exact drop_val1 i
    | ⟨4, _⟩ => exact drop_val2 i
  · rintro ⟨q, -, rfl⟩
    refine ⟨Finset.mem_univ _, ?_⟩
    show reducesTo_S4x14x14x80x2048_S4x80x2048_d1_2.drop (ix5 (j 0) q.1 q.2 (j 1) (j 2)) = j
    funext a
    apply Fin.ext
    match a with
    | ⟨0, _⟩ => exact drop_val0 _
    | ⟨1, _⟩ => exact drop_val1 _
    | ⟨2, _⟩ => exact drop_val2 _

variable (X : Arr S4x196x2048) (a1 : Arr S80x300) (a2 : Arr S1024x2048) (a3 : Arr S1024x300) (a4 : Arr S1024x1024)
  (a5 : Arr S1024) (a6 : Arr S1x1024) (a7 : Arr S1)

/-- The weighted features summed over the map (the sum starts at zero). -/
theorem sem_apply (b : Fin 4) (k : Fin 80) (ch : Fin 2048) :
    sem X a1 a2 a3 a4 a5 a6 a7 (ix3 b k ch) = ∑ s1 : Fin 14, ∑ s2 : Fin 14, fmwc X a1 a2 a3 a4 a5 a6 a7 (ix5 b s1 s2 k ch) := by
  unfold sem
  simp only [Host.reduceAdd, Ideal.hostReduceAdd_def]
  unfold Ideal.hostReduceAdd
  rw [filter_drop, Finset.sum_map, Fintype.sum_prod_type]
  show Ideal.ofBits .f32 0x00000000#32 + _ = _
  rw [Ideal.ofBits_zero_f32, zero_add]
  rfl

end MapSum

/-! ## The stages are the specification's functions

The specification groups the arithmetic the way these stages do (the two linear layers one after the other), so each
stage at its coordinates is the specification's function of the same name, with no condition on the inputs. -/

section Spec

variable (X : Arr S4x196x2048) (a1 : Arr S80x300) (a2 : Arr S1024x2048) (a3 : Arr S1024x300) (a4 : Arr S1024x1024)
  (a5 : Arr S1024) (a6 : Arr S1x1024) (a7 : Arr S1)

/-- A fused feature. -/
theorem fus_eq (b : Fin 4) (p : Fin 196) (k : Fin 80) (s : Fin 1024) :
    fus X a1 a2 a3 (ix4 b p k s) = Spec.fusion X a1 a2 a3 b p k s := by
  rw [fus_apply, imgP_apply, wordP_apply]
  rfl

/-- A score: the two layers applied one after the other to the fused features of (b, p, k). -/
theorem lgt_eq (b : Fin 4) (p : Fin 196) (k : Fin 80) :
    lgt X a1 a2 a3 a4 a5 a6 a7 (ix4 b p k (0 : Fin 1)) = Spec.logitR (Spec.fusion X a1 a2 a3 b p k) a4 a5 a6 a7 := by
  rw [lgt_apply]
  unfold Spec.logitR
  refine congrArg (· + a7 (ix1 (0 : Fin 1))) (Finset.sum_congr rfl fun t _ => ?_)
  rw [hid_apply]
  refine congrArg (· * a6 (ix2 (0 : Fin 1) t)) (congrArg (· + a5 (ix1 t)) (Finset.sum_congr rfl fun s _ => ?_))
  rw [fus_eq]

/-- The score of class k at map position (s1, s2). -/
theorem lgt4_eq (b : Fin 4) (s1 s2 : Fin 14) (k : Fin 80) :
    lgt4 X a1 a2 a3 a4 a5 a6 a7 (ix4 b s1 s2 k) = Spec.logitR (Spec.fusion X a1 a2 a3 b (Spec.pix s1 s2) k) a4 a5 a6 a7 := by
  rw [lgt4_apply, lgt_eq]

/-- The largest score at a map position. -/
theorem mx_eq (b : Fin 4) (s1 s2 : Fin 14) :
    mx X a1 a2 a3 a4 a5 a6 a7 (ix3 b s1 s2) = Spec.rowMax (fun k' => Spec.logitR (Spec.fusion X a1 a2 a3 b (Spec.pix s1 s2) k') a4 a5 a6 a7) := by
  rw [mx_apply]
  unfold Spec.rowMax
  have hf : (fun k => lgt4 X a1 a2 a3 a4 a5 a6 a7 (ix4 b s1 s2 k)) = (fun k' => Spec.logitR (Spec.fusion X a1 a2 a3 b (Spec.pix s1 s2) k') a4 a5 a6 a7) := funext fun k => lgt4_eq X a1 a2 a3 a4 a5 a6 a7 b s1 s2 k
  rw [hf]

/-- A shifted exponential. -/
theorem ex_eq (b : Fin 4) (s1 s2 : Fin 14) (k : Fin 80) :
    ex X a1 a2 a3 a4 a5 a6 a7 (ix4 b s1 s2 k) = Spec.shiftExp (fun k' => Spec.logitR (Spec.fusion X a1 a2 a3 b (Spec.pix s1 s2) k') a4 a5 a6 a7) k := by
  rw [ex_apply, lgt4_eq, mx_eq]
  rfl

/-- The sum of the shifted exponentials at a map position. -/
theorem den_eq (b : Fin 4) (s1 s2 : Fin 14) :
    den X a1 a2 a3 a4 a5 a6 a7 (ix3 b s1 s2) = ∑ k' : Fin 80, Spec.shiftExp (fun k' => Spec.logitR (Spec.fusion X a1 a2 a3 b (Spec.pix s1 s2) k') a4 a5 a6 a7) k' := by
  rw [den_apply]
  exact Finset.sum_congr rfl fun k _ => ex_eq X a1 a2 a3 a4 a5 a6 a7 b s1 s2 k

/-- An attention weight. -/
theorem attn_eq (b : Fin 4) (s1 s2 : Fin 14) (k : Fin 80) :
    attn X a1 a2 a3 a4 a5 a6 a7 (ix4 b s1 s2 k) = Spec.attnR X a1 a2 a3 a4 a5 a6 a7 b s1 s2 k := by
  rw [attn_apply, ex_eq, den_eq]
  rfl

/-- A class-weighted feature. -/
theorem fmwc_eq (b : Fin 4) (s1 s2 : Fin 14) (k : Fin 80) (ch : Fin 2048) :
    fmwc X a1 a2 a3 a4 a5 a6 a7 (ix5 b s1 s2 k ch) = Spec.fmwcR X a1 a2 a3 a4 a5 a6 a7 b s1 s2 k ch := by
  rw [fmwc_apply, attn_eq]
  rfl

/-- The weighted features summed over the map. -/
theorem sem_eq (b : Fin 4) (k : Fin 80) (ch : Fin 2048) :
    sem X a1 a2 a3 a4 a5 a6 a7 (ix3 b k ch) = Spec.semR X a1 a2 a3 a4 a5 a6 a7 b k ch := by
  rw [sem_apply]
  unfold Spec.semR
  exact Finset.sum_congr rfl fun s1 _ => Finset.sum_congr rfl fun s2 _ => fmwc_eq X a1 a2 a3 a4 a5 a6 a7 b s1 s2 k ch

end Spec

/-! ## The program's three results, entry by entry -/

section Entries

variable (m : (ℓ : Loc nD τ sig) → Buf (Elt Ideal) ℓ) (c : Dev nD)

/-- The attention weights the program returns. -/
theorem res_out2_apply (b : Fin 4) (s1 s2 : Fin 14) (k : Fin 80) :
    Cert.ReferenceIdeal.Value.res_out2 m c (ix4 b s1 s2 k) = Spec.attnR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) b s1 s2 k :=
  (congrFun (res_out2_eq_attn m c) (ix4 b s1 s2 k)).trans (attn_eq _ _ _ _ _ _ _ _ b s1 s2 k)

/-- The class-weighted features the program returns. -/
theorem res_out1_apply (b : Fin 4) (s1 s2 : Fin 14) (k : Fin 80) (ch : Fin 2048) :
    Cert.ReferenceIdeal.Value.res_out1 m c (ix5 b s1 s2 k ch) = Spec.fmwcR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) b s1 s2 k ch :=
  (congrFun (res_out1_eq_fmwc m c) (ix5 b s1 s2 k ch)).trans (fmwc_eq _ _ _ _ _ _ _ _ b s1 s2 k ch)

/-- The summed features the program returns. -/
theorem res_out0_apply (b : Fin 4) (k : Fin 80) (ch : Fin 2048) :
    Cert.ReferenceIdeal.Value.res_out0 m c (ix3 b k ch) = Spec.semR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) b k ch :=
  (congrFun (res_out0_eq_sem m c) (ix3 b k ch)).trans (sem_eq _ _ _ _ _ _ _ _ b k ch)

/-- The same three, as functions of the index. -/
theorem res_out2_fun :
    Cert.ReferenceIdeal.Value.res_out2 m c = fun i => Spec.attnR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (i 0) (i 1) (i 2) (i 3) := by
  funext i
  have h := res_out2_apply m c (i 0) (i 1) (i 2) (i 3)
  exact (congrArg (Cert.ReferenceIdeal.Value.res_out2 m c) (eq_ix4 i)).trans h

theorem res_out1_fun :
    Cert.ReferenceIdeal.Value.res_out1 m c = fun i => Spec.fmwcR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (i 0) (i 1) (i 2) (i 3) (i 4) := by
  funext i
  have h := res_out1_apply m c (i 0) (i 1) (i 2) (i 3) (i 4)
  exact (congrArg (Cert.ReferenceIdeal.Value.res_out1 m c) (eq_ix5 i)).trans h

theorem res_out0_fun :
    Cert.ReferenceIdeal.Value.res_out0 m c = fun i => Spec.semR (refX (m ((c.tc : Thread nD τ).loc main_arg0)))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (i 0) (i 1) (i 2) := by
  funext i
  have h := res_out0_apply m c (i 0) (i 1) (i 2)
  exact (congrArg (Cert.ReferenceIdeal.Value.res_out0 m c) (eq_ix3 i)).trans h

end Entries

end Cert.RefSpec

end
-- ==== Proof.lean ====
/-
  The two programs compute, from image features and class word features, attention weights over 80 classes for each
  pixel of a 14 × 14 map (a softmax of a score that two linear layers give from a fused feature), the pixel features
  weighted by them, and the weighted features summed over the map.

  Read on the extended reals, every operation exact, the two differ in one place. One applies the first layer, adds
  its bias, applies the second layer and adds its bias; the other composes the two layers into one row and one scalar
  first and applies that to the fused feature. The law that joins them,

      Σ_t (Σ_s f_s · A(t,s) + b_t) · w_t + d  =  Σ_s f_s · (Σ_t w_t · A(t,s)) + (Σ_t b_t · w_t + d),

  is distributivity and an exchange of two finite sums. It holds when every entry is a real number: the fused feature
  is a hyperbolic tangent, always real, and the two layers and their biases are real because the precondition says
  every input entry is finite. With equal scores the softmax, the weighted features and their sums agree; in the sum
  over the map the two programs also write each product with its factors in the other order, which is commutativity.

  So: one program ends with its three arrays at the composed-layer functions of its arguments, the other with its
  three at the layer-by-layer functions of its own; the arguments agree; the pixel features both read are the same
  re-laying of the image map; and under the precondition the two families of functions are equal.
-/
import proofs.«147217_j83820581749246_2_alg».proof.Defs
import proofs.«147217_j83820581749246_2_alg».proof.Proof.Gen.Kernel
import proofs.«147217_j83820581749246_2_alg».proof.Proof.Gen.Kernel.Skeleton
import proofs.«147217_j83820581749246_2_alg».proof.Proof.Gen.Kernel.Launch
import proofs.«147217_j83820581749246_2_alg».proof.Proof.Gen.Kernel.Points
import proofs.«147217_j83820581749246_2_alg».proof.Proof.Gen.Kernel.Frame
import proofs.«147217_j83820581749246_2_alg».proof.Proof.Gen.KernelIdeal
import proofs.«147217_j83820581749246_2_alg».proof.Proof.Gen.KernelIdeal.Skeleton
import proofs.«147217_j83820581749246_2_alg».proof.Proof.Gen.KernelIdeal.Launch
import proofs.«147217_j83820581749246_2_alg».proof.Proof.Gen.KernelIdeal.Points
import proofs.«147217_j83820581749246_2_alg».proof.Proof.Gen.KernelIdeal.Frame
import proofs.«147217_j83820581749246_2_alg».proof.Proof.Gen.ReferenceIdeal
import proofs.«147217_j83820581749246_2_alg».proof.Proof.Gen.Pre_finite_inputs
import proofs.«147217_j83820581749246_2_alg».proof.Proof.Gen.KernelIdeal.Value
import proofs.«147217_j83820581749246_2_alg».proof.Proof.Gen.ReferenceIdeal.Run
import proofs.«147217_j83820581749246_2_alg».proof.Proof.Spec
import proofs.«147217_j83820581749246_2_alg».proof.Proof.Algebra
import proofs.«147217_j83820581749246_2_alg».proof.Proof.Finite
import proofs.«147217_j83820581749246_2_alg».proof.Proof.KHost
import proofs.«147217_j83820581749246_2_alg».proof.Proof.KFinal
import proofs.«147217_j83820581749246_2_alg».proof.Proof.RefSpec
import Idealize.ShloMosaic.Adequacy
import Idealize.ShloMosaic.Init

noncomputable section

namespace Cert.Proof.Claims

open Idealize.ShloMosaic Idealize.ShloMosaic.TcCoe Idealize.SL.Sem

/-! ## Each program runs and leaves its arguments unchanged -/

theorem frame_k : Cert.frame_Kernel := fun m ρ _ => Cert.Kernel.Gen.frame m ρ

theorem frame_ki : Cert.frame_KernelIdeal := fun m ρ _ => Cert.KernelIdeal.Gen.frame m ρ

/-- The layer-by-layer program's run states its three results first; what is left is the arguments unchanged. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten between the program as printed and the program read on the extended reals. -/
theorem preserves : Cert.preserves_Kernel_KernelIdeal := trivial

/-! ## The two programs end with equal results -/

section Agree

variable (m : (ℓ : Loc Cert.KernelIdeal.nD Cert.KernelIdeal.τ Cert.KernelIdeal.sig) → Buf (Elt Ideal) ℓ) (c : Dev Cert.KernelIdeal.nD)

/-- Both programs read the same pixel features: the image map with its axes permuted and re-laid as
    (batch, pixel, channel). -/
theorem pixels_eq :
    Cert.KernelIdeal.HostSide.pixels m c = Cert.RefSpec.refX (m ((c.tc : Thread Cert.KernelIdeal.nD Cert.KernelIdeal.τ).loc Cert.KernelIdeal.main_arg0)) := rfl

/-- With finite layers, the layer-by-layer sums over the map are the composed-layer ones. -/
theorem sem_agree (h4 : ∀ i, ∃ r : ℝ, (m ((c.tc : Thread Cert.KernelIdeal.nD Cert.KernelIdeal.τ).loc Cert.KernelIdeal.main_arg4)) i = (r : EReal))
    (h5 : ∀ i, ∃ r : ℝ, (m ((c.tc : Thread Cert.KernelIdeal.nD Cert.KernelIdeal.τ).loc Cert.KernelIdeal.main_arg5)) i = (r : EReal))
    (h6 : ∀ i, ∃ r : ℝ, (m ((c.tc : Thread Cert.KernelIdeal.nD Cert.KernelIdeal.τ).loc Cert.KernelIdeal.main_arg6)) i = (r : EReal))
    (h7 : ∀ i, ∃ r : ℝ, (m ((c.tc : Thread Cert.KernelIdeal.nD Cert.KernelIdeal.τ).loc Cert.KernelIdeal.main_arg7)) i = (r : EReal)) :
    (fun i => Cert.Spec.semR (Cert.RefSpec.refX (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2))
      = Cert.KernelIdeal.Final.semArr m c := by
  funext i
  show _ = Cert.Spec.semK (Cert.KernelIdeal.HostSide.pixels m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2)
  rw [pixels_eq, Cert.Algebra.semK_eq_semR _ _ _ _ _ _ _ _ h4 h5 h6 h7]

/-- With finite layers, the layer-by-layer weighted features are the composed-layer ones. -/
theorem fmwc_agree (h4 : ∀ i, ∃ r : ℝ, (m ((c.tc : Thread Cert.KernelIdeal.nD Cert.KernelIdeal.τ).loc Cert.KernelIdeal.main_arg4)) i = (r : EReal))
    (h5 : ∀ i, ∃ r : ℝ, (m ((c.tc : Thread Cert.KernelIdeal.nD Cert.KernelIdeal.τ).loc Cert.KernelIdeal.main_arg5)) i = (r : EReal))
    (h6 : ∀ i, ∃ r : ℝ, (m ((c.tc : Thread Cert.KernelIdeal.nD Cert.KernelIdeal.τ).loc Cert.KernelIdeal.main_arg6)) i = (r : EReal))
    (h7 : ∀ i, ∃ r : ℝ, (m ((c.tc : Thread Cert.KernelIdeal.nD Cert.KernelIdeal.τ).loc Cert.KernelIdeal.main_arg7)) i = (r : EReal)) :
    (fun i => Cert.Spec.fmwcR (Cert.RefSpec.refX (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2) (i 3) (i 4))
      = Cert.KernelIdeal.Final.fmwcArr m c := by
  funext i
  show _ = Cert.Spec.fmwcK (Cert.KernelIdeal.HostSide.pixels m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2) (i 3) (i 4)
  rw [pixels_eq, Cert.Algebra.fmwcK_eq_fmwcR _ _ _ _ _ _ _ _ h4 h5 h6 h7]

/-- With finite layers, the layer-by-layer attention weights are the composed-layer ones. -/
theorem attn_agree (h4 : ∀ i, ∃ r : ℝ, (m ((c.tc : Thread Cert.KernelIdeal.nD Cert.KernelIdeal.τ).loc Cert.KernelIdeal.main_arg4)) i = (r : EReal))
    (h5 : ∀ i, ∃ r : ℝ, (m ((c.tc : Thread Cert.KernelIdeal.nD Cert.KernelIdeal.τ).loc Cert.KernelIdeal.main_arg5)) i = (r : EReal))
    (h6 : ∀ i, ∃ r : ℝ, (m ((c.tc : Thread Cert.KernelIdeal.nD Cert.KernelIdeal.τ).loc Cert.KernelIdeal.main_arg6)) i = (r : EReal))
    (h7 : ∀ i, ∃ r : ℝ, (m ((c.tc : Thread Cert.KernelIdeal.nD Cert.KernelIdeal.τ).loc Cert.KernelIdeal.main_arg7)) i = (r : EReal)) :
    (fun i => Cert.Spec.attnR (Cert.RefSpec.refX (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2) (i 3))
      = Cert.KernelIdeal.Final.attnArr m c := by
  funext i
  show _ = Cert.Spec.attnK (Cert.KernelIdeal.HostSide.pixels m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2) (i 3)
  rw [pixels_eq, Cert.Algebra.attnK_eq_attnR _ _ _ _ _ _ _ _ h4 h5 h6 h7]

end Agree

/-- From memories that agree on the eight arguments, of which the precondition holds, both programs run; the
    composed-layer program ends with its three arrays at the composed-layer functions of its arguments, the
    layer-by-layer program with its three at the layer-by-layer functions of its own, and those are equal: the
    arguments agree, and the precondition makes the two layers and their biases finite. -/
theorem algebraic : Cert.algebraic_KernelIdeal_ReferenceIdeal := by
  intro m ρ m' ρ' hpre hagree
  refine ⟨fun c => Cert.KernelIdeal.Final.semArr m c, fun c => Cert.KernelIdeal.Final.fmwcArr m c,
    fun c => Cert.KernelIdeal.Final.attnArr m c, Cert.KernelIdeal.Final.run m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  obtain ⟨h4, h5, h6, h7⟩ := Cert.Finite.layers_finite _ _ _ _ _ _ _ _ (hpre c)
  refine ⟨(h c).1.trans ((Cert.RefSpec.res_out0_fun m' c).trans ?_),
    (h c).2.1.trans ((Cert.RefSpec.res_out1_fun m' c).trans ?_),
    (h c).2.2.1.trans ((Cert.RefSpec.res_out2_fun m' c).trans ?_), (h c).2.2.2⟩
  · rw [e0, e1, e2, e3, e4, e5, e6, e7]
    exact sem_agree m c h4 h5 h6 h7
  · rw [e0, e1, e2, e3, e4, e5, e6, e7]
    exact fmwc_agree m c h4 h5 h6 h7
  · rw [e0, e1, e2, e3, e4, e5, e6, e7]
    exact attn_agree m c h4 h5 h6 h7

end Cert.Proof.Claims

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
